-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_v98 : IVec S_ 1) (main_v101 : IVec S2 1) (main_c_39 : IVec S_ 1) : IVec S_ 1 :=
  let main_v102 : IVec S_ 1 := (fun x v => Host.reduce IntOp.andi x v reducesTo_S2_S_d0 h_S_) main_v101 main_c_39
  let main_v103 : IVec S_ 1 := andi main_v98 main_v102
  main_v103

def fn_part5 {F : FTy → Type} [FloatOps F] (main_arg19 : FVec F S64 .f32) (main_arg20 : FVec F S64x2 .f32) (main_arg21 : FVec F S2 .f32) (main_v83 : IVec S_ 1) (main_v84 : FVec F S128x64 .f32) (main_cst_32 : FVec F S_ .f32) : IVec S_ 1 :=
  let main_v85 : FVec F S128x64 .f32 := broadcastInDim S128x64 ![] bcast_S_S128x64 main_cst_32
  let main_v86 : IVec S128x64 1 := cmpf .olt main_v84 main_v85
  let main_c_33 : IVec S_ 1 := constantI S_ 1 1#1
  let main_v87 : IVec S_ 1 := (fun x v => Host.reduce IntOp.andi x v reducesTo_S128x64_S_d0_1 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x2 .f32 := Host.absf main_arg20
  let main_cst_36 : FVec F S_ .f32 := constant S_ .f32 0x7F800000#32
  let main_v95 : FVec F S64x2 .f32 := broadcastInDim S64x2 ![] bcast_S_S64x2 main_cst_36
  let main_v96 : IVec S64x2 1 := cmpf .olt main_v94 main_v95
  let main_c_37 : IVec S_ 1 := constantI S_ 1 1#1
  let main_v97 : IVec S_ 1 := (fun x v => Host.reduce IntOp.andi x v reducesTo_S64x2_S_d0_1 h_S_) main_v96 main_c_37
  let main_v98 : IVec S_ 1 := andi main_v93 main_v97
  let main_v99 : FVec F S2 .f32 := Host.absf main_arg21
  let main_cst_38 : FVec F S_ .f32 := constant S_ .f32 0x7F800000#32
  let main_v100 : FVec F S2 .f32 := broadcastInDim S2 ![] bcast_S_S2 main_cst_38
  let main_v101 : IVec S2 1 := cmpf .olt main_v99 main_v100
  let main_c_39 : IVec S_ 1 := constantI S_ 1 1#1
  fn_part6 (F := F) main_v98 main_v101 main_c_39

def fn_part4 {F : FTy → Type} [FloatOps F] (main_arg15 : FVec F S256 .f32) (main_arg16 : FVec F S256x128 .f32) (main_arg17 : FVec F S128 .f32) (main_arg18 : FVec F S128x64 .f32) (main_arg19 : FVec F S64 .f32) (main_arg20 : FVec F S64x2 .f32) (main_arg21 : FVec F S2 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x128 .f32 := Host.absf main_arg16
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x64 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S128 .f32) (main_arg13 : FVec F S128 .f32) (main_arg14 : FVec F S256x256 .f32) (main_arg15 : FVec F S256 .f32) (main_arg16 : FVec F S256x128 .f32) (main_arg17 : FVec F S128 .f32) (main_arg18 : FVec F S128x64 .f32) (main_arg19 : FVec F S64 .f32) (main_arg20 : FVec F S64x2 .f32) (main_arg21 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256x256 .f32 := Host.absf main_arg14
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S256x256 .f32) (main_arg15 : FVec F S256 .f32) (main_arg16 : FVec F S256x128 .f32) (main_arg17 : FVec F S128 .f32) (main_arg18 : FVec F S128x64 .f32) (main_arg19 : FVec F S64 .f32) (main_arg20 : FVec F S64x2 .f32) (main_arg21 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S256x256 .f32) (main_arg15 : FVec F S256 .f32) (main_arg16 : FVec F S256x128 .f32) (main_arg17 : FVec F S128 .f32) (main_arg18 : FVec F S128x64 .f32) (main_arg19 : FVec F S64 .f32) (main_arg20 : FVec F S64x2 .f32) (main_arg21 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S256x256 .f32) (main_arg15 : FVec F S256 .f32) (main_arg16 : FVec F S256x128 .f32) (main_arg17 : FVec F S128 .f32) (main_arg18 : FVec F S128x64 .f32) (main_arg19 : FVec F S64 .f32) (main_arg20 : FVec F S64x2 .f32) (main_arg21 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S800000x1 : Shape := ⟨2, ![800000, 1]⟩
abbrev S800000x128 : Shape := ⟨2, ![800000, 128]⟩
abbrev S800000x256 : Shape := ⟨2, ![800000, 256]⟩
abbrev S1x256 : Shape := ⟨2, ![1, 256]⟩
abbrev S1x64 : Shape := ⟨2, ![1, 64]⟩
abbrev S1x2 : Shape := ⟨2, ![1, 2]⟩
abbrev S800000x2 : Shape := ⟨2, ![800000, 2]⟩
abbrev S5000x256 : Shape := ⟨2, ![5000, 256]⟩
abbrev S5000x2 : Shape := ⟨2, ![5000, 2]⟩
abbrev S5000x64 : Shape := ⟨2, ![5000, 64]⟩

abbrev nBuf : Space → Nat
  | .hbm => 238
  | .vmem => 51
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S256x256, .f32⟩
  | 15 => ⟨S256, .f32⟩
  | 16 => ⟨S256x128, .f32⟩
  | 17 => ⟨S128, .f32⟩
  | 18 => ⟨S128x64, .f32⟩
  | 19 => ⟨S64, .f32⟩
  | 20 => ⟨S64x2, .f32⟩
  | 21 => ⟨S2, .f32⟩
  | 22 => ⟨S1x800000, .i32⟩
  | 23 => ⟨S800000, .i32⟩
  | 24 => ⟨S1x800000, .i32⟩
  | 25 => ⟨S800000, .i32⟩
  | 26 => ⟨S50000, .i32⟩
  | 27 => ⟨S850000, .i32⟩
  | 28 => ⟨S850000, .i32⟩
  | 29 => ⟨S_, .f32⟩
  | 30 => ⟨S850000, .f32⟩
  | 31 => ⟨S_, .f32⟩
  | 32 => ⟨S50000, .f32⟩
  | 33 => ⟨S850000x1, .i32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S50000x128, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x1, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S128, .f32⟩
  | 77 => ⟨S_, .f32⟩
  | 78 => ⟨S128, .f32⟩
  | 79 => ⟨S128, .f32⟩
  | 80 => ⟨S_, .i32⟩
  | 81 => ⟨S_, .f32⟩
  | 82 => ⟨S128, .f32⟩
  | 83 => ⟨S1x128, .f32⟩
  | 84 => ⟨S_, .f32⟩
  | 85 => ⟨S1x128, .f32⟩
  | 86 => ⟨S1x128, .f32⟩
  | 87 => ⟨S50000x128, .f32⟩
  | 88 => ⟨S50000x128, .f32⟩
  | 89 => ⟨S50000x128, .f32⟩
  | 90 => ⟨S_, .f32⟩
  | 91 => ⟨S_, .f32⟩
  | 92 => ⟨S_, .f32⟩
  | 93 => ⟨S_, .f32⟩
  | 94 => ⟨S128, .f32⟩
  | 95 => ⟨S128, .f32⟩
  | 96 => ⟨S128, .f32⟩
  | 97 => ⟨S_, .f32⟩
  | 98 => ⟨S_, .i1⟩
  | 99 => ⟨S_, .f32⟩
  | 100 => ⟨S_, .f32⟩
  | 101 => ⟨S128, .f32⟩
  | 102 => ⟨S128, .f32⟩
  | 103 => ⟨S1x128, .f32⟩
  | 104 => ⟨S1x128, .f32⟩
  | 105 => ⟨S1x128, .f32⟩
  | 106 => ⟨S1x128, .f32⟩
  | 107 => ⟨S50000x128, .f32⟩
  | 108 => ⟨S50000x128, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x128, .f32⟩
  | 118 => ⟨S850000x1, .f32⟩
  | 119 => ⟨S850000x128, .f32⟩
  | 120 => ⟨S850000x128, .f32⟩
  | 121 => ⟨S_, .f32⟩
  | 122 => ⟨S50000x128, .f32⟩
  | 123 => ⟨S850000x1, .i32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S_, .i32⟩
  | 6 => ⟨S_, .f32⟩
  | 7 => ⟨S128, .f32⟩
  | 8 => ⟨S1x128, .f32⟩
  | 9 => ⟨S_, .f32⟩
  | 10 => ⟨S1x128, .f32⟩
  | 11 => ⟨S1x128, .f32⟩
  | 12 => ⟨S50000x128, .f32⟩
  | 13 => ⟨S50000x128, .f32⟩
  | 14 => ⟨S50000x128, .f32⟩
  | 15 => ⟨S_, .f32⟩
  | 16 => ⟨S_, .f32⟩
  | 17 => ⟨S_, .f32⟩
  | 18 => ⟨S_, .f32⟩
  | 19 => ⟨S128, .f32⟩
  | 20 => ⟨S128, .f32⟩
  | 21 => ⟨S128, .f32⟩
  | 22 => ⟨S_, .f32⟩
  | 23 => ⟨S_, .i1⟩
  | 24 => ⟨S_, .f32⟩
  | 25 => ⟨S_, .f32⟩
  | 26 => ⟨S128, .f32⟩
  | 27 => ⟨S128, .f32⟩
  | 28 => ⟨S1x128, .f32⟩
  | 29 => ⟨S1x128, .f32⟩
  | 30 => ⟨S1x128, .f32⟩
  | 31 => ⟨S1x128, .f32⟩
  | 32 => ⟨S50000x128, .f32⟩
  | 33 => ⟨S50000x128, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000x128, .f32⟩
  | 43 => ⟨S850000x1, .f32⟩
  | 44 => ⟨S850000x128, .f32⟩
  | 45 => ⟨S850000x128, .f32⟩
  | 46 => ⟨S_, .f32⟩
  | 47 => ⟨S50000x128, .f32⟩
  | 48 => ⟨S850000x1, .i32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S50000x128, .f32⟩
  | 66 => ⟨S50000x128, .f32⟩
  | 67 => ⟨S50000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S1x128, .f32⟩
  | 83 => ⟨S1x128, .f32⟩
  | 84 => ⟨S1x128, .f32⟩
  | 85 => ⟨S50000x128, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S800000x256, .f32⟩
  | 105 => ⟨S1x256, .f32⟩
  | 106 => ⟨S1x128, .f32⟩
  | 107 => ⟨S1x64, .f32⟩
  | 108 => ⟨S1x2, .f32⟩
  | 109 => ⟨S800000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | .local _ .vmem, ⟨39, _⟩ => ⟨S5000x256, .f32⟩
  | .local _ .vmem, ⟨40, _⟩ => ⟨S5000x256, .f32⟩
  | .local _ .vmem, ⟨41, _⟩ => ⟨S256x256, .f32⟩
  | .local _ .vmem, ⟨42, _⟩ => ⟨S1x256, .f32⟩
  | .local _ .vmem, ⟨43, _⟩ => ⟨S256x128, .f32⟩
  | .local _ .vmem, ⟨44, _⟩ => ⟨S1x128, .f32⟩
  | .local _ .vmem, ⟨45, _⟩ => ⟨S128x64, .f32⟩
  | .local _ .vmem, ⟨46, _⟩ => ⟨S1x64, .f32⟩
  | .local _ .vmem, ⟨47, _⟩ => ⟨S64x2, .f32⟩
  | .local _ .vmem, ⟨48, _⟩ => ⟨S1x2, .f32⟩
  | .local _ .vmem, ⟨49, _⟩ => ⟨S5000x2, .f32⟩
  | .local _ .vmem, ⟨50, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_2 : Ref sig .tc := ⟨.hbm, 45, rfl⟩
abbrev main_v19 : Ref sig .tc := ⟨.hbm, 46, rfl⟩
abbrev main_v20 : Ref sig .tc := ⟨.hbm, 47, rfl⟩
abbrev main_c_3 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_4 : Ref sig .tc := ⟨.hbm, 56, rfl⟩
abbrev main_v28 : Ref sig .tc := ⟨.hbm, 57, rfl⟩
abbrev main_v29 : Ref sig .tc := ⟨.hbm, 58, rfl⟩
abbrev main_c_5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_6 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_7 : Ref sig .tc := ⟨.hbm, 75, rfl⟩
abbrev main_v44 : Ref sig .tc := ⟨.hbm, 76, rfl⟩
abbrev main_cst_8 : Ref sig .tc := ⟨.hbm, 77, rfl⟩
abbrev main_v45 : Ref sig .tc := ⟨.hbm, 78, rfl⟩
abbrev main_v46 : Ref sig .tc := ⟨.hbm, 79, rfl⟩
abbrev main_c_9 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_cst_0 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_cst_1 : Ref sig .tc := ⟨.hbm, 91, rfl⟩
abbrev main_call0_v8 : Ref sig .tc := ⟨.hbm, 92, rfl⟩
abbrev main_call0_cst_2 : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_call0_cst_3 : Ref sig .tc := ⟨.hbm, 97, rfl⟩
abbrev main_call0_v12 : Ref sig .tc := ⟨.hbm, 98, rfl⟩
abbrev main_call0_cst_4 : Ref sig .tc := ⟨.hbm, 99, rfl⟩
abbrev main_call0_call0_v0 : Ref sig .tc := ⟨.hbm, 100, rfl⟩
abbrev main_call0_call0_v1 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_c_10 : Ref sig .tc := ⟨.hbm, 109, rfl⟩
abbrev main_v54 : Ref sig .tc := ⟨.hbm, 110, rfl⟩
abbrev main_v55 : Ref sig .tc := ⟨.hbm, 111, rfl⟩
abbrev main_c_11 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_cst_12 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_13 : Ref sig .tc := ⟨.hbm, 128, rfl⟩
abbrev main_v70 : Ref sig .tc := ⟨.hbm, 129, rfl⟩
abbrev main_cst_14 : Ref sig .tc := ⟨.hbm, 130, rfl⟩
abbrev main_v71 : Ref sig .tc := ⟨.hbm, 131, rfl⟩
abbrev main_v72 : Ref sig .tc := ⟨.hbm, 132, rfl⟩
abbrev main_c_15 : Ref sig .tc := ⟨.hbm, 133, rfl⟩
abbrev main_call1_cst : Ref sig .tc := ⟨.hbm, 134, rfl⟩
abbrev main_call1_v0 : Ref sig .tc := ⟨.hbm, 135, rfl⟩
abbrev main_call1_v1 : Ref sig .tc := ⟨.hbm, 136, rfl⟩
abbrev main_call1_cst_0 : Ref sig .tc := ⟨.hbm, 137, rfl⟩
abbrev main_call1_v2 : Ref sig .tc := ⟨.hbm, 138, rfl⟩
abbrev main_call1_v3 : Ref sig .tc := ⟨.hbm, 139, rfl⟩
abbrev main_call1_v4 : Ref sig .tc := ⟨.hbm, 140, rfl⟩
abbrev main_call1_v5 : Ref sig .tc := ⟨.hbm, 141, rfl⟩
abbrev main_call1_v6 : Ref sig .tc := ⟨.hbm, 142, rfl⟩
abbrev main_call1_v7 : Ref sig .tc := ⟨.hbm, 143, rfl⟩
abbrev main_call1_cst_1 : Ref sig .tc := ⟨.hbm, 144, rfl⟩
abbrev main_call1_v8 : Ref sig .tc := ⟨.hbm, 145, rfl⟩
abbrev main_call1_cst_2 : Ref sig .tc := ⟨.hbm, 146, rfl⟩
abbrev main_call1_v9 : Ref sig .tc := ⟨.hbm, 147, rfl⟩
abbrev main_call1_v10 : Ref sig .tc := ⟨.hbm, 148, rfl⟩
abbrev main_call1_v11 : Ref sig .tc := ⟨.hbm, 149, rfl⟩
abbrev main_call1_cst_3 : Ref sig .tc := ⟨.hbm, 150, rfl⟩
abbrev main_call1_v12 : Ref sig .tc := ⟨.hbm, 151, rfl⟩
abbrev main_call1_cst_4 : Ref sig .tc := ⟨.hbm, 152, rfl⟩
abbrev main_call1_call0_v0 : Ref sig .tc := ⟨.hbm, 153, rfl⟩
abbrev main_call1_call0_v1 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_c_16 : Ref sig .tc := ⟨.hbm, 162, rfl⟩
abbrev main_v80 : Ref sig .tc := ⟨.hbm, 163, rfl⟩
abbrev main_v81 : Ref sig .tc := ⟨.hbm, 164, rfl⟩
abbrev main_c_17 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_cst_18 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_cst_19 : Ref sig .tc := ⟨.hbm, 181, rfl⟩
abbrev main_v96 : Ref sig .tc := ⟨.hbm, 182, rfl⟩
abbrev main_cst_20 : Ref sig .tc := ⟨.hbm, 183, rfl⟩
abbrev main_v97 : Ref sig .tc := ⟨.hbm, 184, rfl⟩
abbrev main_v98 : Ref sig .tc := ⟨.hbm, 185, rfl⟩
abbrev main_c_21 : Ref sig .tc := ⟨.hbm, 186, rfl⟩
abbrev main_call2_cst : Ref sig .tc := ⟨.hbm, 187, rfl⟩
abbrev main_call2_v0 : Ref sig .tc := ⟨.hbm, 188, rfl⟩
abbrev main_call2_v1 : Ref sig .tc := ⟨.hbm, 189, rfl⟩
abbrev main_call2_cst_0 : Ref sig .tc := ⟨.hbm, 190, rfl⟩
abbrev main_call2_v2 : Ref sig .tc := ⟨.hbm, 191, rfl⟩
abbrev main_call2_v3 : Ref sig .tc := ⟨.hbm, 192, rfl⟩
abbrev main_call2_v4 : Ref sig .tc := ⟨.hbm, 193, rfl⟩
abbrev main_call2_v5 : Ref sig .tc := ⟨.hbm, 194, rfl⟩
abbrev main_call2_v6 : Ref sig .tc := ⟨.hbm, 195, rfl⟩
abbrev main_call2_v7 : Ref sig .tc := ⟨.hbm, 196, rfl⟩
abbrev main_call2_cst_1 : Ref sig .tc := ⟨.hbm, 197, rfl⟩
abbrev main_call2_v8 : Ref sig .tc := ⟨.hbm, 198, rfl⟩
abbrev main_call2_cst_2 : Ref sig .tc := ⟨.hbm, 199, rfl⟩
abbrev main_call2_v9 : Ref sig .tc := ⟨.hbm, 200, rfl⟩
abbrev main_call2_v10 : Ref sig .tc := ⟨.hbm, 201, rfl⟩
abbrev main_call2_v11 : Ref sig .tc := ⟨.hbm, 202, rfl⟩
abbrev main_call2_cst_3 : Ref sig .tc := ⟨.hbm, 203, rfl⟩
abbrev main_call2_v12 : Ref sig .tc := ⟨.hbm, 204, rfl⟩
abbrev main_call2_cst_4 : Ref sig .tc := ⟨.hbm, 205, rfl⟩
abbrev main_call2_call0_v0 : Ref sig .tc := ⟨.hbm, 206, rfl⟩
abbrev main_call2_call0_v1 : Ref sig .tc := ⟨.hbm, 207, rfl⟩
abbrev main_v99 : Ref sig .tc := ⟨.hbm, 208, rfl⟩
abbrev main_v100 : Ref sig .tc := ⟨.hbm, 209, rfl⟩
abbrev main_v101 : Ref sig .tc := ⟨.hbm, 210, rfl⟩
abbrev main_v102 : Ref sig .tc := ⟨.hbm, 211, rfl⟩
abbrev main_v103 : Ref sig .tc := ⟨.hbm, 212, rfl⟩
abbrev main_v104 : Ref sig .tc := ⟨.hbm, 213, rfl⟩
abbrev main_c_22 : Ref sig .tc := ⟨.hbm, 214, rfl⟩
abbrev main_v105 : Ref sig .tc := ⟨.hbm, 215, rfl⟩
abbrev main_v106 : Ref sig .tc := ⟨.hbm, 216, rfl⟩
abbrev main_c_23 : Ref sig .tc := ⟨.hbm, 217, rfl⟩
abbrev main_v107 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_c_24 : Ref sig .tc := ⟨.hbm, 223, rfl⟩
abbrev main_v112 : Ref sig .tc := ⟨.hbm, 224, rfl⟩
abbrev main_v113 : Ref sig .tc := ⟨.hbm, 225, rfl⟩
abbrev main_c_25 : Ref sig .tc := ⟨.hbm, 226, rfl⟩
abbrev main_v114 : Ref sig .tc := ⟨.hbm, 227, rfl⟩
abbrev main_v115 : Ref sig .tc := ⟨.hbm, 228, rfl⟩
abbrev main_v116 : Ref sig .tc := ⟨.hbm, 229, rfl⟩
abbrev main_v117 : Ref sig .tc := ⟨.hbm, 230, rfl⟩
abbrev main_v118 : Ref sig .tc := ⟨.hbm, 231, rfl⟩
abbrev main_v119 : Ref sig .tc := ⟨.hbm, 232, rfl⟩
abbrev main_v120 : Ref sig .tc := ⟨.hbm, 233, rfl⟩
abbrev main_v121 : Ref sig .tc := ⟨.hbm, 234, rfl⟩
abbrev main_v122 : Ref sig .tc := ⟨.hbm, 235, rfl⟩
abbrev main_v123 : Ref sig .tc := ⟨.hbm, 236, rfl⟩
abbrev main_v124 : Ref sig .tc := ⟨.hbm, 237, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg5_0 : Ref sig .tc := ⟨.vmem, 37, rfl⟩
abbrev cc5_stg5_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg3_0 : Ref sig .tc := ⟨.vmem, 43, rfl⟩
abbrev cc6_stg4_0 : Ref sig .tc := ⟨.vmem, 44, rfl⟩
abbrev cc6_stg5_0 : Ref sig .tc := ⟨.vmem, 45, rfl⟩
abbrev cc6_stg6_0 : Ref sig .tc := ⟨.vmem, 46, rfl⟩
abbrev cc6_stg7_0 : Ref sig .tc := ⟨.vmem, 47, rfl⟩
abbrev cc6_stg8_0 : Ref sig .tc := ⟨.vmem, 48, rfl⟩
abbrev cc6_stg9_0 : Ref sig .tc := ⟨.vmem, 49, rfl⟩
abbrev cc6_stg9_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem5_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem3_0 : DmaSem sig := 43
abbrev cc6_sem4_0 : DmaSem sig := 44
abbrev cc6_sem5_0 : DmaSem sig := 45
abbrev cc6_sem6_0 : DmaSem sig := 46
abbrev cc6_sem7_0 : DmaSem sig := 47
abbrev cc6_sem8_0 : DmaSem sig := 48
abbrev cc6_sem9_0 : DmaSem sig := 49
abbrev cc6_sem9_1 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![160], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S64x2 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x2 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S5000x2 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  shapeCasts_S256_S1x256 : S256.ShapeCasts S1x256
  shapeCasts_S64_S1x64 : S64.ShapeCasts S1x64
  shapeCasts_S2_S1x2 : S2.ShapeCasts S1x2
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S800000x1_S800000x128_1_0_n_n_0_1_1128_wf : GatherDims.WF S50000x128 S800000x1 S800000x128 [1] [0] [] [0] [] 1 ![1, 128]
  dot_S5000x256_S256x256_S5000x256_1_0_0_1_n_n_wf : DotDims.WF S5000x256 S256x256 S5000x256 [1] [0] [0] [1] [] []
  dot_S5000x256_S256x128_S5000x128_1_0_0_1_n_n_wf : DotDims.WF S5000x256 S256x128 S5000x128 [1] [0] [0] [1] [] []
  dot_S5000x128_S128x64_S5000x64_1_0_0_1_n_n_wf : DotDims.WF S5000x128 S128x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x256.size a ≤ S800000x256.size a
  hwx6_0 : ∀ i : grid6.Coords, EltTy.bits .f32 = 32 ∨ (Rect.block (s := S800000x256) S5000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x128.size a ≤ S256x128.size a
  hwx6_3 : ∀ i : grid6.Coords, EltTy.bits .f32 = 32 ∨ (Rect.block (s := S256x128) S256x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x64.size a ≤ S128x64.size a
  hwx6_5 : ∀ i : grid6.Coords, EltTy.bits .f32 = 32 ∨ (Rect.block (s := S128x64) S128x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S64x2.size a ≤ S64x2.size a
  hwx6_7 : ∀ i : grid6.Coords, EltTy.bits .f32 = 32 ∨ (Rect.block (s := S64x2) S64x2.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x2.size a ≤ S1x2.size a
  hwx6_8 : ∀ i : grid6.Coords, EltTy.bits .f32 = 32 ∨ (Rect.block (s := S1x2) S1x2.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S5000x2.size a ≤ S800000x2.size a
  hwx6_9 : ∀ i : grid6.Coords, EltTy.bits .f32 = 32 ∨ (Rect.block (s := S800000x2) S5000x2.size (cc6_transform_9 i) (hinb6_9 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v69) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v78) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v95) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v100) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v101) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v102) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v103) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v104) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v119) S5000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg14) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v120) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg16) S256x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v121) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg18) S128x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v122) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg20) S64x2.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v123) S1x2.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v124) S5000x2.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S800000x1 : Shape := ⟨2, ![800000, 1]⟩
abbrev S800000x128 : Shape := ⟨2, ![800000, 128]⟩
abbrev S800000x256 : Shape := ⟨2, ![800000, 256]⟩
abbrev S1x256 : Shape := ⟨2, ![1, 256]⟩
abbrev S800000x64 : Shape := ⟨2, ![800000, 64]⟩
abbrev S1x64 : Shape := ⟨2, ![1, 64]⟩
abbrev S800000x2 : Shape := ⟨2, ![800000, 2]⟩
abbrev S1x2 : Shape := ⟨2, ![1, 2]⟩

abbrev nBuf : Space → Nat
  | .hbm => 300
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S256x256, .f32⟩
  | 15 => ⟨S256, .f32⟩
  | 16 => ⟨S256x128, .f32⟩
  | 17 => ⟨S128, .f32⟩
  | 18 => ⟨S128x64, .f32⟩
  | 19 => ⟨S64, .f32⟩
  | 20 => ⟨S64x2, .f32⟩
  | 21 => ⟨S2, .f32⟩
  | 22 => ⟨S1x800000, .i32⟩
  | 23 => ⟨S800000, .i32⟩
  | 24 => ⟨S1x800000, .i32⟩
  | 25 => ⟨S800000, .i32⟩
  | 26 => ⟨S50000, .i32⟩
  | 27 => ⟨S850000, .i32⟩
  | 28 => ⟨S850000, .i32⟩
  | 29 => ⟨S_, .f32⟩
  | 30 => ⟨S850000, .f32⟩
  | 31 => ⟨S_, .f32⟩
  | 32 => ⟨S50000, .f32⟩
  | 33 => ⟨S850000x1, .i32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S50000x128, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x1, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S128, .f32⟩
  | 77 => ⟨S_, .f32⟩
  | 78 => ⟨S128, .f32⟩
  | 79 => ⟨S128, .f32⟩
  | 80 => ⟨S_, .i32⟩
  | 81 => ⟨S_, .f32⟩
  | 82 => ⟨S128, .f32⟩
  | 83 => ⟨S1x128, .f32⟩
  | 84 => ⟨S_, .f32⟩
  | 85 => ⟨S1x128, .f32⟩
  | 86 => ⟨S1x128, .f32⟩
  | 87 => ⟨S50000x128, .f32⟩
  | 88 => ⟨S50000x128, .f32⟩
  | 89 => ⟨S50000x128, .f32⟩
  | 90 => ⟨S_, .f32⟩
  | 91 => ⟨S_, .f32⟩
  | 92 => ⟨S_, .f32⟩
  | 93 => ⟨S_, .f32⟩
  | 94 => ⟨S128, .f32⟩
  | 95 => ⟨S128, .f32⟩
  | 96 => ⟨S128, .f32⟩
  | 97 => ⟨S_, .f32⟩
  | 98 => ⟨S_, .i1⟩
  | 99 => ⟨S_, .f32⟩
  | 100 => ⟨S_, .f32⟩
  | 101 => ⟨S128, .f32⟩
  | 102 => ⟨S128, .f32⟩
  | 103 => ⟨S1x128, .f32⟩
  | 104 => ⟨S50000x128, .f32⟩
  | 105 => ⟨S50000x128, .f32⟩
  | 106 => ⟨S_, .f32⟩
  | 107 => ⟨S128, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S50000x128, .f32⟩
  | 123 => ⟨S_, .i32⟩
  | 124 => ⟨S850000, .i32⟩
  | 125 => ⟨S850000, .i1⟩
  | 126 => ⟨S_, .i32⟩
  | 127 => ⟨S850000, .i32⟩
  | _ => ⟨S50000x128, .f32⟩

abbrev hbmTy0_1 (i : Nat) : BufTy := match i % 128 with
  | 0 => ⟨S850000, .i32⟩
  | 1 => ⟨S850000, .i32⟩
  | 2 => ⟨S850000x1, .i32⟩
  | 3 => ⟨S850000x128, .f32⟩
  | 4 => ⟨S850000x1, .f32⟩
  | 5 => ⟨S850000x128, .f32⟩
  | 6 => ⟨S850000x128, .f32⟩
  | 7 => ⟨S_, .f32⟩
  | 8 => ⟨S50000x128, .f32⟩
  | 9 => ⟨S850000x1, .i32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S128, .f32⟩
  | 16 => ⟨S_, .f32⟩
  | 17 => ⟨S128, .f32⟩
  | 18 => ⟨S128, .f32⟩
  | 19 => ⟨S_, .i32⟩
  | 20 => ⟨S_, .f32⟩
  | 21 => ⟨S128, .f32⟩
  | 22 => ⟨S1x128, .f32⟩
  | 23 => ⟨S_, .f32⟩
  | 24 => ⟨S1x128, .f32⟩
  | 25 => ⟨S1x128, .f32⟩
  | 26 => ⟨S50000x128, .f32⟩
  | 27 => ⟨S50000x128, .f32⟩
  | 28 => ⟨S50000x128, .f32⟩
  | 29 => ⟨S_, .f32⟩
  | 30 => ⟨S_, .f32⟩
  | 31 => ⟨S_, .f32⟩
  | 32 => ⟨S_, .f32⟩
  | 33 => ⟨S128, .f32⟩
  | 34 => ⟨S128, .f32⟩
  | 35 => ⟨S128, .f32⟩
  | 36 => ⟨S_, .f32⟩
  | 37 => ⟨S_, .i1⟩
  | 38 => ⟨S_, .f32⟩
  | 39 => ⟨S_, .f32⟩
  | 40 => ⟨S128, .f32⟩
  | 41 => ⟨S128, .f32⟩
  | 42 => ⟨S1x128, .f32⟩
  | 43 => ⟨S50000x128, .f32⟩
  | 44 => ⟨S50000x128, .f32⟩
  | 45 => ⟨S_, .f32⟩
  | 46 => ⟨S128, .f32⟩
  | 47 => ⟨S128, .f32⟩
  | 48 => ⟨S128, .f32⟩
  | 49 => ⟨S1x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S50000x128, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000x128, .f32⟩
  | 71 => ⟨S850000x1, .f32⟩
  | 72 => ⟨S850000x128, .f32⟩
  | 73 => ⟨S850000x128, .f32⟩
  | 74 => ⟨S_, .f32⟩
  | 75 => ⟨S50000x128, .f32⟩
  | 76 => ⟨S850000x1, .i32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S128, .f32⟩
  | 83 => ⟨S_, .f32⟩
  | 84 => ⟨S128, .f32⟩
  | 85 => ⟨S128, .f32⟩
  | 86 => ⟨S_, .i32⟩
  | 87 => ⟨S_, .f32⟩
  | 88 => ⟨S128, .f32⟩
  | 89 => ⟨S1x128, .f32⟩
  | 90 => ⟨S_, .f32⟩
  | 91 => ⟨S1x128, .f32⟩
  | 92 => ⟨S1x128, .f32⟩
  | 93 => ⟨S50000x128, .f32⟩
  | 94 => ⟨S50000x128, .f32⟩
  | 95 => ⟨S50000x128, .f32⟩
  | 96 => ⟨S_, .f32⟩
  | 97 => ⟨S_, .f32⟩
  | 98 => ⟨S_, .f32⟩
  | 99 => ⟨S_, .f32⟩
  | 100 => ⟨S128, .f32⟩
  | 101 => ⟨S128, .f32⟩
  | 102 => ⟨S128, .f32⟩
  | 103 => ⟨S_, .f32⟩
  | 104 => ⟨S_, .i1⟩
  | 105 => ⟨S_, .f32⟩
  | 106 => ⟨S_, .f32⟩
  | 107 => ⟨S128, .f32⟩
  | 108 => ⟨S128, .f32⟩
  | 109 => ⟨S1x128, .f32⟩
  | 110 => ⟨S50000x128, .f32⟩
  | 111 => ⟨S50000x128, .f32⟩
  | 112 => ⟨S_, .f32⟩
  | 113 => ⟨S128, .f32⟩
  | 114 => ⟨S128, .f32⟩
  | 115 => ⟨S128, .f32⟩
  | 116 => ⟨S1x128, .f32⟩
  | 117 => ⟨S50000x128, .f32⟩
  | 118 => ⟨S50000x128, .f32⟩
  | 119 => ⟨S1x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_2 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x128, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x128, .f32⟩
  | 18 => ⟨S800000x256, .f32⟩
  | 19 => ⟨S800000x256, .f32⟩
  | 20 => ⟨S1x256, .f32⟩
  | 21 => ⟨S800000x256, .f32⟩
  | 22 => ⟨S800000x256, .f32⟩
  | 23 => ⟨S_, .f32⟩
  | 24 => ⟨S800000x256, .f32⟩
  | 25 => ⟨S800000x256, .f32⟩
  | 26 => ⟨S800000x128, .f32⟩
  | 27 => ⟨S1x128, .f32⟩
  | 28 => ⟨S800000x128, .f32⟩
  | 29 => ⟨S800000x128, .f32⟩
  | 30 => ⟨S_, .f32⟩
  | 31 => ⟨S800000x128, .f32⟩
  | 32 => ⟨S800000x128, .f32⟩
  | 33 => ⟨S800000x64, .f32⟩
  | 34 => ⟨S1x64, .f32⟩
  | 35 => ⟨S800000x64, .f32⟩
  | 36 => ⟨S800000x64, .f32⟩
  | 37 => ⟨S_, .f32⟩
  | 38 => ⟨S800000x64, .f32⟩
  | 39 => ⟨S800000x64, .f32⟩
  | 40 => ⟨S800000x2, .f32⟩
  | 41 => ⟨S1x2, .f32⟩
  | 42 => ⟨S800000x2, .f32⟩
  | 43 => ⟨S800000x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_2 : Ref sig .tc := ⟨.hbm, 45, rfl⟩
abbrev main_v19 : Ref sig .tc := ⟨.hbm, 46, rfl⟩
abbrev main_v20 : Ref sig .tc := ⟨.hbm, 47, rfl⟩
abbrev main_c_3 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_4 : Ref sig .tc := ⟨.hbm, 56, rfl⟩
abbrev main_v28 : Ref sig .tc := ⟨.hbm, 57, rfl⟩
abbrev main_v29 : Ref sig .tc := ⟨.hbm, 58, rfl⟩
abbrev main_c_5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_6 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_7 : Ref sig .tc := ⟨.hbm, 75, rfl⟩
abbrev main_v44 : Ref sig .tc := ⟨.hbm, 76, rfl⟩
abbrev main_cst_8 : Ref sig .tc := ⟨.hbm, 77, rfl⟩
abbrev main_v45 : Ref sig .tc := ⟨.hbm, 78, rfl⟩
abbrev main_v46 : Ref sig .tc := ⟨.hbm, 79, rfl⟩
abbrev main_c_9 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_cst_0 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_cst_1 : Ref sig .tc := ⟨.hbm, 91, rfl⟩
abbrev main_call0_v8 : Ref sig .tc := ⟨.hbm, 92, rfl⟩
abbrev main_call0_cst_2 : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_call0_cst_3 : Ref sig .tc := ⟨.hbm, 97, rfl⟩
abbrev main_call0_v12 : Ref sig .tc := ⟨.hbm, 98, rfl⟩
abbrev main_call0_cst_4 : Ref sig .tc := ⟨.hbm, 99, rfl⟩
abbrev main_call0_call0_v0 : Ref sig .tc := ⟨.hbm, 100, rfl⟩
abbrev main_call0_call0_v1 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_cst_10 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_call1_cst : Ref sig .tc := ⟨.hbm, 119, rfl⟩
abbrev main_call1_v0 : Ref sig .tc := ⟨.hbm, 120, rfl⟩
abbrev main_v63 : Ref sig .tc := ⟨.hbm, 121, rfl⟩
abbrev main_v64 : Ref sig .tc := ⟨.hbm, 122, rfl⟩
abbrev main_c_11 : Ref sig .tc := ⟨.hbm, 123, rfl⟩
abbrev main_v65 : Ref sig .tc := ⟨.hbm, 124, rfl⟩
abbrev main_v66 : Ref sig .tc := ⟨.hbm, 125, rfl⟩
abbrev main_c_12 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_cst_13 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_cst_14 : Ref sig .tc := ⟨.hbm, 142, rfl⟩
abbrev main_v81 : Ref sig .tc := ⟨.hbm, 143, rfl⟩
abbrev main_cst_15 : Ref sig .tc := ⟨.hbm, 144, rfl⟩
abbrev main_v82 : Ref sig .tc := ⟨.hbm, 145, rfl⟩
abbrev main_v83 : Ref sig .tc := ⟨.hbm, 146, rfl⟩
abbrev main_c_16 : Ref sig .tc := ⟨.hbm, 147, rfl⟩
abbrev main_call2_cst : Ref sig .tc := ⟨.hbm, 148, rfl⟩
abbrev main_call2_v0 : Ref sig .tc := ⟨.hbm, 149, rfl⟩
abbrev main_call2_v1 : Ref sig .tc := ⟨.hbm, 150, rfl⟩
abbrev main_call2_cst_0 : Ref sig .tc := ⟨.hbm, 151, rfl⟩
abbrev main_call2_v2 : Ref sig .tc := ⟨.hbm, 152, rfl⟩
abbrev main_call2_v3 : Ref sig .tc := ⟨.hbm, 153, rfl⟩
abbrev main_call2_v4 : Ref sig .tc := ⟨.hbm, 154, rfl⟩
abbrev main_call2_v5 : Ref sig .tc := ⟨.hbm, 155, rfl⟩
abbrev main_call2_v6 : Ref sig .tc := ⟨.hbm, 156, rfl⟩
abbrev main_call2_v7 : Ref sig .tc := ⟨.hbm, 157, rfl⟩
abbrev main_call2_cst_1 : Ref sig .tc := ⟨.hbm, 158, rfl⟩
abbrev main_call2_v8 : Ref sig .tc := ⟨.hbm, 159, rfl⟩
abbrev main_call2_cst_2 : Ref sig .tc := ⟨.hbm, 160, rfl⟩
abbrev main_call2_v9 : Ref sig .tc := ⟨.hbm, 161, rfl⟩
abbrev main_call2_v10 : Ref sig .tc := ⟨.hbm, 162, rfl⟩
abbrev main_call2_v11 : Ref sig .tc := ⟨.hbm, 163, rfl⟩
abbrev main_call2_cst_3 : Ref sig .tc := ⟨.hbm, 164, rfl⟩
abbrev main_call2_v12 : Ref sig .tc := ⟨.hbm, 165, rfl⟩
abbrev main_call2_cst_4 : Ref sig .tc := ⟨.hbm, 166, rfl⟩
abbrev main_call2_call0_v0 : Ref sig .tc := ⟨.hbm, 167, rfl⟩
abbrev main_call2_call0_v1 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_cst_17 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_call3_cst : Ref sig .tc := ⟨.hbm, 186, rfl⟩
abbrev main_call3_v0 : Ref sig .tc := ⟨.hbm, 187, rfl⟩
abbrev main_v100 : Ref sig .tc := ⟨.hbm, 188, rfl⟩
abbrev main_v101 : Ref sig .tc := ⟨.hbm, 189, rfl⟩
abbrev main_c_18 : Ref sig .tc := ⟨.hbm, 190, rfl⟩
abbrev main_v102 : Ref sig .tc := ⟨.hbm, 191, rfl⟩
abbrev main_v103 : Ref sig .tc := ⟨.hbm, 192, rfl⟩
abbrev main_c_19 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_cst_20 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_cst_21 : Ref sig .tc := ⟨.hbm, 209, rfl⟩
abbrev main_v118 : Ref sig .tc := ⟨.hbm, 210, rfl⟩
abbrev main_cst_22 : Ref sig .tc := ⟨.hbm, 211, rfl⟩
abbrev main_v119 : Ref sig .tc := ⟨.hbm, 212, rfl⟩
abbrev main_v120 : Ref sig .tc := ⟨.hbm, 213, rfl⟩
abbrev main_c_23 : Ref sig .tc := ⟨.hbm, 214, rfl⟩
abbrev main_call4_cst : Ref sig .tc := ⟨.hbm, 215, rfl⟩
abbrev main_call4_v0 : Ref sig .tc := ⟨.hbm, 216, rfl⟩
abbrev main_call4_v1 : Ref sig .tc := ⟨.hbm, 217, rfl⟩
abbrev main_call4_cst_0 : Ref sig .tc := ⟨.hbm, 218, rfl⟩
abbrev main_call4_v2 : Ref sig .tc := ⟨.hbm, 219, rfl⟩
abbrev main_call4_v3 : Ref sig .tc := ⟨.hbm, 220, rfl⟩
abbrev main_call4_v4 : Ref sig .tc := ⟨.hbm, 221, rfl⟩
abbrev main_call4_v5 : Ref sig .tc := ⟨.hbm, 222, rfl⟩
abbrev main_call4_v6 : Ref sig .tc := ⟨.hbm, 223, rfl⟩
abbrev main_call4_v7 : Ref sig .tc := ⟨.hbm, 224, rfl⟩
abbrev main_call4_cst_1 : Ref sig .tc := ⟨.hbm, 225, rfl⟩
abbrev main_call4_v8 : Ref sig .tc := ⟨.hbm, 226, rfl⟩
abbrev main_call4_cst_2 : Ref sig .tc := ⟨.hbm, 227, rfl⟩
abbrev main_call4_v9 : Ref sig .tc := ⟨.hbm, 228, rfl⟩
abbrev main_call4_v10 : Ref sig .tc := ⟨.hbm, 229, rfl⟩
abbrev main_call4_v11 : Ref sig .tc := ⟨.hbm, 230, rfl⟩
abbrev main_call4_cst_3 : Ref sig .tc := ⟨.hbm, 231, rfl⟩
abbrev main_call4_v12 : Ref sig .tc := ⟨.hbm, 232, rfl⟩
abbrev main_call4_cst_4 : Ref sig .tc := ⟨.hbm, 233, rfl⟩
abbrev main_call4_call0_v0 : Ref sig .tc := ⟨.hbm, 234, rfl⟩
abbrev main_call4_call0_v1 : Ref sig .tc := ⟨.hbm, 235, rfl⟩
abbrev main_v121 : Ref sig .tc := ⟨.hbm, 236, rfl⟩
abbrev main_v122 : Ref sig .tc := ⟨.hbm, 237, rfl⟩
abbrev main_v123 : Ref sig .tc := ⟨.hbm, 238, rfl⟩
abbrev main_v124 : Ref sig .tc := ⟨.hbm, 239, rfl⟩
abbrev main_cst_24 : Ref sig .tc := ⟨.hbm, 240, rfl⟩
abbrev main_v125 : Ref sig .tc := ⟨.hbm, 241, rfl⟩
abbrev main_v126 : Ref sig .tc := ⟨.hbm, 242, rfl⟩
abbrev main_v127 : Ref sig .tc := ⟨.hbm, 243, rfl⟩
abbrev main_v128 : Ref sig .tc := ⟨.hbm, 244, rfl⟩
abbrev main_v129 : Ref sig .tc := ⟨.hbm, 245, rfl⟩
abbrev main_v130 : Ref sig .tc := ⟨.hbm, 246, rfl⟩
abbrev main_v131 : Ref sig .tc := ⟨.hbm, 247, rfl⟩
abbrev main_v132 : Ref sig .tc := ⟨.hbm, 248, rfl⟩
abbrev main_v133 : Ref sig .tc := ⟨.hbm, 249, rfl⟩
abbrev main_v134 : Ref sig .tc := ⟨.hbm, 250, rfl⟩
abbrev main_v135 : Ref sig .tc := ⟨.hbm, 251, rfl⟩
abbrev main_v136 : Ref sig .tc := ⟨.hbm, 252, rfl⟩
abbrev main_call5_cst : Ref sig .tc := ⟨.hbm, 253, rfl⟩
abbrev main_call5_v0 : Ref sig .tc := ⟨.hbm, 254, rfl⟩
abbrev main_v137 : Ref sig .tc := ⟨.hbm, 255, rfl⟩
abbrev main_c_25 : Ref sig .tc := ⟨.hbm, 256, rfl⟩
abbrev main_v138 : Ref sig .tc := ⟨.hbm, 257, rfl⟩
abbrev main_v139 : Ref sig .tc := ⟨.hbm, 258, rfl⟩
abbrev main_c_26 : Ref sig .tc := ⟨.hbm, 259, rfl⟩
abbrev main_v140 : Ref sig .tc := ⟨.hbm, 260, rfl⟩
abbrev main_v141 : Ref sig .tc := ⟨.hbm, 261, rfl⟩
abbrev main_v142 : Ref sig .tc := ⟨.hbm, 262, rfl⟩
abbrev main_v143 : Ref sig .tc := ⟨.hbm, 263, rfl⟩
abbrev main_v144 : Ref sig .tc := ⟨.hbm, 264, rfl⟩
abbrev main_c_27 : Ref sig .tc := ⟨.hbm, 265, rfl⟩
abbrev main_v145 : Ref sig .tc := ⟨.hbm, 266, rfl⟩
abbrev main_v146 : Ref sig .tc := ⟨.hbm, 267, rfl⟩
abbrev main_c_28 : Ref sig .tc := ⟨.hbm, 268, rfl⟩
abbrev main_v147 : Ref sig .tc := ⟨.hbm, 269, rfl⟩
abbrev main_v148 : Ref sig .tc := ⟨.hbm, 270, rfl⟩
abbrev main_v149 : Ref sig .tc := ⟨.hbm, 271, rfl⟩
abbrev main_v150 : Ref sig .tc := ⟨.hbm, 272, rfl⟩
abbrev main_v151 : Ref sig .tc := ⟨.hbm, 273, rfl⟩
abbrev main_v152 : Ref sig .tc := ⟨.hbm, 274, rfl⟩
abbrev main_v153 : Ref sig .tc := ⟨.hbm, 275, rfl⟩
abbrev main_v154 : Ref sig .tc := ⟨.hbm, 276, rfl⟩
abbrev main_v155 : Ref sig .tc := ⟨.hbm, 277, rfl⟩
abbrev main_v156 : Ref sig .tc := ⟨.hbm, 278, rfl⟩
abbrev main_call6_cst : Ref sig .tc := ⟨.hbm, 279, rfl⟩
abbrev main_call6_v0 : Ref sig .tc := ⟨.hbm, 280, rfl⟩
abbrev main_v157 : Ref sig .tc := ⟨.hbm, 281, rfl⟩
abbrev main_v158 : Ref sig .tc := ⟨.hbm, 282, rfl⟩
abbrev main_v159 : Ref sig .tc := ⟨.hbm, 283, rfl⟩
abbrev main_v160 : Ref sig .tc := ⟨.hbm, 284, rfl⟩
abbrev main_v161 : Ref sig .tc := ⟨.hbm, 285, rfl⟩
abbrev main_call7_cst : Ref sig .tc := ⟨.hbm, 286, rfl⟩
abbrev main_call7_v0 : Ref sig .tc := ⟨.hbm, 287, rfl⟩
abbrev main_v162 : Ref sig .tc := ⟨.hbm, 288, rfl⟩
abbrev main_v163 : Ref sig .tc := ⟨.hbm, 289, rfl⟩
abbrev main_v164 : Ref sig .tc := ⟨.hbm, 290, rfl⟩
abbrev main_v165 : Ref sig .tc := ⟨.hbm, 291, rfl⟩
abbrev main_v166 : Ref sig .tc := ⟨.hbm, 292, rfl⟩
abbrev main_call8_cst : Ref sig .tc := ⟨.hbm, 293, rfl⟩
abbrev main_call8_v0 : Ref sig .tc := ⟨.hbm, 294, rfl⟩
abbrev main_v167 : Ref sig .tc := ⟨.hbm, 295, rfl⟩
abbrev main_v168 : Ref sig .tc := ⟨.hbm, 296, rfl⟩
abbrev main_v169 : Ref sig .tc := ⟨.hbm, 297, rfl⟩
abbrev main_v170 : Ref sig .tc := ⟨.hbm, 298, rfl⟩
abbrev main_v171 : Ref sig .tc := ⟨.hbm, 299, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S800000x1_S800000x128_1_0_n_n_0_1_1128_wf : GatherDims.WF S50000x128 S800000x1 S800000x128 [1] [0] [] [0] [] 1 ![1, 128]
  dot_S800000x256_S256x256_S800000x256_1_0_0_1_n_n_wf : DotDims.WF S800000x256 S256x256 S800000x256 [1] [0] [0] [1] [] []
  dot_S800000x256_S256x128_S800000x128_1_0_0_1_n_n_wf : DotDims.WF S800000x256 S256x128 S800000x128 [1] [0] [0] [1] [] []
  dot_S800000x128_S128x64_S800000x64_1_0_0_1_n_n_wf : DotDims.WF S800000x128 S128x64 S800000x64 [1] [0] [0] [1] [] []
  dot_S800000x64_S64x2_S800000x2_1_0_0_1_n_n_wf : DotDims.WF S800000x64 S64x2 S800000x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x256_S800000x256_1_0_0_1_n_n : DotDims S800000x256 S256x256 S800000x256 where
  lhsContracting := [1]
  rhsContracting := [0]
  lhsNonContracting := [0]
  rhsNonContracting := [1]
  lhsBatch := []
  rhsBatch := []
  wf := dot_S800000x256_S256x256_S800000x256_1_0_0_1_n_n_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x2_S800000x2_1_0_0_1_n_n : DotDims S800000x64 S64x2 S800000x2 where
  lhsContracting := [1]
  rhsContracting := [0]
  lhsNonContracting := [0]
  rhsNonContracting := [1]
  lhsBatch := []
  rhsBatch := []
  wf := dot_S800000x64_S64x2_S800000x2_1_0_0_1_n_n_wf

class Facts : Prop extends Facts₀ where

variable [Facts]
-- ==== Proof.KernelRun.lean ====
/-
  The idealized kernel's run with its result named: every weakly fair execution of @main ends, nothing faulting, with
  the result array at the contents the last region's write-backs leave (the fold `W18` of the host stretches and the
  seven regions' arrays from the launch memory, read at the result buffer) and every argument array as launched.
-/
import proofs.«123362_j807453851682_1_alg».proof.Proof.Gen.KernelIdeal.Frame

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, as the frame states it, with one more conjunct: the result buffer holds the fold's value. -/
theorem run_result : θ_run defs (onTc (τ := τ) (main (F := F))) ⟨m, fun _ => 0, ρ⟩ (fun r => ∀ c : Dev nD,
      r.2.mem ((c.tc : Thread nD τ).loc main_v124) = W18 m ρ c (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v124 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c),
       (h c _ (mem_uc main_arg17 (by decide))).trans (W18_main_arg17 m ρ c),
       (h c _ (mem_uc main_arg18 (by decide))).trans (W18_main_arg18 m ρ c),
       (h c _ (mem_uc main_arg19 (by decide))).trans (W18_main_arg19 m ρ c),
       (h c _ (mem_uc main_arg20 (by decide))).trans (W18_main_arg20 m ρ c),
       (h c _ (mem_uc main_arg21 (by decide))).trans (W18_main_arg21 m ρ c)⟩)

end Cert.KernelIdeal.Hand

end
-- ==== Proof.RefOps.lean ====
/-
  The reference program's @main read as ONE straight line of host operations, cut into consecutive stretches
  (the prelude on the edge list; per graph-convolution layer the feature product, the aggregation with its
  column mean, the column variance, the normalisation with its rectifier; the edge features; the classifier):
  the stretches as literal lists, and the whole line.
-/
import proofs.«123362_j807453851682_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Statements 0 … 32 of the line (calls inlined). -/
abbrev opsP : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_v4 (iotaInDim S50000 32 0),
    StableHlo.binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.unary main_v10 main_v11 (Host.rsqrt : (⟨S50000, .f32⟩ : BufTy).Contents (Elt F) → (⟨S50000, .f32⟩ : BufTy).Contents (Elt F)),
    StableHlo.nullary main_c (constantI S_ 32 0#32),
    StableHlo.unary main_c main_v12 (broadcastInDim S850000 ![] bcast_S_S850000 : (⟨S_, .i32⟩ : BufTy).Contents (Elt F) → (⟨S850000, .i32⟩ : BufTy).Contents (Elt F)),
    StableHlo.binary main_v5 main_v12 main_v13 (cmpi .slt : (⟨S850000, .i32⟩ : BufTy).Contents (Elt F) → (⟨S850000, .i32⟩ : BufTy).Contents (Elt F) → (⟨S850000, .i1⟩ : BufTy).Contents (Elt F)),
    StableHlo.nullary main_c_1 (constantI S_ 32 50000#32),
    StableHlo.unary main_c_1 main_v14 (broadcastInDim S850000 ![] bcast_S_S850000 : (⟨S_, .i32⟩ : BufTy).Contents (Elt F) → (⟨S850000, .i32⟩ : BufTy).Contents (Elt F)),
    StableHlo.binary main_v5 main_v14 main_v15 (addi : (⟨S850000, .i32⟩ : BufTy).Contents (Elt F) → (⟨S850000, .i32⟩ : BufTy).Contents (Elt F) → (⟨S850000, .i32⟩ : BufTy).Contents (Elt F)),
    StableHlo.ternary main_v13 main_v15 main_v5 main_v16 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v16 main_v17 (broadcastInDim S850000x1 ![0] bcast_S850000_S850000x1_0 : (⟨S850000, .i32⟩ : BufTy).Contents (Elt F) → (⟨S850000x1, .i32⟩ : BufTy).Contents (Elt F)),
    StableHlo.binary main_v11 main_v17 main_v18 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_2 (constantI S_ 32 0#32),
    StableHlo.unary main_c_2 main_v19 (broadcastInDim S850000 ![] bcast_S_S850000 : (⟨S_, .i32⟩ : BufTy).Contents (Elt F) → (⟨S850000, .i32⟩ : BufTy).Contents (Elt F)),
    StableHlo.binary main_v6 main_v19 main_v20 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v21 (broadcastInDim S850000 ![] bcast_S_S850000 : (⟨S_, .i32⟩ : BufTy).Contents (Elt F) → (⟨S850000, .i32⟩ : BufTy).Contents (Elt F)),
    StableHlo.binary main_v6 main_v21 main_v22 (addi : (⟨S850000, .i32⟩ : BufTy).Contents (Elt F) → (⟨S850000, .i32⟩ : BufTy).Contents (Elt F) → (⟨S850000, .i32⟩ : BufTy).Contents (Elt F)),
    StableHlo.ternary main_v20 main_v22 main_v6 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v23 main_v24 (broadcastInDim S850000x1 ![0] bcast_S850000_S850000x1_0 : (⟨S850000, .i32⟩ : BufTy).Contents (Elt F) → (⟨S850000x1, .i32⟩ : BufTy).Contents (Elt F)),
    StableHlo.binary main_v11 main_v24 main_v25 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v18 main_v25 main_v26 (mulf : (⟨S850000, .f32⟩ : BufTy).Contents (Elt F) → (⟨S850000, .f32⟩ : BufTy).Contents (Elt F) → (⟨S850000, .f32⟩ : BufTy).Contents (Elt F)) ]

/-- Statements 33 … 33 of the line (calls inlined). -/
abbrev opsD1 : List (HloOp τ sig (Elt F)) :=
  [ StableHlo.binary main_arg0 main_arg2 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Statements 34 … 58 of the line (calls inlined). -/
abbrev opsA1 : List (HloOp τ sig (Elt F)) :=
  [ StableHlo.nullary main_c_4 (constantI S_ 32 0#32),
    StableHlo.unary main_c_4 main_v28 (broadcastInDim S850000 ![] bcast_S_S850000 : (⟨S_, .i32⟩ : BufTy).Contents (Elt F) → (⟨S850000, .i32⟩ : BufTy).Contents (Elt F)),
    StableHlo.binary main_v5 main_v28 main_v29 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v30 (broadcastInDim S850000 ![] bcast_S_S850000 : (⟨S_, .i32⟩ : BufTy).Contents (Elt F) → (⟨S850000, .i32⟩ : BufTy).Contents (Elt F)),
    StableHlo.binary main_v5 main_v30 main_v31 (addi : (⟨S850000, .i32⟩ : BufTy).Contents (Elt F) → (⟨S850000, .i32⟩ : BufTy).Contents (Elt F) → (⟨S850000, .i32⟩ : BufTy).Contents (Elt F)),
    StableHlo.ternary main_v29 main_v31 main_v5 main_v32 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v32 main_v33 (broadcastInDim S850000x1 ![0] bcast_S850000_S850000x1_0 : (⟨S850000, .i32⟩ : BufTy).Contents (Elt F) → (⟨S850000x1, .i32⟩ : BufTy).Contents (Elt F)),
    StableHlo.binary main_v27 main_v33 main_v34 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v26 main_v35 (broadcastInDim S850000x1 ![0] bcast_S850000_S850000x1_0 : (⟨S850000, .f32⟩ : BufTy).Contents (Elt F) → (⟨S850000x1, .f32⟩ : BufTy).Contents (Elt F)),
    StableHlo.unary main_v35 main_v36 (broadcastInDim S850000x128 ![0, 1] bcast_S850000x1_S850000x128_0_1 : (⟨S850000x1, .f32⟩ : BufTy).Contents (Elt F) → (⟨S850000x128, .f32⟩ : BufTy).Contents (Elt F)),
    StableHlo.binary main_v34 main_v36 main_v37 (mulf : (⟨S850000x128, .f32⟩ : BufTy).Contents (Elt F) → (⟨S850000x128, .f32⟩ : BufTy).Contents (Elt F) → (⟨S850000x128, .f32⟩ : BufTy).Contents (Elt F)),
    StableHlo.nullary main_cst_6 (constant S_ .f32 0x00000000#32),
    StableHlo.unary main_cst_6 main_v38 (broadcastInDim S50000x128 ![] bcast_S_S50000x128 : (⟨S_, .f32⟩ : BufTy).Contents (Elt F) → (⟨S50000x128, .f32⟩ : BufTy).Contents (Elt F)),
    StableHlo.unary main_v6 main_v39 (broadcastInDim S850000x1 ![0] bcast_S850000_S850000x1_0 : (⟨S850000, .i32⟩ : BufTy).Contents (Elt F) → (⟨S850000x1, .i32⟩ : BufTy).Contents (Elt F)),
    StableHlo.ternary main_v38 main_v39 main_v37 main_v40 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg3 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v42 main_v43 (addf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x00000000#32),
    StableHlo.binary main_v43 main_cst_7 main_v44 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_8 (constant S_ .f32 0x47435000#32),
    StableHlo.unary main_cst_8 main_v45 (broadcastInDim S128 ![] bcast_S_S128 : (⟨S_, .f32⟩ : BufTy).Contents (Elt F) → (⟨S128, .f32⟩ : BufTy).Contents (Elt F)),
    StableHlo.binary main_v44 main_v45 main_v46 (Host.divf : (⟨S128, .f32⟩ : BufTy).Contents (Elt F) → (⟨S128, .f32⟩ : BufTy).Contents (Elt F) → (⟨S128, .f32⟩ : BufTy).Contents (Elt F)),
    StableHlo.nullary main_c_9 (constantI S_ 32 0#32) ]

/-- Statements 59 … 80 of the line (calls inlined). -/
abbrev opsV1 : List (HloOp τ sig (Elt F)) :=
  [ StableHlo.TRef.nullary main_call0.cst (constant S_ .f32 0x00000000#32),
    StableHlo.TRef.binary (.of main_v43) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v43) main_call0.v4 main_call0.v5 subf,
    StableHlo.TRef.binary main_call0.v5 main_call0.v5 main_call0.v6 mulf,
    StableHlo.TRef.unary (.of main_c_9) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

/-- Statements 81 … 99 of the line (calls inlined). -/
abbrev opsB1 : List (HloOp τ sig (Elt F)) :=
  [ StableHlo.unary main_v46 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v49 main_v50 (subf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x3727C5AC#32),
    StableHlo.unary main_cst_10 main_v51 (broadcastInDim S128 ![] bcast_S_S128 : (⟨S_, .f32⟩ : BufTy).Contents (Elt F) → (⟨S128, .f32⟩ : BufTy).Contents (Elt F)),
    StableHlo.binary main_v47 main_v51 main_v52 (addf : (⟨S128, .f32⟩ : BufTy).Contents (Elt F) → (⟨S128, .f32⟩ : BufTy).Contents (Elt F) → (⟨S128, .f32⟩ : BufTy).Contents (Elt F)),
    StableHlo.unary main_v52 main_v53 (Host.rsqrt : (⟨S128, .f32⟩ : BufTy).Contents (Elt F) → (⟨S128, .f32⟩ : BufTy).Contents (Elt F)),
    StableHlo.unary main_v53 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S50000x128 ![0, 1] bcast_S1x128_S50000x128_0_1 : (⟨S1x128, .f32⟩ : BufTy).Contents (Elt F) → (⟨S50000x128, .f32⟩ : BufTy).Contents (Elt F)),
    StableHlo.binary main_v50 main_v55 main_v56 (mulf : (⟨S50000x128, .f32⟩ : BufTy).Contents (Elt F) → (⟨S50000x128, .f32⟩ : BufTy).Contents (Elt F) → (⟨S50000x128, .f32⟩ : BufTy).Contents (Elt F)),
    StableHlo.unary main_arg4 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v58 main_v59 (mulf : (⟨S50000x128, .f32⟩ : BufTy).Contents (Elt F) → (⟨S50000x128, .f32⟩ : BufTy).Contents (Elt F) → (⟨S50000x128, .f32⟩ : BufTy).Contents (Elt F)),
    StableHlo.unary main_arg5 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S50000x128 ![0, 1] bcast_S1x128_S50000x128_0_1 : (⟨S1x128, .f32⟩ : BufTy).Contents (Elt F) → (⟨S50000x128, .f32⟩ : BufTy).Contents (Elt F)),
    StableHlo.binary main_v59 main_v61 main_v62 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v62) main_call1.v0 main_call1.v1 maximumf ]

/-- Statements 100 … 100 of the line (calls inlined). -/
abbrev opsD2 : List (HloOp τ sig (Elt F)) :=
  [ StableHlo.binary main_v63 main_arg6 main_v64 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Statements 101 … 125 of the line (calls inlined). -/
abbrev opsA2 : List (HloOp τ sig (Elt F)) :=
  [ StableHlo.nullary main_c_11 (constantI S_ 32 0#32),
    StableHlo.unary main_c_11 main_v65 (broadcastInDim S850000 ![] bcast_S_S850000 : (⟨S_, .i32⟩ : BufTy).Contents (Elt F) → (⟨S850000, .i32⟩ : BufTy).Contents (Elt F)),
    StableHlo.binary main_v5 main_v65 main_v66 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v67 (broadcastInDim S850000 ![] bcast_S_S850000 : (⟨S_, .i32⟩ : BufTy).Contents (Elt F) → (⟨S850000, .i32⟩ : BufTy).Contents (Elt F)),
    StableHlo.binary main_v5 main_v67 main_v68 (addi : (⟨S850000, .i32⟩ : BufTy).Contents (Elt F) → (⟨S850000, .i32⟩ : BufTy).Contents (Elt F) → (⟨S850000, .i32⟩ : BufTy).Contents (Elt F)),
    StableHlo.ternary main_v66 main_v68 main_v5 main_v69 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v69 main_v70 (broadcastInDim S850000x1 ![0] bcast_S850000_S850000x1_0 : (⟨S850000, .i32⟩ : BufTy).Contents (Elt F) → (⟨S850000x1, .i32⟩ : BufTy).Contents (Elt F)),
    StableHlo.binary main_v64 main_v70 main_v71 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v26 main_v72 (broadcastInDim S850000x1 ![0] bcast_S850000_S850000x1_0 : (⟨S850000, .f32⟩ : BufTy).Contents (Elt F) → (⟨S850000x1, .f32⟩ : BufTy).Contents (Elt F)),
    StableHlo.unary main_v72 main_v73 (broadcastInDim S850000x128 ![0, 1] bcast_S850000x1_S850000x128_0_1 : (⟨S850000x1, .f32⟩ : BufTy).Contents (Elt F) → (⟨S850000x128, .f32⟩ : BufTy).Contents (Elt F)),
    StableHlo.binary main_v71 main_v73 main_v74 (mulf : (⟨S850000x128, .f32⟩ : BufTy).Contents (Elt F) → (⟨S850000x128, .f32⟩ : BufTy).Contents (Elt F) → (⟨S850000x128, .f32⟩ : BufTy).Contents (Elt F)),
    StableHlo.nullary main_cst_13 (constant S_ .f32 0x00000000#32),
    StableHlo.unary main_cst_13 main_v75 (broadcastInDim S50000x128 ![] bcast_S_S50000x128 : (⟨S_, .f32⟩ : BufTy).Contents (Elt F) → (⟨S50000x128, .f32⟩ : BufTy).Contents (Elt F)),
    StableHlo.unary main_v6 main_v76 (broadcastInDim S850000x1 ![0] bcast_S850000_S850000x1_0 : (⟨S850000, .i32⟩ : BufTy).Contents (Elt F) → (⟨S850000x1, .i32⟩ : BufTy).Contents (Elt F)),
    StableHlo.ternary main_v75 main_v76 main_v74 main_v77 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg7 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S50000x128 ![0, 1] bcast_S1x128_S50000x128_0_1 : (⟨S1x128, .f32⟩ : BufTy).Contents (Elt F) → (⟨S50000x128, .f32⟩ : BufTy).Contents (Elt F)),
    StableHlo.binary main_v77 main_v79 main_v80 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x00000000#32),
    StableHlo.binary main_v80 main_cst_14 main_v81 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v82 (broadcastInDim S128 ![] bcast_S_S128 : (⟨S_, .f32⟩ : BufTy).Contents (Elt F) → (⟨S128, .f32⟩ : BufTy).Contents (Elt F)),
    StableHlo.binary main_v81 main_v82 main_v83 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32) ]

/-- Statements 126 … 147 of the line (calls inlined). -/
abbrev opsV2 : List (HloOp τ sig (Elt F)) :=
  [ StableHlo.TRef.nullary main_call2.cst (constant S_ .f32 0x00000000#32),
    StableHlo.TRef.binary (.of main_v80) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v80) main_call2.v4 main_call2.v5 subf,
    StableHlo.TRef.binary main_call2.v5 main_call2.v5 main_call2.v6 mulf,
    StableHlo.TRef.unary (.of main_c_16) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- Statements 148 … 163 of the line (calls inlined). -/
abbrev opsB2a : List (HloOp τ sig (Elt F)) :=
  [ StableHlo.unary main_v83 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S50000x128 ![0, 1] bcast_S1x128_S50000x128_0_1 : (⟨S1x128, .f32⟩ : BufTy).Contents (Elt F) → (⟨S50000x128, .f32⟩ : BufTy).Contents (Elt F)),
    StableHlo.binary main_v80 main_v86 main_v87 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v88 (broadcastInDim S128 ![] bcast_S_S128 : (⟨S_, .f32⟩ : BufTy).Contents (Elt F) → (⟨S128, .f32⟩ : BufTy).Contents (Elt F)),
    StableHlo.binary main_v84 main_v88 main_v89 (addf : (⟨S128, .f32⟩ : BufTy).Contents (Elt F) → (⟨S128, .f32⟩ : BufTy).Contents (Elt F) → (⟨S128, .f32⟩ : BufTy).Contents (Elt F)),
    StableHlo.unary main_v89 main_v90 (Host.rsqrt : (⟨S128, .f32⟩ : BufTy).Contents (Elt F) → (⟨S128, .f32⟩ : BufTy).Contents (Elt F)),
    StableHlo.unary main_v90 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v92 main_v93 (mulf : (⟨S50000x128, .f32⟩ : BufTy).Contents (Elt F) → (⟨S50000x128, .f32⟩ : BufTy).Contents (Elt F) → (⟨S50000x128, .f32⟩ : BufTy).Contents (Elt F)),
    StableHlo.unary main_arg8 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v95 main_v96 (mulf : (⟨S50000x128, .f32⟩ : BufTy).Contents (Elt F) → (⟨S50000x128, .f32⟩ : BufTy).Contents (Elt F) → (⟨S50000x128, .f32⟩ : BufTy).Contents (Elt F)),
    StableHlo.unary main_arg9 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S50000x128 ![0, 1] bcast_S1x128_S50000x128_0_1 : (⟨S1x128, .f32⟩ : BufTy).Contents (Elt F) → (⟨S50000x128, .f32⟩ : BufTy).Contents (Elt F)),
    StableHlo.binary main_v96 main_v98 main_v99 (addf : (⟨S50000x128, .f32⟩ : BufTy).Contents (Elt F) → (⟨S50000x128, .f32⟩ : BufTy).Contents (Elt F) → (⟨S50000x128, .f32⟩ : BufTy).Contents (Elt F)) ]

/-- Statements 164 … 166 of the line (calls inlined). -/
abbrev opsB2b : List (HloOp τ sig (Elt F)) :=
  [ StableHlo.TRef.nullary main_call3.cst (constant S_ .f32 0x00000000#32),
    StableHlo.TRef.unary main_call3.cst main_call3.v0 (broadcastInDim S50000x128 ![] bcast_S_S50000x128),
    StableHlo.TRef.binary (.of main_v99) main_call3.v0 main_call3.v1 maximumf ]

/-- Statements 167 … 167 of the line (calls inlined). -/
abbrev opsD3 : List (HloOp τ sig (Elt F)) :=
  [ StableHlo.binary main_v100 main_arg10 main_v101 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Statements 168 … 192 of the line (calls inlined). -/
abbrev opsA3 : List (HloOp τ sig (Elt F)) :=
  [ StableHlo.nullary main_c_18 (constantI S_ 32 0#32),
    StableHlo.unary main_c_18 main_v102 (broadcastInDim S850000 ![] bcast_S_S850000 : (⟨S_, .i32⟩ : BufTy).Contents (Elt F) → (⟨S850000, .i32⟩ : BufTy).Contents (Elt F)),
    StableHlo.binary main_v5 main_v102 main_v103 (cmpi .slt : (⟨S850000, .i32⟩ : BufTy).Contents (Elt F) → (⟨S850000, .i32⟩ : BufTy).Contents (Elt F) → (⟨S850000, .i1⟩ : BufTy).Contents (Elt F)),
    StableHlo.nullary main_c_19 (constantI S_ 32 50000#32),
    StableHlo.unary main_c_19 main_v104 (broadcastInDim S850000 ![] bcast_S_S850000 : (⟨S_, .i32⟩ : BufTy).Contents (Elt F) → (⟨S850000, .i32⟩ : BufTy).Contents (Elt F)),
    StableHlo.binary main_v5 main_v104 main_v105 (addi : (⟨S850000, .i32⟩ : BufTy).Contents (Elt F) → (⟨S850000, .i32⟩ : BufTy).Contents (Elt F) → (⟨S850000, .i32⟩ : BufTy).Contents (Elt F)),
    StableHlo.ternary main_v103 main_v105 main_v5 main_v106 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v106 main_v107 (broadcastInDim S850000x1 ![0] bcast_S850000_S850000x1_0 : (⟨S850000, .i32⟩ : BufTy).Contents (Elt F) → (⟨S850000x1, .i32⟩ : BufTy).Contents (Elt F)),
    StableHlo.binary main_v101 main_v107 main_v108 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v26 main_v109 (broadcastInDim S850000x1 ![0] bcast_S850000_S850000x1_0 : (⟨S850000, .f32⟩ : BufTy).Contents (Elt F) → (⟨S850000x1, .f32⟩ : BufTy).Contents (Elt F)),
    StableHlo.unary main_v109 main_v110 (broadcastInDim S850000x128 ![0, 1] bcast_S850000x1_S850000x128_0_1 : (⟨S850000x1, .f32⟩ : BufTy).Contents (Elt F) → (⟨S850000x128, .f32⟩ : BufTy).Contents (Elt F)),
    StableHlo.binary main_v108 main_v110 main_v111 (mulf : (⟨S850000x128, .f32⟩ : BufTy).Contents (Elt F) → (⟨S850000x128, .f32⟩ : BufTy).Contents (Elt F) → (⟨S850000x128, .f32⟩ : BufTy).Contents (Elt F)),
    StableHlo.nullary main_cst_20 (constant S_ .f32 0x00000000#32),
    StableHlo.unary main_cst_20 main_v112 (broadcastInDim S50000x128 ![] bcast_S_S50000x128 : (⟨S_, .f32⟩ : BufTy).Contents (Elt F) → (⟨S50000x128, .f32⟩ : BufTy).Contents (Elt F)),
    StableHlo.unary main_v6 main_v113 (broadcastInDim S850000x1 ![0] bcast_S850000_S850000x1_0 : (⟨S850000, .i32⟩ : BufTy).Contents (Elt F) → (⟨S850000x1, .i32⟩ : BufTy).Contents (Elt F)),
    StableHlo.ternary main_v112 main_v113 main_v111 main_v114 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg11 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S50000x128 ![0, 1] bcast_S1x128_S50000x128_0_1 : (⟨S1x128, .f32⟩ : BufTy).Contents (Elt F) → (⟨S50000x128, .f32⟩ : BufTy).Contents (Elt F)),
    StableHlo.binary main_v114 main_v116 main_v117 (addf : (⟨S50000x128, .f32⟩ : BufTy).Contents (Elt F) → (⟨S50000x128, .f32⟩ : BufTy).Contents (Elt F) → (⟨S50000x128, .f32⟩ : BufTy).Contents (Elt F)),
    StableHlo.nullary main_cst_21 (constant S_ .f32 0x00000000#32),
    StableHlo.binary main_v117 main_cst_21 main_v118 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_22 (constant S_ .f32 0x47435000#32),
    StableHlo.unary main_cst_22 main_v119 (broadcastInDim S128 ![] bcast_S_S128 : (⟨S_, .f32⟩ : BufTy).Contents (Elt F) → (⟨S128, .f32⟩ : BufTy).Contents (Elt F)),
    StableHlo.binary main_v118 main_v119 main_v120 (Host.divf : (⟨S128, .f32⟩ : BufTy).Contents (Elt F) → (⟨S128, .f32⟩ : BufTy).Contents (Elt F) → (⟨S128, .f32⟩ : BufTy).Contents (Elt F)),
    StableHlo.nullary main_c_23 (constantI S_ 32 0#32) ]

/-- Statements 193 … 214 of the line (calls inlined). -/
abbrev opsV3 : List (HloOp τ sig (Elt F)) :=
  [ StableHlo.TRef.nullary main_call4.cst (constant S_ .f32 0x00000000#32),
    StableHlo.TRef.binary (.of main_v117) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v117) main_call4.v4 main_call4.v5 subf,
    StableHlo.TRef.binary main_call4.v5 main_call4.v5 main_call4.v6 mulf,
    StableHlo.TRef.unary (.of main_c_23) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]

/-- Statements 215 … 233 of the line (calls inlined). -/
abbrev opsB3 : List (HloOp τ sig (Elt F)) :=
  [ StableHlo.unary main_v120 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S50000x128 ![0, 1] bcast_S1x128_S50000x128_0_1 : (⟨S1x128, .f32⟩ : BufTy).Contents (Elt F) → (⟨S50000x128, .f32⟩ : BufTy).Contents (Elt F)),
    StableHlo.binary main_v117 main_v123 main_v124 (subf : (⟨S50000x128, .f32⟩ : BufTy).Contents (Elt F) → (⟨S50000x128, .f32⟩ : BufTy).Contents (Elt F) → (⟨S50000x128, .f32⟩ : BufTy).Contents (Elt F)),
    StableHlo.nullary main_cst_24 (constant S_ .f32 0x3727C5AC#32),
    StableHlo.unary main_cst_24 main_v125 (broadcastInDim S128 ![] bcast_S_S128 : (⟨S_, .f32⟩ : BufTy).Contents (Elt F) → (⟨S128, .f32⟩ : BufTy).Contents (Elt F)),
    StableHlo.binary main_v121 main_v125 main_v126 (addf : (⟨S128, .f32⟩ : BufTy).Contents (Elt F) → (⟨S128, .f32⟩ : BufTy).Contents (Elt F) → (⟨S128, .f32⟩ : BufTy).Contents (Elt F)),
    StableHlo.unary main_v126 main_v127 (Host.rsqrt : (⟨S128, .f32⟩ : BufTy).Contents (Elt F) → (⟨S128, .f32⟩ : BufTy).Contents (Elt F)),
    StableHlo.unary main_v127 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S50000x128 ![0, 1] bcast_S1x128_S50000x128_0_1 : (⟨S1x128, .f32⟩ : BufTy).Contents (Elt F) → (⟨S50000x128, .f32⟩ : BufTy).Contents (Elt F)),
    StableHlo.binary main_v124 main_v129 main_v130 (mulf : (⟨S50000x128, .f32⟩ : BufTy).Contents (Elt F) → (⟨S50000x128, .f32⟩ : BufTy).Contents (Elt F) → (⟨S50000x128, .f32⟩ : BufTy).Contents (Elt F)),
    StableHlo.unary main_arg12 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S50000x128 ![0, 1] bcast_S1x128_S50000x128_0_1 : (⟨S1x128, .f32⟩ : BufTy).Contents (Elt F) → (⟨S50000x128, .f32⟩ : BufTy).Contents (Elt F)),
    StableHlo.binary main_v130 main_v132 main_v133 (mulf : (⟨S50000x128, .f32⟩ : BufTy).Contents (Elt F) → (⟨S50000x128, .f32⟩ : BufTy).Contents (Elt F) → (⟨S50000x128, .f32⟩ : BufTy).Contents (Elt F)),
    StableHlo.unary main_arg13 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S50000x128 ![0, 1] bcast_S1x128_S50000x128_0_1 : (⟨S1x128, .f32⟩ : BufTy).Contents (Elt F) → (⟨S50000x128, .f32⟩ : BufTy).Contents (Elt F)),
    StableHlo.binary main_v133 main_v135 main_v136 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v136) main_call5.v0 main_call5.v1 maximumf ]

/-- Statements 234 … 248 of the line (calls inlined). -/
abbrev opsEa : List (HloOp τ sig (Elt F)) :=
  [ StableHlo.nullary main_c_25 (constantI S_ 32 0#32),
    StableHlo.unary main_c_25 main_v138 (broadcastInDim S800000 ![] bcast_S_S800000 : (⟨S_, .i32⟩ : BufTy).Contents (Elt F) → (⟨S800000, .i32⟩ : BufTy).Contents (Elt F)),
    StableHlo.binary main_v1 main_v138 main_v139 (cmpi .slt : (⟨S800000, .i32⟩ : BufTy).Contents (Elt F) → (⟨S800000, .i32⟩ : BufTy).Contents (Elt F) → (⟨S800000, .i1⟩ : BufTy).Contents (Elt F)),
    StableHlo.nullary main_c_26 (constantI S_ 32 50000#32),
    StableHlo.unary main_c_26 main_v140 (broadcastInDim S800000 ![] bcast_S_S800000 : (⟨S_, .i32⟩ : BufTy).Contents (Elt F) → (⟨S800000, .i32⟩ : BufTy).Contents (Elt F)),
    StableHlo.binary main_v1 main_v140 main_v141 (addi : (⟨S800000, .i32⟩ : BufTy).Contents (Elt F) → (⟨S800000, .i32⟩ : BufTy).Contents (Elt F) → (⟨S800000, .i32⟩ : BufTy).Contents (Elt F)),
    StableHlo.ternary main_v139 main_v141 main_v1 main_v142 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v142 main_v143 (broadcastInDim S800000x1 ![0] bcast_S800000_S800000x1_0 : (⟨S800000, .i32⟩ : BufTy).Contents (Elt F) → (⟨S800000x1, .i32⟩ : BufTy).Contents (Elt F)),
    StableHlo.binary main_v137 main_v143 main_v144 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_27 (constantI S_ 32 0#32),
    StableHlo.unary main_c_27 main_v145 (broadcastInDim S800000 ![] bcast_S_S800000 : (⟨S_, .i32⟩ : BufTy).Contents (Elt F) → (⟨S800000, .i32⟩ : BufTy).Contents (Elt F)),
    StableHlo.binary main_v3 main_v145 main_v146 (cmpi .slt : (⟨S800000, .i32⟩ : BufTy).Contents (Elt F) → (⟨S800000, .i32⟩ : BufTy).Contents (Elt F) → (⟨S800000, .i1⟩ : BufTy).Contents (Elt F)),
    StableHlo.nullary main_c_28 (constantI S_ 32 50000#32),
    StableHlo.unary main_c_28 main_v147 (broadcastInDim S800000 ![] bcast_S_S800000 : (⟨S_, .i32⟩ : BufTy).Contents (Elt F) → (⟨S800000, .i32⟩ : BufTy).Contents (Elt F)),
    StableHlo.binary main_v3 main_v147 main_v148 (addi : (⟨S800000, .i32⟩ : BufTy).Contents (Elt F) → (⟨S800000, .i32⟩ : BufTy).Contents (Elt F) → (⟨S800000, .i32⟩ : BufTy).Contents (Elt F)) ]

/-- Statements 249 … 252 of the line (calls inlined). -/
abbrev opsEb : List (HloOp τ sig (Elt F)) :=
  [ StableHlo.ternary main_v146 main_v148 main_v3 main_v149 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v149 main_v150 (broadcastInDim S800000x1 ![0] bcast_S800000_S800000x1_0 : (⟨S800000, .i32⟩ : BufTy).Contents (Elt F) → (⟨S800000x1, .i32⟩ : BufTy).Contents (Elt F)),
    StableHlo.binary main_v137 main_v150 main_v151 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v144 main_v151 main_v152 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)) ]

/-- Statements 253 … 277 of the line (calls inlined). -/
abbrev opsM : List (HloOp τ sig (Elt F)) :=
  [ StableHlo.binary main_v152 main_arg14 main_v153 ((fun l r => Host.dotGeneral dot_S800000x256_S256x256_S800000x256_1_0_0_1_n_n none l r) : (⟨S800000x256, .f32⟩ : BufTy).Contents (Elt F) → (⟨S256x256, .f32⟩ : BufTy).Contents (Elt F) → (⟨S800000x256, .f32⟩ : BufTy).Contents (Elt F)),
    StableHlo.unary main_arg15 main_v154 (broadcastInDim S1x256 ![1] bcast_S256_S1x256_1 : (⟨S256, .f32⟩ : BufTy).Contents (Elt F) → (⟨S1x256, .f32⟩ : BufTy).Contents (Elt F)),
    StableHlo.unary main_v154 main_v155 (broadcastInDim S800000x256 ![0, 1] bcast_S1x256_S800000x256_0_1 : (⟨S1x256, .f32⟩ : BufTy).Contents (Elt F) → (⟨S800000x256, .f32⟩ : BufTy).Contents (Elt F)),
    StableHlo.binary main_v153 main_v155 main_v156 (addf : (⟨S800000x256, .f32⟩ : BufTy).Contents (Elt F) → (⟨S800000x256, .f32⟩ : BufTy).Contents (Elt F) → (⟨S800000x256, .f32⟩ : BufTy).Contents (Elt F)),
    StableHlo.TRef.nullary main_call6.cst (constant S_ .f32 0x00000000#32),
    StableHlo.TRef.unary main_call6.cst main_call6.v0 (broadcastInDim S800000x256 ![] bcast_S_S800000x256),
    StableHlo.TRef.binary (.of main_v156) main_call6.v0 main_call6.v1 maximumf,
    StableHlo.binary main_v157 main_arg16 main_v158 ((fun l r => Host.dotGeneral dot_S800000x256_S256x128_S800000x128_1_0_0_1_n_n none l r) : (⟨S800000x256, .f32⟩ : BufTy).Contents (Elt F) → (⟨S256x128, .f32⟩ : BufTy).Contents (Elt F) → (⟨S800000x128, .f32⟩ : BufTy).Contents (Elt F)),
    StableHlo.unary main_arg17 main_v159 (broadcastInDim S1x128 ![1] bcast_S128_S1x128_1 : (⟨S128, .f32⟩ : BufTy).Contents (Elt F) → (⟨S1x128, .f32⟩ : BufTy).Contents (Elt F)),
    StableHlo.unary main_v159 main_v160 (broadcastInDim S800000x128 ![0, 1] bcast_S1x128_S800000x128_0_1 : (⟨S1x128, .f32⟩ : BufTy).Contents (Elt F) → (⟨S800000x128, .f32⟩ : BufTy).Contents (Elt F)),
    StableHlo.binary main_v158 main_v160 main_v161 (addf : (⟨S800000x128, .f32⟩ : BufTy).Contents (Elt F) → (⟨S800000x128, .f32⟩ : BufTy).Contents (Elt F) → (⟨S800000x128, .f32⟩ : BufTy).Contents (Elt F)),
    StableHlo.TRef.nullary main_call7.cst (constant S_ .f32 0x00000000#32),
    StableHlo.TRef.unary main_call7.cst main_call7.v0 (broadcastInDim S800000x128 ![] bcast_S_S800000x128),
    StableHlo.TRef.binary (.of main_v161) main_call7.v0 main_call7.v1 maximumf,
    StableHlo.binary main_v162 main_arg18 main_v163 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    StableHlo.unary main_arg19 main_v164 (broadcastInDim S1x64 ![1] bcast_S64_S1x64_1 : (⟨S64, .f32⟩ : BufTy).Contents (Elt F) → (⟨S1x64, .f32⟩ : BufTy).Contents (Elt F)),
    StableHlo.unary main_v164 main_v165 (broadcastInDim S800000x64 ![0, 1] bcast_S1x64_S800000x64_0_1 : (⟨S1x64, .f32⟩ : BufTy).Contents (Elt F) → (⟨S800000x64, .f32⟩ : BufTy).Contents (Elt F)),
    StableHlo.binary main_v163 main_v165 main_v166 (addf : (⟨S800000x64, .f32⟩ : BufTy).Contents (Elt F) → (⟨S800000x64, .f32⟩ : BufTy).Contents (Elt F) → (⟨S800000x64, .f32⟩ : BufTy).Contents (Elt F)),
    StableHlo.TRef.nullary main_call8.cst (constant S_ .f32 0x00000000#32),
    StableHlo.TRef.unary main_call8.cst main_call8.v0 (broadcastInDim S800000x64 ![] bcast_S_S800000x64),
    StableHlo.TRef.binary (.of main_v166) main_call8.v0 main_call8.v1 maximumf,
    StableHlo.binary main_v167 main_arg20 main_v168 ((fun l r => Host.dotGeneral dot_S800000x64_S64x2_S800000x2_1_0_0_1_n_n none l r) : (⟨S800000x64, .f32⟩ : BufTy).Contents (Elt F) → (⟨S64x2, .f32⟩ : BufTy).Contents (Elt F) → (⟨S800000x2, .f32⟩ : BufTy).Contents (Elt F)),
    StableHlo.unary main_arg21 main_v169 (broadcastInDim S1x2 ![1] bcast_S2_S1x2_1 : (⟨S2, .f32⟩ : BufTy).Contents (Elt F) → (⟨S1x2, .f32⟩ : BufTy).Contents (Elt F)),
    StableHlo.unary main_v169 main_v170 (broadcastInDim S800000x2 ![0, 1] bcast_S1x2_S800000x2_0_1 : (⟨S1x2, .f32⟩ : BufTy).Contents (Elt F) → (⟨S800000x2, .f32⟩ : BufTy).Contents (Elt F)),
    StableHlo.binary main_v168 main_v170 main_v171 (addf : (⟨S800000x2, .f32⟩ : BufTy).Contents (Elt F) → (⟨S800000x2, .f32⟩ : BufTy).Contents (Elt F) → (⟨S800000x2, .f32⟩ : BufTy).Contents (Elt F)) ]

/-- The whole line: the stretches in order. Not reducible: it is opened (`ops_def`) only where the stretches are needed. -/
def ops : List (HloOp τ sig (Elt F)) :=
  opsP ++ opsD1 ++ opsA1 ++ opsV1 ++ opsB1 ++ opsD2 ++ opsA2 ++ opsV2 ++ opsB2a ++ opsB2b ++ opsD3 ++ opsA3 ++ opsV3 ++ opsB3 ++ opsEa ++ opsEb ++ opsM

theorem ops_def : (ops : List (HloOp τ sig (Elt F))) = opsP ++ opsD1 ++ opsA1 ++ opsV1 ++ opsB1 ++ opsD2 ++ opsA2 ++ opsV2 ++ opsB2a ++ opsB2b ++ opsD3 ++ opsA3 ++ opsV3 ++ opsB3 ++ opsEa ++ opsEb ++ opsM := rfl

end Cert.ReferenceIdeal.Hand

end
-- ==== Proof.RefRun.lean ====
/-
  The run of the reference program's @main as one straight line of host operations: @main is the line, the line's
  side conditions, and every weakly fair execution ends with every buffer at the fold of the operations over the
  launch contents; what each stretch writes.
-/
import proofs.«123362_j807453851682_1_alg».proof.Proof.RefOps
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Every operation touches TensorCore references only -/

theorem opsP_sub : (opsP : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem opsD1_sub : (opsD1 : List (HloOp τ sig (Elt F))).Forall fun op => op.bufs ⊆ tcRefs τ sig :=
  binary_bufs_sub ..

theorem opsA1_sub : (opsA1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub ..⟩

theorem opsV1_sub : (opsV1 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem opsB1_sub : (opsB1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsD2_sub : (opsD2 : List (HloOp τ sig (Elt F))).Forall fun op => op.bufs ⊆ tcRefs τ sig :=
  binary_bufs_sub ..

theorem opsA2_sub : (opsA2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub ..⟩

theorem opsV2_sub : (opsV2 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem opsB2a_sub : (opsB2a : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem opsB2b_sub : (opsB2b : List (HloOp τ sig (Elt F))).Forall fun op => op.bufs ⊆ tcRefs τ sig :=
  ⟨nullary_bufs_sub .., unary_bufs_sub .., binary_bufs_sub ..⟩

theorem opsD3_sub : (opsD3 : List (HloOp τ sig (Elt F))).Forall fun op => op.bufs ⊆ tcRefs τ sig :=
  binary_bufs_sub ..

theorem opsA3_sub : (opsA3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub ..⟩

theorem opsV3_sub : (opsV3 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem opsB3_sub : (opsB3 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsEa_sub : (opsEa : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub ..⟩

theorem opsEb_sub : (opsEb : List (HloOp τ sig (Elt F))).Forall fun op => op.bufs ⊆ tcRefs τ sig :=
  ⟨ternary_bufs_sub .., unary_bufs_sub .., binary_bufs_sub .., binary_bufs_sub ..⟩

theorem opsM_sub : (opsM : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-! ## @main is the line

Each part of @main, with the called functions' bodies unfolded at their calls and sequencing reassociated, is the
chain of `hlo` steps of its stretches in order; a line run after a line is their concatenation run as one. -/

set_option maxRecDepth 8192 in
set_option maxHeartbeats 1600000 in
/-- Part 0 of @main is the run of its stretches, appended. -/
theorem main_part0_eq (c : Dev nD) :
    main_part0 (F := F) c = seq (opsP ++ opsD1 ++ opsA1 ++ opsV1) := by
  simp only [main_part0, fn_var.body, fn_where.body, fn_relu.body, fn_relu_0.body, fn_relu_1.body, fn_relu_2.body, seq_append, seq, bind_assoc, pure_bind]

set_option maxRecDepth 8192 in
set_option maxHeartbeats 1600000 in
/-- Part 1 of @main is the run of its stretches, appended. -/
theorem main_part1_eq (c : Dev nD) :
    main_part1 (F := F) c = seq (opsB1 ++ opsD2 ++ opsA2 ++ opsV2 ++ opsB2a) := by
  simp only [main_part1, fn_var.body, fn_where.body, fn_relu.body, fn_relu_0.body, fn_relu_1.body, fn_relu_2.body, seq_append, seq, bind_assoc, pure_bind]
  rfl

set_option maxRecDepth 8192 in
set_option maxHeartbeats 1600000 in
/-- Part 2 of @main is the run of its stretches, appended. -/
theorem main_part2_eq (c : Dev nD) :
    main_part2 (F := F) c = seq (opsB2b ++ opsD3 ++ opsA3 ++ opsV3 ++ opsB3 ++ opsEa) := by
  simp only [main_part2, fn_var.body, fn_where.body, fn_relu.body, fn_relu_0.body, fn_relu_1.body, fn_relu_2.body, seq_append, seq, bind_assoc, pure_bind]
  rfl

set_option maxRecDepth 8192 in
set_option maxHeartbeats 1600000 in
/-- Part 3 of @main is the run of its stretches, appended. -/
theorem main_part3_eq (c : Dev nD) :
    main_part3 (F := F) c = seq (opsEb ++ opsM) := by
  simp only [main_part3, fn_var.body, fn_where.body, fn_relu.body, fn_relu_0.body, fn_relu_1.body, fn_relu_2.body, seq_append, seq, bind_assoc, pure_bind]

/-- @main is the run of the whole line: its four parts in order are the four groups of stretches in order, and
    appending is associative. -/
theorem main_eq (c : Dev nD) : main (F := F) c = seq ops := by
  simp only [main, ops, main_part0_eq, main_part1_eq, main_part2_eq, main_part3_eq, ← seq_append, List.append_assoc]

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only: stretch by stretch. -/
theorem ops_sub : (ops : List (HloOp τ sig (Elt F))).Forall fun op => op.bufs ⊆ tcRefs τ sig := by
  simp only [ops, List.forall_append]
  exact ⟨⟨⟨⟨⟨⟨⟨⟨⟨⟨⟨⟨⟨⟨⟨⟨opsP_sub, opsD1_sub⟩, opsA1_sub⟩, opsV1_sub⟩, opsB1_sub⟩, opsD2_sub⟩, opsA2_sub⟩, opsV2_sub⟩, opsB2a_sub⟩, opsB2b_sub⟩, opsD3_sub⟩, opsA3_sub⟩, opsV3_sub⟩, opsB3_sub⟩, opsEa_sub⟩, opsEb_sub⟩, opsM_sub⟩

/-- The same, over the members of the line. -/
theorem ops_sub_mem : ∀ op ∈ (ops : List (HloOp τ sig (Elt F))), op.bufs ⊆ tcRefs τ sig := by
  rw [← List.forall_iff_forall_mem]
  simp only [ops, List.forall_append]
  exact ⟨⟨⟨⟨⟨⟨⟨⟨⟨⟨⟨⟨⟨⟨⟨⟨opsP_sub, opsD1_sub⟩, opsA1_sub⟩, opsV1_sub⟩, opsB1_sub⟩, opsD2_sub⟩, opsA2_sub⟩, opsV2_sub⟩, opsB2a_sub⟩, opsB2b_sub⟩, opsD3_sub⟩, opsA3_sub⟩, opsV3_sub⟩, opsB3_sub⟩, opsEa_sub⟩, opsEb_sub⟩, opsM_sub⟩

theorem opsP_fresh : (opsP : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsD1_fresh : (opsD1 : List (HloOp τ sig (Elt F))).Forall fun op => op.fresh = ∅ :=
  rfl

theorem opsA1_fresh : (opsA1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

theorem opsV1_fresh : (opsV1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem opsB1_fresh : (opsB1 : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem opsD2_fresh : (opsD2 : List (HloOp τ sig (Elt F))).Forall fun op => op.fresh = ∅ :=
  rfl

theorem opsA2_fresh : (opsA2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

theorem opsV2_fresh : (opsV2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem opsB2a_fresh : (opsB2a : List (HloOp τ sig (Elt F))).Forall fun op => op.fresh = ∅ :=
  ⟨rfl, rfl, rfl, rfl, rfl, rfl, rfl, rfl, rfl, rfl, rfl, rfl, rfl, rfl, rfl, rfl⟩

theorem opsB2b_fresh : (opsB2b : List (HloOp τ sig (Elt F))).Forall fun op => op.fresh = ∅ :=
  ⟨rfl, rfl, rfl⟩

theorem opsD3_fresh : (opsD3 : List (HloOp τ sig (Elt F))).Forall fun op => op.fresh = ∅ :=
  rfl

theorem opsA3_fresh : (opsA3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

theorem opsV3_fresh : (opsV3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem opsB3_fresh : (opsB3 : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem opsEa_fresh : (opsEa : List (HloOp τ sig (Elt F))).Forall fun op => op.fresh = ∅ :=
  ⟨rfl, rfl, rfl, rfl, rfl, rfl, rfl, rfl, rfl, rfl, rfl, rfl, rfl, rfl, rfl⟩

theorem opsEb_fresh : (opsEb : List (HloOp τ sig (Elt F))).Forall fun op => op.fresh = ∅ :=
  ⟨rfl, rfl, rfl, rfl⟩

theorem opsM_fresh : (opsM : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- No operation of the line leaves a result undetermined: stretch by stretch. -/
theorem ops_fresh : ∀ op ∈ (ops : List (HloOp τ sig (Elt F))), op.fresh = ∅ := by
  rw [← List.forall_iff_forall_mem]
  simp only [ops, List.forall_append]
  exact ⟨⟨⟨⟨⟨⟨⟨⟨⟨⟨⟨⟨⟨⟨⟨⟨opsP_fresh, opsD1_fresh⟩, opsA1_fresh⟩, opsV1_fresh⟩, opsB1_fresh⟩, opsD2_fresh⟩, opsA2_fresh⟩, opsV2_fresh⟩, opsB2a_fresh⟩, opsB2b_fresh⟩, opsD3_fresh⟩, opsA3_fresh⟩, opsV3_fresh⟩, opsB3_fresh⟩, opsEa_fresh⟩, opsEb_fresh⟩, opsM_fresh⟩

/-- The run of a line that @main is: at the compiled mesh, for any float values, from any memory with zero counters,
    every weakly fair execution of @main on the TensorCores terminates, and every final state has each TensorCore
    buffer at the operations' fold over the launch contents. -/
theorem run_of_eq (L : List (HloOp τ sig (Elt F))) (hmain : ∀ c : Dev nD, main (F := F) c = seq L)
    (hS : ∀ op ∈ L, op.bufs ⊆ tcRefs τ sig) (hf : ∀ op ∈ L, op.fresh = ∅)
    (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after L (launchContents m c) (b : DevRef τ sig) :=
  run_seq scopedRefs_eq scopedSems_eq defs main (fun _ => L) hmain (fun _ => List.forall_iff_forall_mem.mpr hS) m ρ (fun _ => hf)

/-- At the compiled mesh, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_of_eq ops main_eq ops_sub_mem ops_fresh m ρ

/-! ## What the line writes

Each operation writes its result buffer only; per stretch the result references, in order, as a literal list. A
reference outside every list is written by no operation, so the fold leaves it as it was: the arguments are such. -/

/-- An operation that writes one buffer, that buffer's reference in the list: its writes are among the list's buffers. -/
theorem writes_sub_of_mem {op : HloOp τ sig (Elt F)} {y : Ref sig .tc} {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- Two lines in a row write what the first writes and what the second writes. -/
theorem writes_append {W₁ W₂ : List (Ref sig .tc)} {l₁ l₂ : List (HloOp τ sig (Elt F))}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset := by
  rw [List.forall_append]
  refine ⟨h₁.imp fun op h => h.trans fun x hx => ?_, h₂.imp fun op h => h.trans fun x hx => ?_⟩
  · rw [List.mem_toFinset] at hx ⊢
    exact List.map_subset _ (List.subset_append_left _ _) hx
  · rw [List.mem_toFinset] at hx ⊢
    exact List.map_subset _ (List.subset_append_right _ _) hx

/-- The result references of `opsP`, in order. -/
abbrev opsP_W : List (Ref sig .tc) :=
  [main_v0, main_v1, main_v2, main_v3, main_v4, main_v5, main_v6, main_cst, main_v7, main_cst_0, main_v8, main_v9,
   main_v10, main_v11, main_c, main_v12, main_v13, main_c_1, main_v14, main_v15, main_v16, main_v17, main_v18, main_c_2,
   main_v19, main_v20, main_c_3, main_v21, main_v22, main_v23, main_v24, main_v25, main_v26]

theorem opsP_writes : (opsP : List (HloOp τ sig (Elt F))).Forall fun op =>
    op.writes ⊆ ((opsP_W : List (Ref sig .tc)).map (Proc.devRef (τ := τ) .tc)).toFinset :=
  ⟨writes_sub_of_mem (y := main_v0) rfl (by decide),
    writes_sub_of_mem (y := main_v1) rfl (by decide),
    writes_sub_of_mem (y := main_v2) rfl (by decide),
    writes_sub_of_mem (y := main_v3) rfl (by decide),
    writes_sub_of_mem (y := main_v4) rfl (by decide),
    writes_sub_of_mem (y := main_v5) rfl (by decide),
    writes_sub_of_mem (y := main_v6) rfl (by decide),
    writes_sub_of_mem (y := main_cst) rfl (by decide),
    writes_sub_of_mem (y := main_v7) rfl (by decide),
    writes_sub_of_mem (y := main_cst_0) rfl (by decide),
    writes_sub_of_mem (y := main_v8) rfl (by decide),
    writes_sub_of_mem (y := main_v9) rfl (by decide),
    writes_sub_of_mem (y := main_v10) rfl (by decide),
    writes_sub_of_mem (y := main_v11) rfl (by decide),
    writes_sub_of_mem (y := main_c) rfl (by decide),
    writes_sub_of_mem (y := main_v12) rfl (by decide),
    writes_sub_of_mem (y := main_v13) rfl (by decide),
    writes_sub_of_mem (y := main_c_1) rfl (by decide),
    writes_sub_of_mem (y := main_v14) rfl (by decide),
    writes_sub_of_mem (y := main_v15) rfl (by decide),
    writes_sub_of_mem (y := main_v16) rfl (by decide),
    writes_sub_of_mem (y := main_v17) rfl (by decide),
    writes_sub_of_mem (y := main_v18) rfl (by decide),
    writes_sub_of_mem (y := main_c_2) rfl (by decide),
    writes_sub_of_mem (y := main_v19) rfl (by decide),
    writes_sub_of_mem (y := main_v20) rfl (by decide),
    writes_sub_of_mem (y := main_c_3) rfl (by decide),
    writes_sub_of_mem (y := main_v21) rfl (by decide),
    writes_sub_of_mem (y := main_v22) rfl (by decide),
    writes_sub_of_mem (y := main_v23) rfl (by decide),
    writes_sub_of_mem (y := main_v24) rfl (by decide),
    writes_sub_of_mem (y := main_v25) rfl (by decide),
    writes_sub_of_mem (y := main_v26) rfl (by decide)⟩

/-- The result references of `opsD1`, in order. -/
abbrev opsD1_W : List (Ref sig .tc) :=
  [main_v27]

theorem opsD1_writes : (opsD1 : List (HloOp τ sig (Elt F))).Forall fun op =>
    op.writes ⊆ ((opsD1_W : List (Ref sig .tc)).map (Proc.devRef (τ := τ) .tc)).toFinset :=
  writes_sub_of_mem (y := main_v27) rfl (by decide)

/-- The result references of `opsA1`, in order. -/
abbrev opsA1_W : List (Ref sig .tc) :=
  [main_c_4, main_v28, main_v29, main_c_5, main_v30, main_v31, main_v32, main_v33, main_v34, main_v35, main_v36,
   main_v37, main_cst_6, main_v38, main_v39, main_v40, main_v41, main_v42, main_v43, main_cst_7, main_v44, main_cst_8,
   main_v45, main_v46, main_c_9]

theorem opsA1_writes : (opsA1 : List (HloOp τ sig (Elt F))).Forall fun op =>
    op.writes ⊆ ((opsA1_W : List (Ref sig .tc)).map (Proc.devRef (τ := τ) .tc)).toFinset :=
  ⟨writes_sub_of_mem (y := main_c_4) rfl (by decide),
    writes_sub_of_mem (y := main_v28) rfl (by decide),
    writes_sub_of_mem (y := main_v29) rfl (by decide),
    writes_sub_of_mem (y := main_c_5) rfl (by decide),
    writes_sub_of_mem (y := main_v30) rfl (by decide),
    writes_sub_of_mem (y := main_v31) rfl (by decide),
    writes_sub_of_mem (y := main_v32) rfl (by decide),
    writes_sub_of_mem (y := main_v33) rfl (by decide),
    writes_sub_of_mem (y := main_v34) rfl (by decide),
    writes_sub_of_mem (y := main_v35) rfl (by decide),
    writes_sub_of_mem (y := main_v36) rfl (by decide),
    writes_sub_of_mem (y := main_v37) rfl (by decide),
    writes_sub_of_mem (y := main_cst_6) rfl (by decide),
    writes_sub_of_mem (y := main_v38) rfl (by decide),
    writes_sub_of_mem (y := main_v39) rfl (by decide),
    writes_sub_of_mem (y := main_v40) rfl (by decide),
    writes_sub_of_mem (y := main_v41) rfl (by decide),
    writes_sub_of_mem (y := main_v42) rfl (by decide),
    writes_sub_of_mem (y := main_v43) rfl (by decide),
    writes_sub_of_mem (y := main_cst_7) rfl (by decide),
    writes_sub_of_mem (y := main_v44) rfl (by decide),
    writes_sub_of_mem (y := main_cst_8) rfl (by decide),
    writes_sub_of_mem (y := main_v45) rfl (by decide),
    writes_sub_of_mem (y := main_v46) rfl (by decide),
    writes_sub_of_mem (y := main_c_9) rfl (by decide)⟩

/-- The result references of `opsV1`, in order. -/
abbrev opsV1_W : List (Ref sig .tc) :=
  [main_call0_cst, main_call0_v0, main_call0_v1, main_call0_cst_0, main_call0_v2, main_call0_v3, main_call0_v4,
   main_call0_v5, main_call0_v6, main_call0_v7, main_call0_cst_1, main_call0_v8, main_call0_cst_2, main_call0_v9,
   main_call0_v10, main_call0_v11, main_call0_cst_3, main_call0_v12, main_call0_cst_4, main_call0_call0_v0,
   main_call0_call0_v1, main_v47]

theorem opsV1_writes : (opsV1 : List (HloOp τ sig (Elt F))).Forall fun op =>
    op.writes ⊆ ((opsV1_W : List (Ref sig .tc)).map (Proc.devRef (τ := τ) .tc)).toFinset :=
  ⟨writes_sub_of_mem (y := main_call0_cst) rfl (by decide),
    writes_sub_of_mem (y := main_call0_v0) rfl (by decide),
    writes_sub_of_mem (y := main_call0_v1) rfl (by decide),
    writes_sub_of_mem (y := main_call0_cst_0) rfl (by decide),
    writes_sub_of_mem (y := main_call0_v2) rfl (by decide),
    writes_sub_of_mem (y := main_call0_v3) rfl (by decide),
    writes_sub_of_mem (y := main_call0_v4) rfl (by decide),
    writes_sub_of_mem (y := main_call0_v5) rfl (by decide),
    writes_sub_of_mem (y := main_call0_v6) rfl (by decide),
    writes_sub_of_mem (y := main_call0_v7) rfl (by decide),
    writes_sub_of_mem (y := main_call0_cst_1) rfl (by decide),
    writes_sub_of_mem (y := main_call0_v8) rfl (by decide),
    writes_sub_of_mem (y := main_call0_cst_2) rfl (by decide),
    writes_sub_of_mem (y := main_call0_v9) rfl (by decide),
    writes_sub_of_mem (y := main_call0_v10) rfl (by decide),
    writes_sub_of_mem (y := main_call0_v11) rfl (by decide),
    writes_sub_of_mem (y := main_call0_cst_3) rfl (by decide),
    writes_sub_of_mem (y := main_call0_v12) rfl (by decide),
    writes_sub_of_mem (y := main_call0_cst_4) rfl (by decide),
    writes_sub_of_mem (y := main_call0_call0_v0) rfl (by decide),
    writes_sub_of_mem (y := main_call0_call0_v1) rfl (by decide),
    writes_sub_of_mem (y := main_v47) rfl (by decide)⟩

/-- The result references of `opsB1`, in order. -/
abbrev opsB1_W : List (Ref sig .tc) :=
  [main_v48, main_v49, main_v50, main_cst_10, main_v51, main_v52, main_v53, main_v54, main_v55, main_v56, main_v57,
   main_v58, main_v59, main_v60, main_v61, main_v62, main_call1_cst, main_call1_v0, main_v63]

theorem opsB1_writes : (opsB1 : List (HloOp τ sig (Elt F))).Forall fun op =>
    op.writes ⊆ ((opsB1_W : List (Ref sig .tc)).map (Proc.devRef (τ := τ) .tc)).toFinset :=
  ⟨writes_sub_of_mem (y := main_v48) rfl (by decide),
    writes_sub_of_mem (y := main_v49) rfl (by decide),
    writes_sub_of_mem (y := main_v50) rfl (by decide),
    writes_sub_of_mem (y := main_cst_10) rfl (by decide),
    writes_sub_of_mem (y := main_v51) rfl (by decide),
    writes_sub_of_mem (y := main_v52) rfl (by decide),
    writes_sub_of_mem (y := main_v53) rfl (by decide),
    writes_sub_of_mem (y := main_v54) rfl (by decide),
    writes_sub_of_mem (y := main_v55) rfl (by decide),
    writes_sub_of_mem (y := main_v56) rfl (by decide),
    writes_sub_of_mem (y := main_v57) rfl (by decide),
    writes_sub_of_mem (y := main_v58) rfl (by decide),
    writes_sub_of_mem (y := main_v59) rfl (by decide),
    writes_sub_of_mem (y := main_v60) rfl (by decide),
    writes_sub_of_mem (y := main_v61) rfl (by decide),
    writes_sub_of_mem (y := main_v62) rfl (by decide),
    writes_sub_of_mem (y := main_call1_cst) rfl (by decide),
    writes_sub_of_mem (y := main_call1_v0) rfl (by decide),
    writes_sub_of_mem (y := main_v63) rfl (by decide)⟩

/-- The result references of `opsD2`, in order. -/
abbrev opsD2_W : List (Ref sig .tc) :=
  [main_v64]

theorem opsD2_writes : (opsD2 : List (HloOp τ sig (Elt F))).Forall fun op =>
    op.writes ⊆ ((opsD2_W : List (Ref sig .tc)).map (Proc.devRef (τ := τ) .tc)).toFinset :=
  writes_sub_of_mem (y := main_v64) rfl (by decide)

/-- The result references of `opsA2`, in order. -/
abbrev opsA2_W : List (Ref sig .tc) :=
  [main_c_11, main_v65, main_v66, main_c_12, main_v67, main_v68, main_v69, main_v70, main_v71, main_v72, main_v73,
   main_v74, main_cst_13, main_v75, main_v76, main_v77, main_v78, main_v79, main_v80, main_cst_14, main_v81, main_cst_15,
   main_v82, main_v83, main_c_16]

theorem opsA2_writes : (opsA2 : List (HloOp τ sig (Elt F))).Forall fun op =>
    op.writes ⊆ ((opsA2_W : List (Ref sig .tc)).map (Proc.devRef (τ := τ) .tc)).toFinset :=
  ⟨writes_sub_of_mem (y := main_c_11) rfl (by decide),
    writes_sub_of_mem (y := main_v65) rfl (by decide),
    writes_sub_of_mem (y := main_v66) rfl (by decide),
    writes_sub_of_mem (y := main_c_12) rfl (by decide),
    writes_sub_of_mem (y := main_v67) rfl (by decide),
    writes_sub_of_mem (y := main_v68) rfl (by decide),
    writes_sub_of_mem (y := main_v69) rfl (by decide),
    writes_sub_of_mem (y := main_v70) rfl (by decide),
    writes_sub_of_mem (y := main_v71) rfl (by decide),
    writes_sub_of_mem (y := main_v72) rfl (by decide),
    writes_sub_of_mem (y := main_v73) rfl (by decide),
    writes_sub_of_mem (y := main_v74) rfl (by decide),
    writes_sub_of_mem (y := main_cst_13) rfl (by decide),
    writes_sub_of_mem (y := main_v75) rfl (by decide),
    writes_sub_of_mem (y := main_v76) rfl (by decide),
    writes_sub_of_mem (y := main_v77) rfl (by decide),
    writes_sub_of_mem (y := main_v78) rfl (by decide),
    writes_sub_of_mem (y := main_v79) rfl (by decide),
    writes_sub_of_mem (y := main_v80) rfl (by decide),
    writes_sub_of_mem (y := main_cst_14) rfl (by decide),
    writes_sub_of_mem (y := main_v81) rfl (by decide),
    writes_sub_of_mem (y := main_cst_15) rfl (by decide),
    writes_sub_of_mem (y := main_v82) rfl (by decide),
    writes_sub_of_mem (y := main_v83) rfl (by decide),
    writes_sub_of_mem (y := main_c_16) rfl (by decide)⟩

/-- The result references of `opsV2`, in order. -/
abbrev opsV2_W : List (Ref sig .tc) :=
  [main_call2_cst, main_call2_v0, main_call2_v1, main_call2_cst_0, main_call2_v2, main_call2_v3, main_call2_v4,
   main_call2_v5, main_call2_v6, main_call2_v7, main_call2_cst_1, main_call2_v8, main_call2_cst_2, main_call2_v9,
   main_call2_v10, main_call2_v11, main_call2_cst_3, main_call2_v12, main_call2_cst_4, main_call2_call0_v0,
   main_call2_call0_v1, main_v84]

theorem opsV2_writes : (opsV2 : List (HloOp τ sig (Elt F))).Forall fun op =>
    op.writes ⊆ ((opsV2_W : List (Ref sig .tc)).map (Proc.devRef (τ := τ) .tc)).toFinset :=
  ⟨writes_sub_of_mem (y := main_call2_cst) rfl (by decide),
    writes_sub_of_mem (y := main_call2_v0) rfl (by decide),
    writes_sub_of_mem (y := main_call2_v1) rfl (by decide),
    writes_sub_of_mem (y := main_call2_cst_0) rfl (by decide),
    writes_sub_of_mem (y := main_call2_v2) rfl (by decide),
    writes_sub_of_mem (y := main_call2_v3) rfl (by decide),
    writes_sub_of_mem (y := main_call2_v4) rfl (by decide),
    writes_sub_of_mem (y := main_call2_v5) rfl (by decide),
    writes_sub_of_mem (y := main_call2_v6) rfl (by decide),
    writes_sub_of_mem (y := main_call2_v7) rfl (by decide),
    writes_sub_of_mem (y := main_call2_cst_1) rfl (by decide),
    writes_sub_of_mem (y := main_call2_v8) rfl (by decide),
    writes_sub_of_mem (y := main_call2_cst_2) rfl (by decide),
    writes_sub_of_mem (y := main_call2_v9) rfl (by decide),
    writes_sub_of_mem (y := main_call2_v10) rfl (by decide),
    writes_sub_of_mem (y := main_call2_v11) rfl (by decide),
    writes_sub_of_mem (y := main_call2_cst_3) rfl (by decide),
    writes_sub_of_mem (y := main_call2_v12) rfl (by decide),
    writes_sub_of_mem (y := main_call2_cst_4) rfl (by decide),
    writes_sub_of_mem (y := main_call2_call0_v0) rfl (by decide),
    writes_sub_of_mem (y := main_call2_call0_v1) rfl (by decide),
    writes_sub_of_mem (y := main_v84) rfl (by decide)⟩

/-- The result references of `opsB2a`, in order. -/
abbrev opsB2a_W : List (Ref sig .tc) :=
  [main_v85, main_v86, main_v87, main_cst_17, main_v88, main_v89, main_v90, main_v91, main_v92, main_v93, main_v94,
   main_v95, main_v96, main_v97, main_v98, main_v99]

theorem opsB2a_writes : (opsB2a : List (HloOp τ sig (Elt F))).Forall fun op =>
    op.writes ⊆ ((opsB2a_W : List (Ref sig .tc)).map (Proc.devRef (τ := τ) .tc)).toFinset :=
  ⟨writes_sub_of_mem (y := main_v85) rfl (by decide),
    writes_sub_of_mem (y := main_v86) rfl (by decide),
    writes_sub_of_mem (y := main_v87) rfl (by decide),
    writes_sub_of_mem (y := main_cst_17) rfl (by decide),
    writes_sub_of_mem (y := main_v88) rfl (by decide),
    writes_sub_of_mem (y := main_v89) rfl (by decide),
    writes_sub_of_mem (y := main_v90) rfl (by decide),
    writes_sub_of_mem (y := main_v91) rfl (by decide),
    writes_sub_of_mem (y := main_v92) rfl (by decide),
    writes_sub_of_mem (y := main_v93) rfl (by decide),
    writes_sub_of_mem (y := main_v94) rfl (by decide),
    writes_sub_of_mem (y := main_v95) rfl (by decide),
    writes_sub_of_mem (y := main_v96) rfl (by decide),
    writes_sub_of_mem (y := main_v97) rfl (by decide),
    writes_sub_of_mem (y := main_v98) rfl (by decide),
    writes_sub_of_mem (y := main_v99) rfl (by decide)⟩

/-- The result references of `opsB2b`, in order. -/
abbrev opsB2b_W : List (Ref sig .tc) :=
  [main_call3_cst, main_call3_v0, main_v100]

theorem opsB2b_writes : (opsB2b : List (HloOp τ sig (Elt F))).Forall fun op =>
    op.writes ⊆ ((opsB2b_W : List (Ref sig .tc)).map (Proc.devRef (τ := τ) .tc)).toFinset :=
  ⟨writes_sub_of_mem (y := main_call3_cst) rfl (by decide),
    writes_sub_of_mem (y := main_call3_v0) rfl (by decide),
    writes_sub_of_mem (y := main_v100) rfl (by decide)⟩

/-- The result references of `opsD3`, in order. -/
abbrev opsD3_W : List (Ref sig .tc) :=
  [main_v101]

theorem opsD3_writes : (opsD3 : List (HloOp τ sig (Elt F))).Forall fun op =>
    op.writes ⊆ ((opsD3_W : List (Ref sig .tc)).map (Proc.devRef (τ := τ) .tc)).toFinset :=
  writes_sub_of_mem (y := main_v101) rfl (by decide)

/-- The result references of `opsA3`, in order. -/
abbrev opsA3_W : List (Ref sig .tc) :=
  [main_c_18, main_v102, main_v103, main_c_19, main_v104, main_v105, main_v106, main_v107, main_v108, main_v109,
   main_v110, main_v111, main_cst_20, main_v112, main_v113, main_v114, main_v115, main_v116, main_v117, main_cst_21,
   main_v118, main_cst_22, main_v119, main_v120, main_c_23]

theorem opsA3_writes : (opsA3 : List (HloOp τ sig (Elt F))).Forall fun op =>
    op.writes ⊆ ((opsA3_W : List (Ref sig .tc)).map (Proc.devRef (τ := τ) .tc)).toFinset :=
  ⟨writes_sub_of_mem (y := main_c_18) rfl (by decide),
    writes_sub_of_mem (y := main_v102) rfl (by decide),
    writes_sub_of_mem (y := main_v103) rfl (by decide),
    writes_sub_of_mem (y := main_c_19) rfl (by decide),
    writes_sub_of_mem (y := main_v104) rfl (by decide),
    writes_sub_of_mem (y := main_v105) rfl (by decide),
    writes_sub_of_mem (y := main_v106) rfl (by decide),
    writes_sub_of_mem (y := main_v107) rfl (by decide),
    writes_sub_of_mem (y := main_v108) rfl (by decide),
    writes_sub_of_mem (y := main_v109) rfl (by decide),
    writes_sub_of_mem (y := main_v110) rfl (by decide),
    writes_sub_of_mem (y := main_v111) rfl (by decide),
    writes_sub_of_mem (y := main_cst_20) rfl (by decide),
    writes_sub_of_mem (y := main_v112) rfl (by decide),
    writes_sub_of_mem (y := main_v113) rfl (by decide),
    writes_sub_of_mem (y := main_v114) rfl (by decide),
    writes_sub_of_mem (y := main_v115) rfl (by decide),
    writes_sub_of_mem (y := main_v116) rfl (by decide),
    writes_sub_of_mem (y := main_v117) rfl (by decide),
    writes_sub_of_mem (y := main_cst_21) rfl (by decide),
    writes_sub_of_mem (y := main_v118) rfl (by decide),
    writes_sub_of_mem (y := main_cst_22) rfl (by decide),
    writes_sub_of_mem (y := main_v119) rfl (by decide),
    writes_sub_of_mem (y := main_v120) rfl (by decide),
    writes_sub_of_mem (y := main_c_23) rfl (by decide)⟩

/-- The result references of `opsV3`, in order. -/
abbrev opsV3_W : List (Ref sig .tc) :=
  [main_call4_cst, main_call4_v0, main_call4_v1, main_call4_cst_0, main_call4_v2, main_call4_v3, main_call4_v4,
   main_call4_v5, main_call4_v6, main_call4_v7, main_call4_cst_1, main_call4_v8, main_call4_cst_2, main_call4_v9,
   main_call4_v10, main_call4_v11, main_call4_cst_3, main_call4_v12, main_call4_cst_4, main_call4_call0_v0,
   main_call4_call0_v1, main_v121]

theorem opsV3_writes : (opsV3 : List (HloOp τ sig (Elt F))).Forall fun op =>
    op.writes ⊆ ((opsV3_W : List (Ref sig .tc)).map (Proc.devRef (τ := τ) .tc)).toFinset :=
  ⟨writes_sub_of_mem (y := main_call4_cst) rfl (by decide),
    writes_sub_of_mem (y := main_call4_v0) rfl (by decide),
    writes_sub_of_mem (y := main_call4_v1) rfl (by decide),
    writes_sub_of_mem (y := main_call4_cst_0) rfl (by decide),
    writes_sub_of_mem (y := main_call4_v2) rfl (by decide),
    writes_sub_of_mem (y := main_call4_v3) rfl (by decide),
    writes_sub_of_mem (y := main_call4_v4) rfl (by decide),
    writes_sub_of_mem (y := main_call4_v5) rfl (by decide),
    writes_sub_of_mem (y := main_call4_v6) rfl (by decide),
    writes_sub_of_mem (y := main_call4_v7) rfl (by decide),
    writes_sub_of_mem (y := main_call4_cst_1) rfl (by decide),
    writes_sub_of_mem (y := main_call4_v8) rfl (by decide),
    writes_sub_of_mem (y := main_call4_cst_2) rfl (by decide),
    writes_sub_of_mem (y := main_call4_v9) rfl (by decide),
    writes_sub_of_mem (y := main_call4_v10) rfl (by decide),
    writes_sub_of_mem (y := main_call4_v11) rfl (by decide),
    writes_sub_of_mem (y := main_call4_cst_3) rfl (by decide),
    writes_sub_of_mem (y := main_call4_v12) rfl (by decide),
    writes_sub_of_mem (y := main_call4_cst_4) rfl (by decide),
    writes_sub_of_mem (y := main_call4_call0_v0) rfl (by decide),
    writes_sub_of_mem (y := main_call4_call0_v1) rfl (by decide),
    writes_sub_of_mem (y := main_v121) rfl (by decide)⟩

/-- The result references of `opsB3`, in order. -/
abbrev opsB3_W : List (Ref sig .tc) :=
  [main_v122, main_v123, main_v124, main_cst_24, main_v125, main_v126, main_v127, main_v128, main_v129, main_v130,
   main_v131, main_v132, main_v133, main_v134, main_v135, main_v136, main_call5_cst, main_call5_v0, main_v137]

theorem opsB3_writes : (opsB3 : List (HloOp τ sig (Elt F))).Forall fun op =>
    op.writes ⊆ ((opsB3_W : List (Ref sig .tc)).map (Proc.devRef (τ := τ) .tc)).toFinset :=
  ⟨writes_sub_of_mem (y := main_v122) rfl (by decide),
    writes_sub_of_mem (y := main_v123) rfl (by decide),
    writes_sub_of_mem (y := main_v124) rfl (by decide),
    writes_sub_of_mem (y := main_cst_24) rfl (by decide),
    writes_sub_of_mem (y := main_v125) rfl (by decide),
    writes_sub_of_mem (y := main_v126) rfl (by decide),
    writes_sub_of_mem (y := main_v127) rfl (by decide),
    writes_sub_of_mem (y := main_v128) rfl (by decide),
    writes_sub_of_mem (y := main_v129) rfl (by decide),
    writes_sub_of_mem (y := main_v130) rfl (by decide),
    writes_sub_of_mem (y := main_v131) rfl (by decide),
    writes_sub_of_mem (y := main_v132) rfl (by decide),
    writes_sub_of_mem (y := main_v133) rfl (by decide),
    writes_sub_of_mem (y := main_v134) rfl (by decide),
    writes_sub_of_mem (y := main_v135) rfl (by decide),
    writes_sub_of_mem (y := main_v136) rfl (by decide),
    writes_sub_of_mem (y := main_call5_cst) rfl (by decide),
    writes_sub_of_mem (y := main_call5_v0) rfl (by decide),
    writes_sub_of_mem (y := main_v137) rfl (by decide)⟩

/-- The result references of `opsEa`, in order. -/
abbrev opsEa_W : List (Ref sig .tc) :=
  [main_c_25, main_v138, main_v139, main_c_26, main_v140, main_v141, main_v142, main_v143, main_v144, main_c_27,
   main_v145, main_v146, main_c_28, main_v147, main_v148]

theorem opsEa_writes : (opsEa : List (HloOp τ sig (Elt F))).Forall fun op =>
    op.writes ⊆ ((opsEa_W : List (Ref sig .tc)).map (Proc.devRef (τ := τ) .tc)).toFinset :=
  ⟨writes_sub_of_mem (y := main_c_25) rfl (by decide),
    writes_sub_of_mem (y := main_v138) rfl (by decide),
    writes_sub_of_mem (y := main_v139) rfl (by decide),
    writes_sub_of_mem (y := main_c_26) rfl (by decide),
    writes_sub_of_mem (y := main_v140) rfl (by decide),
    writes_sub_of_mem (y := main_v141) rfl (by decide),
    writes_sub_of_mem (y := main_v142) rfl (by decide),
    writes_sub_of_mem (y := main_v143) rfl (by decide),
    writes_sub_of_mem (y := main_v144) rfl (by decide),
    writes_sub_of_mem (y := main_c_27) rfl (by decide),
    writes_sub_of_mem (y := main_v145) rfl (by decide),
    writes_sub_of_mem (y := main_v146) rfl (by decide),
    writes_sub_of_mem (y := main_c_28) rfl (by decide),
    writes_sub_of_mem (y := main_v147) rfl (by decide),
    writes_sub_of_mem (y := main_v148) rfl (by decide)⟩

/-- The result references of `opsEb`, in order. -/
abbrev opsEb_W : List (Ref sig .tc) :=
  [main_v149, main_v150, main_v151, main_v152]

theorem opsEb_writes : (opsEb : List (HloOp τ sig (Elt F))).Forall fun op =>
    op.writes ⊆ ((opsEb_W : List (Ref sig .tc)).map (Proc.devRef (τ := τ) .tc)).toFinset :=
  ⟨writes_sub_of_mem (y := main_v149) rfl (by decide),
    writes_sub_of_mem (y := main_v150) rfl (by decide),
    writes_sub_of_mem (y := main_v151) rfl (by decide),
    writes_sub_of_mem (y := main_v152) rfl (by decide)⟩

/-- The result references of `opsM`, in order. -/
abbrev opsM_W : List (Ref sig .tc) :=
  [main_v153, main_v154, main_v155, main_v156, main_call6_cst, main_call6_v0, main_v157, main_v158, main_v159, main_v160,
   main_v161, main_call7_cst, main_call7_v0, main_v162, main_v163, main_v164, main_v165, main_v166, main_call8_cst,
   main_call8_v0, main_v167, main_v168, main_v169, main_v170, main_v171]

theorem opsM_writes : (opsM : List (HloOp τ sig (Elt F))).Forall fun op =>
    op.writes ⊆ ((opsM_W : List (Ref sig .tc)).map (Proc.devRef (τ := τ) .tc)).toFinset :=
  ⟨writes_sub_of_mem (y := main_v153) rfl (by decide),
    writes_sub_of_mem (y := main_v154) rfl (by decide),
    writes_sub_of_mem (y := main_v155) rfl (by decide),
    writes_sub_of_mem (y := main_v156) rfl (by decide),
    writes_sub_of_mem (y := main_call6_cst) rfl (by decide),
    writes_sub_of_mem (y := main_call6_v0) rfl (by decide),
    writes_sub_of_mem (y := main_v157) rfl (by decide),
    writes_sub_of_mem (y := main_v158) rfl (by decide),
    writes_sub_of_mem (y := main_v159) rfl (by decide),
    writes_sub_of_mem (y := main_v160) rfl (by decide),
    writes_sub_of_mem (y := main_v161) rfl (by decide),
    writes_sub_of_mem (y := main_call7_cst) rfl (by decide),
    writes_sub_of_mem (y := main_call7_v0) rfl (by decide),
    writes_sub_of_mem (y := main_v162) rfl (by decide),
    writes_sub_of_mem (y := main_v163) rfl (by decide),
    writes_sub_of_mem (y := main_v164) rfl (by decide),
    writes_sub_of_mem (y := main_v165) rfl (by decide),
    writes_sub_of_mem (y := main_v166) rfl (by decide),
    writes_sub_of_mem (y := main_call8_cst) rfl (by decide),
    writes_sub_of_mem (y := main_call8_v0) rfl (by decide),
    writes_sub_of_mem (y := main_v167) rfl (by decide),
    writes_sub_of_mem (y := main_v168) rfl (by decide),
    writes_sub_of_mem (y := main_v169) rfl (by decide),
    writes_sub_of_mem (y := main_v170) rfl (by decide),
    writes_sub_of_mem (y := main_v171) rfl (by decide)⟩

end Cert.ReferenceIdeal.Hand

end
-- ==== Proof.Spec.lean ====
/-
  Two pieces of the reference's arithmetic named as functions of their inputs, over the reference's own shapes and
  dimension records: the batch normalisation of a node-feature matrix by given column statistics followed by the
  rectifier, `max (((x - mean) * rsqrt (var + eps)) * g + beta, 0)` with each per-column vector spread over the rows;
  and the four dense layers of the edge classifier, `relu (z * W + b)` three times and a last affine layer.
-/
import proofs.«123362_j807453851682_1_alg».proof.Proof.Gen.ReferenceIdeal

noncomputable section

namespace Cert.ReferenceIdeal.Spec

open Cert.ReferenceIdeal Cert.ReferenceIdeal.Facts₀ Cert.ReferenceIdeal.Facts Idealize.ShloMosaic

variable {F : FTy → Type} [FloatOps F]

/-- Normalise the columns of `x` by the given mean and variance, scale by `g`, shift by `beta`, rectify. -/
def bnHost (x : FVec F S50000x128 .f32) (mean var g beta : FVec F S128 .f32) : FVec F S50000x128 .f32 :=
  (maximumf ((addf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) x ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) mean))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) var ((broadcastInDim S128 ![] bcast_S_S128 : (⟨S_, .f32⟩ : BufTy).Contents (Elt F) → (⟨S128, .f32⟩ : BufTy).Contents (Elt F)) (constant S_ .f32 0x3727C5AC#32 : FVec F S_ .f32))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) g))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) beta))) ((broadcastInDim S50000x128 ![] bcast_S_S50000x128) (constant S_ .f32 0x00000000#32 : FVec F S_ .f32)))

/-- The edge classifier: three rectified dense layers and a final affine one, on the rows of `ef`. -/
def mlpHost (ef : FVec F S800000x256 .f32) (cw1 : FVec F S256x256 .f32) (cb1 : FVec F S256 .f32)
    (cw2 : FVec F S256x128 .f32) (cb2 : FVec F S128 .f32) (cw3 : FVec F S128x64 .f32) (cb3 : FVec F S64 .f32)
    (cw4 : FVec F S64x2 .f32) (cb4 : FVec F S2 .f32) : FVec F S800000x2 .f32 :=
  ((addf : (⟨S800000x2, .f32⟩ : BufTy).Contents (Elt F) → (⟨S800000x2, .f32⟩ : BufTy).Contents (Elt F) → (⟨S800000x2, .f32⟩ : BufTy).Contents (Elt F)) (((fun l r => Host.dotGeneral dot_S800000x64_S64x2_S800000x2_1_0_0_1_n_n none l r) : (⟨S800000x64, .f32⟩ : BufTy).Contents (Elt F) → (⟨S64x2, .f32⟩ : BufTy).Contents (Elt F) → (⟨S800000x2, .f32⟩ : BufTy).Contents (Elt F)) (maximumf ((addf : (⟨S800000x64, .f32⟩ : BufTy).Contents (Elt F) → (⟨S800000x64, .f32⟩ : BufTy).Contents (Elt F) → (⟨S800000x64, .f32⟩ : BufTy).Contents (Elt F)) (((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)) (maximumf ((addf : (⟨S800000x128, .f32⟩ : BufTy).Contents (Elt F) → (⟨S800000x128, .f32⟩ : BufTy).Contents (Elt F) → (⟨S800000x128, .f32⟩ : BufTy).Contents (Elt F)) (((fun l r => Host.dotGeneral dot_S800000x256_S256x128_S800000x128_1_0_0_1_n_n none l r) : (⟨S800000x256, .f32⟩ : BufTy).Contents (Elt F) → (⟨S256x128, .f32⟩ : BufTy).Contents (Elt F) → (⟨S800000x128, .f32⟩ : BufTy).Contents (Elt F)) (maximumf ((addf : (⟨S800000x256, .f32⟩ : BufTy).Contents (Elt F) → (⟨S800000x256, .f32⟩ : BufTy).Contents (Elt F) → (⟨S800000x256, .f32⟩ : BufTy).Contents (Elt F)) (((fun l r => Host.dotGeneral dot_S800000x256_S256x256_S800000x256_1_0_0_1_n_n none l r) : (⟨S800000x256, .f32⟩ : BufTy).Contents (Elt F) → (⟨S256x256, .f32⟩ : BufTy).Contents (Elt F) → (⟨S800000x256, .f32⟩ : BufTy).Contents (Elt F)) ef cw1) ((broadcastInDim S800000x256 ![0, 1] bcast_S1x256_S800000x256_0_1 : (⟨S1x256, .f32⟩ : BufTy).Contents (Elt F) → (⟨S800000x256, .f32⟩ : BufTy).Contents (Elt F)) ((broadcastInDim S1x256 ![1] bcast_S256_S1x256_1 : (⟨S256, .f32⟩ : BufTy).Contents (Elt F) → (⟨S1x256, .f32⟩ : BufTy).Contents (Elt F)) cb1))) ((broadcastInDim S800000x256 ![] bcast_S_S800000x256) (constant S_ .f32 0x00000000#32 : FVec F S_ .f32))) cw2) ((broadcastInDim S800000x128 ![0, 1] bcast_S1x128_S800000x128_0_1 : (⟨S1x128, .f32⟩ : BufTy).Contents (Elt F) → (⟨S800000x128, .f32⟩ : BufTy).Contents (Elt F)) ((broadcastInDim S1x128 ![1] bcast_S128_S1x128_1 : (⟨S128, .f32⟩ : BufTy).Contents (Elt F) → (⟨S1x128, .f32⟩ : BufTy).Contents (Elt F)) cb2))) ((broadcastInDim S800000x128 ![] bcast_S_S800000x128) (constant S_ .f32 0x00000000#32 : FVec F S_ .f32))) cw3) ((broadcastInDim S800000x64 ![0, 1] bcast_S1x64_S800000x64_0_1 : (⟨S1x64, .f32⟩ : BufTy).Contents (Elt F) → (⟨S800000x64, .f32⟩ : BufTy).Contents (Elt F)) ((broadcastInDim S1x64 ![1] bcast_S64_S1x64_1 : (⟨S64, .f32⟩ : BufTy).Contents (Elt F) → (⟨S1x64, .f32⟩ : BufTy).Contents (Elt F)) cb3))) ((broadcastInDim S800000x64 ![] bcast_S_S800000x64) (constant S_ .f32 0x00000000#32 : FVec F S_ .f32))) cw4) ((broadcastInDim S800000x2 ![0, 1] bcast_S1x2_S800000x2_0_1 : (⟨S1x2, .f32⟩ : BufTy).Contents (Elt F) → (⟨S800000x2, .f32⟩ : BufTy).Contents (Elt F)) ((broadcastInDim S1x2 ![1] bcast_S2_S1x2_1 : (⟨S2, .f32⟩ : BufTy).Contents (Elt F) → (⟨S1x2, .f32⟩ : BufTy).Contents (Elt F)) cb4)))

end Cert.ReferenceIdeal.Spec

end
-- ==== Proof.BridgeTactic.lean ====
/-
  Shared by the modules that compare the two programs' host stretches: a stretch of host operations is a function
  from buffer contents to buffer contents (the fold `after`), and two stretches that apply the same operations to
  equal inputs leave equal outputs. Here: a two-piece concatenation with its pieces as plain arguments, the one-pass
  evaluation of a fold over a literal list, the fold of an appended list, and the lists of the buffers that no later
  stretch writes (the arguments; the edge list's senders, receivers, their self-loop extensions and the edge weights).
-/
import proofs.«123362_j807453851682_1_alg».proof.Proof.Gen.KernelIdeal.Launch
import proofs.«123362_j807453851682_1_alg».proof.Proof.RefOps
import proofs.«123362_j807453851682_1_alg».proof.Proof.Spec
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo
open Cert

/-- Two arrays laid end to end along an axis, with the pieces as plain arguments. -/
def cat2 {α : Type} (t : Shape) (a : Fin t.rank) (s1 s2 : Shape) (x : s1.Idx → α) (y : s2.Idx → α)
    (h : Shape.Concatenates [s1, s2] t a) : t.Idx → α := concatenate t a [⟨s1, x⟩, ⟨s2, y⟩] h

theorem cat2_eq {α : Type} (t : Shape) (a : Fin t.rank) (s1 s2 : Shape) (x : s1.Idx → α) (y : s2.Idx → α) (h) :
    concatenate t a [⟨s1, x⟩, ⟨s2, y⟩] h = cat2 t a s1 s2 x y h := rfl

/-- Evaluates the folds of a goal `after ops V b = after ops' V' b'` over literal lists in one simp pass (the library's
    result lemmas, a two-piece concatenation restated so that its pieces can be entered). -/
macro "eval_after" : tactic =>
  `(tactic| (simp (disch := decide) only [after_cons, after_nil,
      nullary_result', unary_result', binary_result', ternary_result', quaternary_result', reshape_result',
      nullary_result_ne', unary_result_ne', binary_result_ne', ternary_result_ne', quaternary_result_ne', reshape_result_ne',
      cat2_eq, List.cons_append, List.nil_append]))

/-- The fold of an appended list is the second list's fold after the first's. -/
theorem after_app {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The kernel program's argument buffers. -/
abbrev kArgs : List (Ref KernelIdeal.sig .tc) := [KernelIdeal.main_arg0, KernelIdeal.main_arg1, KernelIdeal.main_arg2, KernelIdeal.main_arg3, KernelIdeal.main_arg4, KernelIdeal.main_arg5, KernelIdeal.main_arg6, KernelIdeal.main_arg7, KernelIdeal.main_arg8, KernelIdeal.main_arg9, KernelIdeal.main_arg10, KernelIdeal.main_arg11, KernelIdeal.main_arg12, KernelIdeal.main_arg13, KernelIdeal.main_arg14, KernelIdeal.main_arg15, KernelIdeal.main_arg16, KernelIdeal.main_arg17, KernelIdeal.main_arg18, KernelIdeal.main_arg19, KernelIdeal.main_arg20, KernelIdeal.main_arg21]
/-- The arguments and the five edge-list values computed once, before the first layer. -/
abbrev kLive : List (Ref KernelIdeal.sig .tc) := kArgs ++ [KernelIdeal.main_v1, KernelIdeal.main_v3, KernelIdeal.main_v5, KernelIdeal.main_v6, KernelIdeal.main_v26]
/-- The reference program's argument buffers. -/
abbrev rArgs : List (Ref ReferenceIdeal.sig .tc) := [ReferenceIdeal.main_arg0, ReferenceIdeal.main_arg1, ReferenceIdeal.main_arg2, ReferenceIdeal.main_arg3, ReferenceIdeal.main_arg4, ReferenceIdeal.main_arg5, ReferenceIdeal.main_arg6, ReferenceIdeal.main_arg7, ReferenceIdeal.main_arg8, ReferenceIdeal.main_arg9, ReferenceIdeal.main_arg10, ReferenceIdeal.main_arg11, ReferenceIdeal.main_arg12, ReferenceIdeal.main_arg13, ReferenceIdeal.main_arg14, ReferenceIdeal.main_arg15, ReferenceIdeal.main_arg16, ReferenceIdeal.main_arg17, ReferenceIdeal.main_arg18, ReferenceIdeal.main_arg19, ReferenceIdeal.main_arg20, ReferenceIdeal.main_arg21]
/-- The arguments and the five edge-list values computed once, before the first layer. -/
abbrev rLive : List (Ref ReferenceIdeal.sig .tc) := rArgs ++ [ReferenceIdeal.main_v1, ReferenceIdeal.main_v3, ReferenceIdeal.main_v5, ReferenceIdeal.main_v6, ReferenceIdeal.main_v26]

end Cert.Bridge

end
-- ==== Proof.KeepsK.lean ====
/-
  No host stretch of the kernel program writes an argument, and none after the first writes the edge-list values
  computed by the first: each such buffer reads the same after the stretch as before it.
-/
import proofs.«123362_j807453851682_1_alg».proof.Proof.BridgeTactic

noncomputable section

namespace Cert.Bridge

open Idealize.ShloMosaic Idealize.ShloMosaic.TcCoe Idealize.SL.Sem Idealize.ShloMosaic.StableHlo
open Cert

theorem keepK_hostOps0 (V : Valuation KernelIdeal.τ KernelIdeal.sig (Elt Ideal)) (r : Ref KernelIdeal.sig .tc) (hr : r ∈ kArgs) :
    after (KernelIdeal.Gen.hostOps0 (F := Ideal)) V (Proc.devRef .tc r) = V (Proc.devRef .tc r) := by
  refine after_of_forall_not_mem _ _ (List.forall_iff_forall_mem.mp ?_)
  simp only [KernelIdeal.Gen.hostOps0, List.Forall, nullary_writes, unary_writes, binary_writes, ternary_writes, quaternary_writes, reshape_writes, Finset.mem_singleton]
  repeat' apply And.intro
  all_goals exact devRef_ne_of_ne (fun e => by subst e; revert hr; decide)

theorem keepK_hostOps1 (V : Valuation KernelIdeal.τ KernelIdeal.sig (Elt Ideal)) (r : Ref KernelIdeal.sig .tc) (hr : r ∈ kLive) :
    after (KernelIdeal.Gen.hostOps1 (F := Ideal)) V (Proc.devRef .tc r) = V (Proc.devRef .tc r) := by
  refine after_of_forall_not_mem _ _ (List.forall_iff_forall_mem.mp ?_)
  simp only [KernelIdeal.Gen.hostOps1, List.Forall, nullary_writes, unary_writes, binary_writes, ternary_writes, quaternary_writes, reshape_writes, Finset.mem_singleton]
  repeat' apply And.intro
  all_goals exact devRef_ne_of_ne (fun e => by subst e; revert hr; decide)

theorem keepK_hostOps1_1 (V : Valuation KernelIdeal.τ KernelIdeal.sig (Elt Ideal)) (r : Ref KernelIdeal.sig .tc) (hr : r ∈ kLive) :
    after (KernelIdeal.Gen.hostOps1_1 (F := Ideal)) V (Proc.devRef .tc r) = V (Proc.devRef .tc r) := by
  refine after_of_forall_not_mem _ _ (List.forall_iff_forall_mem.mp ?_)
  simp only [KernelIdeal.Gen.hostOps1_1, List.Forall, nullary_writes, unary_writes, binary_writes, ternary_writes, quaternary_writes, reshape_writes, Finset.mem_singleton]
  repeat' apply And.intro
  all_goals exact devRef_ne_of_ne (fun e => by subst e; revert hr; decide)

theorem keepK_hostOps1_2 (V : Valuation KernelIdeal.τ KernelIdeal.sig (Elt Ideal)) (r : Ref KernelIdeal.sig .tc) (hr : r ∈ kLive) :
    after (KernelIdeal.Gen.hostOps1_2 (F := Ideal)) V (Proc.devRef .tc r) = V (Proc.devRef .tc r) := by
  refine after_of_forall_not_mem _ _ (List.forall_iff_forall_mem.mp ?_)
  simp only [KernelIdeal.Gen.hostOps1_2, List.Forall, nullary_writes, unary_writes, binary_writes, ternary_writes, quaternary_writes, reshape_writes, Finset.mem_singleton]
  repeat' apply And.intro
  all_goals exact devRef_ne_of_ne (fun e => by subst e; revert hr; decide)

theorem keepK_hostOps3 (V : Valuation KernelIdeal.τ KernelIdeal.sig (Elt Ideal)) (r : Ref KernelIdeal.sig .tc) (hr : r ∈ kLive) :
    after (KernelIdeal.Gen.hostOps3 (F := Ideal)) V (Proc.devRef .tc r) = V (Proc.devRef .tc r) := by
  refine after_of_forall_not_mem _ _ (List.forall_iff_forall_mem.mp ?_)
  simp only [KernelIdeal.Gen.hostOps3, List.Forall, nullary_writes, unary_writes, binary_writes, ternary_writes, quaternary_writes, reshape_writes, Finset.mem_singleton]
  repeat' apply And.intro
  all_goals exact devRef_ne_of_ne (fun e => by subst e; revert hr; decide)

theorem keepK_hostOps3_1 (V : Valuation KernelIdeal.τ KernelIdeal.sig (Elt Ideal)) (r : Ref KernelIdeal.sig .tc) (hr : r ∈ kLive) :
    after (KernelIdeal.Gen.hostOps3_1 (F := Ideal)) V (Proc.devRef .tc r) = V (Proc.devRef .tc r) := by
  refine after_of_forall_not_mem _ _ (List.forall_iff_forall_mem.mp ?_)
  simp only [KernelIdeal.Gen.hostOps3_1, List.Forall, nullary_writes, unary_writes, binary_writes, ternary_writes, quaternary_writes, reshape_writes, Finset.mem_singleton]
  repeat' apply And.intro
  all_goals exact devRef_ne_of_ne (fun e => by subst e; revert hr; decide)

theorem keepK_hostOps3_2 (V : Valuation KernelIdeal.τ KernelIdeal.sig (Elt Ideal)) (r : Ref KernelIdeal.sig .tc) (hr : r ∈ kLive) :
    after (KernelIdeal.Gen.hostOps3_2 (F := Ideal)) V (Proc.devRef .tc r) = V (Proc.devRef .tc r) := by
  refine after_of_forall_not_mem _ _ (List.forall_iff_forall_mem.mp ?_)
  simp only [KernelIdeal.Gen.hostOps3_2, List.Forall, nullary_writes, unary_writes, binary_writes, ternary_writes, quaternary_writes, reshape_writes, Finset.mem_singleton]
  repeat' apply And.intro
  all_goals exact devRef_ne_of_ne (fun e => by subst e; revert hr; decide)

theorem keepK_hostOps5 (V : Valuation KernelIdeal.τ KernelIdeal.sig (Elt Ideal)) (r : Ref KernelIdeal.sig .tc) (hr : r ∈ kLive) :
    after (KernelIdeal.Gen.hostOps5 (F := Ideal)) V (Proc.devRef .tc r) = V (Proc.devRef .tc r) := by
  refine after_of_forall_not_mem _ _ (List.forall_iff_forall_mem.mp ?_)
  simp only [KernelIdeal.Gen.hostOps5, List.Forall, nullary_writes, unary_writes, binary_writes, ternary_writes, quaternary_writes, reshape_writes, Finset.mem_singleton]
  repeat' apply And.intro
  all_goals exact devRef_ne_of_ne (fun e => by subst e; revert hr; decide)

theorem keepK_hostOps5_1 (V : Valuation KernelIdeal.τ KernelIdeal.sig (Elt Ideal)) (r : Ref KernelIdeal.sig .tc) (hr : r ∈ kLive) :
    after (KernelIdeal.Gen.hostOps5_1 (F := Ideal)) V (Proc.devRef .tc r) = V (Proc.devRef .tc r) := by
  refine after_of_forall_not_mem _ _ (List.forall_iff_forall_mem.mp ?_)
  simp only [KernelIdeal.Gen.hostOps5_1, List.Forall, nullary_writes, unary_writes, binary_writes, ternary_writes, quaternary_writes, reshape_writes, Finset.mem_singleton]
  repeat' apply And.intro
  all_goals exact devRef_ne_of_ne (fun e => by subst e; revert hr; decide)

theorem keepK_hostOps5_2 (V : Valuation KernelIdeal.τ KernelIdeal.sig (Elt Ideal)) (r : Ref KernelIdeal.sig .tc) (hr : r ∈ kLive) :
    after (KernelIdeal.Gen.hostOps5_2 (F := Ideal)) V (Proc.devRef .tc r) = V (Proc.devRef .tc r) := by
  refine after_of_forall_not_mem _ _ (List.forall_iff_forall_mem.mp ?_)
  simp only [KernelIdeal.Gen.hostOps5_2, List.Forall, nullary_writes, unary_writes, binary_writes, ternary_writes, quaternary_writes, reshape_writes, Finset.mem_singleton]
  repeat' apply And.intro
  all_goals exact devRef_ne_of_ne (fun e => by subst e; revert hr; decide)

theorem keepK_hostOps6 (V : Valuation KernelIdeal.τ KernelIdeal.sig (Elt Ideal)) (r : Ref KernelIdeal.sig .tc) (hr : r ∈ kLive) :
    after (KernelIdeal.Gen.hostOps6 (F := Ideal)) V (Proc.devRef .tc r) = V (Proc.devRef .tc r) := by
  refine after_of_forall_not_mem _ _ (List.forall_iff_forall_mem.mp ?_)
  simp only [KernelIdeal.Gen.hostOps6, List.Forall, nullary_writes, unary_writes, binary_writes, ternary_writes, quaternary_writes, reshape_writes, Finset.mem_singleton]
  repeat' apply And.intro
  all_goals exact devRef_ne_of_ne (fun e => by subst e; revert hr; decide)

end Cert.Bridge

end
-- ==== Proof.KeepsR.lean ====
/-
  No stretch of the reference writes an argument, and none after the first writes the edge-list values computed by
  the first: each such buffer reads the same after the stretch as before it.
-/
import proofs.«123362_j807453851682_1_alg».proof.Proof.BridgeTactic

noncomputable section

namespace Cert.Bridge

open Idealize.ShloMosaic Idealize.ShloMosaic.TcCoe Idealize.SL.Sem Idealize.ShloMosaic.StableHlo
open Cert

theorem keepR_opsP (V : Valuation ReferenceIdeal.τ ReferenceIdeal.sig (Elt Ideal)) (r : Ref ReferenceIdeal.sig .tc) (hr : r ∈ rArgs) :
    after (ReferenceIdeal.Hand.opsP (F := Ideal)) V (Proc.devRef .tc r) = V (Proc.devRef .tc r) := by
  refine after_of_forall_not_mem _ _ (List.forall_iff_forall_mem.mp ?_)
  simp only [ReferenceIdeal.Hand.opsP, List.Forall, nullary_writes, unary_writes, binary_writes, ternary_writes, quaternary_writes, reshape_writes, Finset.mem_singleton]
  repeat' apply And.intro
  all_goals exact devRef_ne_of_ne (fun e => by subst e; revert hr; decide)

theorem keepR_opsD1 (V : Valuation ReferenceIdeal.τ ReferenceIdeal.sig (Elt Ideal)) (r : Ref ReferenceIdeal.sig .tc) (hr : r ∈ rLive) :
    after (ReferenceIdeal.Hand.opsD1 (F := Ideal)) V (Proc.devRef .tc r) = V (Proc.devRef .tc r) := by
  refine after_of_forall_not_mem _ _ (List.forall_iff_forall_mem.mp ?_)
  simp only [ReferenceIdeal.Hand.opsD1, List.Forall, nullary_writes, unary_writes, binary_writes, ternary_writes, quaternary_writes, reshape_writes, Finset.mem_singleton]
  repeat' apply And.intro
  all_goals exact devRef_ne_of_ne (fun e => by subst e; revert hr; decide)

theorem keepR_opsA1 (V : Valuation ReferenceIdeal.τ ReferenceIdeal.sig (Elt Ideal)) (r : Ref ReferenceIdeal.sig .tc) (hr : r ∈ rLive) :
    after (ReferenceIdeal.Hand.opsA1 (F := Ideal)) V (Proc.devRef .tc r) = V (Proc.devRef .tc r) := by
  refine after_of_forall_not_mem _ _ (List.forall_iff_forall_mem.mp ?_)
  simp only [ReferenceIdeal.Hand.opsA1, List.Forall, nullary_writes, unary_writes, binary_writes, ternary_writes, quaternary_writes, reshape_writes, Finset.mem_singleton]
  repeat' apply And.intro
  all_goals exact devRef_ne_of_ne (fun e => by subst e; revert hr; decide)

theorem keepR_opsV1 (V : Valuation ReferenceIdeal.τ ReferenceIdeal.sig (Elt Ideal)) (r : Ref ReferenceIdeal.sig .tc) (hr : r ∈ rLive) :
    after (ReferenceIdeal.Hand.opsV1 (F := Ideal)) V (Proc.devRef .tc r) = V (Proc.devRef .tc r) := by
  refine after_of_forall_not_mem _ _ (List.forall_iff_forall_mem.mp ?_)
  simp only [ReferenceIdeal.Hand.opsV1, List.Forall, nullary_writes, unary_writes, binary_writes, ternary_writes, quaternary_writes, reshape_writes, Finset.mem_singleton]
  repeat' apply And.intro
  all_goals exact devRef_ne_of_ne (fun e => by subst e; revert hr; decide)

theorem keepR_opsB1 (V : Valuation ReferenceIdeal.τ ReferenceIdeal.sig (Elt Ideal)) (r : Ref ReferenceIdeal.sig .tc) (hr : r ∈ rLive) :
    after (ReferenceIdeal.Hand.opsB1 (F := Ideal)) V (Proc.devRef .tc r) = V (Proc.devRef .tc r) := by
  refine after_of_forall_not_mem _ _ (List.forall_iff_forall_mem.mp ?_)
  simp only [ReferenceIdeal.Hand.opsB1, List.Forall, nullary_writes, unary_writes, binary_writes, ternary_writes, quaternary_writes, reshape_writes, Finset.mem_singleton]
  repeat' apply And.intro
  all_goals exact devRef_ne_of_ne (fun e => by subst e; revert hr; decide)

theorem keepR_opsD2 (V : Valuation ReferenceIdeal.τ ReferenceIdeal.sig (Elt Ideal)) (r : Ref ReferenceIdeal.sig .tc) (hr : r ∈ rLive) :
    after (ReferenceIdeal.Hand.opsD2 (F := Ideal)) V (Proc.devRef .tc r) = V (Proc.devRef .tc r) := by
  refine after_of_forall_not_mem _ _ (List.forall_iff_forall_mem.mp ?_)
  simp only [ReferenceIdeal.Hand.opsD2, List.Forall, nullary_writes, unary_writes, binary_writes, ternary_writes, quaternary_writes, reshape_writes, Finset.mem_singleton]
  repeat' apply And.intro
  all_goals exact devRef_ne_of_ne (fun e => by subst e; revert hr; decide)

theorem keepR_opsA2 (V : Valuation ReferenceIdeal.τ ReferenceIdeal.sig (Elt Ideal)) (r : Ref ReferenceIdeal.sig .tc) (hr : r ∈ rLive) :
    after (ReferenceIdeal.Hand.opsA2 (F := Ideal)) V (Proc.devRef .tc r) = V (Proc.devRef .tc r) := by
  refine after_of_forall_not_mem _ _ (List.forall_iff_forall_mem.mp ?_)
  simp only [ReferenceIdeal.Hand.opsA2, List.Forall, nullary_writes, unary_writes, binary_writes, ternary_writes, quaternary_writes, reshape_writes, Finset.mem_singleton]
  repeat' apply And.intro
  all_goals exact devRef_ne_of_ne (fun e => by subst e; revert hr; decide)

theorem keepR_opsV2 (V : Valuation ReferenceIdeal.τ ReferenceIdeal.sig (Elt Ideal)) (r : Ref ReferenceIdeal.sig .tc) (hr : r ∈ rLive) :
    after (ReferenceIdeal.Hand.opsV2 (F := Ideal)) V (Proc.devRef .tc r) = V (Proc.devRef .tc r) := by
  refine after_of_forall_not_mem _ _ (List.forall_iff_forall_mem.mp ?_)
  simp only [ReferenceIdeal.Hand.opsV2, List.Forall, nullary_writes, unary_writes, binary_writes, ternary_writes, quaternary_writes, reshape_writes, Finset.mem_singleton]
  repeat' apply And.intro
  all_goals exact devRef_ne_of_ne (fun e => by subst e; revert hr; decide)

theorem keepR_opsB2a (V : Valuation ReferenceIdeal.τ ReferenceIdeal.sig (Elt Ideal)) (r : Ref ReferenceIdeal.sig .tc) (hr : r ∈ rLive) :
    after (ReferenceIdeal.Hand.opsB2a (F := Ideal)) V (Proc.devRef .tc r) = V (Proc.devRef .tc r) := by
  refine after_of_forall_not_mem _ _ (List.forall_iff_forall_mem.mp ?_)
  simp only [ReferenceIdeal.Hand.opsB2a, List.Forall, nullary_writes, unary_writes, binary_writes, ternary_writes, quaternary_writes, reshape_writes, Finset.mem_singleton]
  repeat' apply And.intro
  all_goals exact devRef_ne_of_ne (fun e => by subst e; revert hr; decide)

theorem keepR_opsB2b (V : Valuation ReferenceIdeal.τ ReferenceIdeal.sig (Elt Ideal)) (r : Ref ReferenceIdeal.sig .tc) (hr : r ∈ rLive) :
    after (ReferenceIdeal.Hand.opsB2b (F := Ideal)) V (Proc.devRef .tc r) = V (Proc.devRef .tc r) := by
  refine after_of_forall_not_mem _ _ (List.forall_iff_forall_mem.mp ?_)
  simp only [ReferenceIdeal.Hand.opsB2b, List.Forall, nullary_writes, unary_writes, binary_writes, ternary_writes, quaternary_writes, reshape_writes, Finset.mem_singleton]
  repeat' apply And.intro
  all_goals exact devRef_ne_of_ne (fun e => by subst e; revert hr; decide)

theorem keepR_opsD3 (V : Valuation ReferenceIdeal.τ ReferenceIdeal.sig (Elt Ideal)) (r : Ref ReferenceIdeal.sig .tc) (hr : r ∈ rLive) :
    after (ReferenceIdeal.Hand.opsD3 (F := Ideal)) V (Proc.devRef .tc r) = V (Proc.devRef .tc r) := by
  refine after_of_forall_not_mem _ _ (List.forall_iff_forall_mem.mp ?_)
  simp only [ReferenceIdeal.Hand.opsD3, List.Forall, nullary_writes, unary_writes, binary_writes, ternary_writes, quaternary_writes, reshape_writes, Finset.mem_singleton]
  repeat' apply And.intro
  all_goals exact devRef_ne_of_ne (fun e => by subst e; revert hr; decide)

theorem keepR_opsA3 (V : Valuation ReferenceIdeal.τ ReferenceIdeal.sig (Elt Ideal)) (r : Ref ReferenceIdeal.sig .tc) (hr : r ∈ rLive) :
    after (ReferenceIdeal.Hand.opsA3 (F := Ideal)) V (Proc.devRef .tc r) = V (Proc.devRef .tc r) := by
  refine after_of_forall_not_mem _ _ (List.forall_iff_forall_mem.mp ?_)
  simp only [ReferenceIdeal.Hand.opsA3, List.Forall, nullary_writes, unary_writes, binary_writes, ternary_writes, quaternary_writes, reshape_writes, Finset.mem_singleton]
  repeat' apply And.intro
  all_goals exact devRef_ne_of_ne (fun e => by subst e; revert hr; decide)

theorem keepR_opsV3 (V : Valuation ReferenceIdeal.τ ReferenceIdeal.sig (Elt Ideal)) (r : Ref ReferenceIdeal.sig .tc) (hr : r ∈ rLive) :
    after (ReferenceIdeal.Hand.opsV3 (F := Ideal)) V (Proc.devRef .tc r) = V (Proc.devRef .tc r) := by
  refine after_of_forall_not_mem _ _ (List.forall_iff_forall_mem.mp ?_)
  simp only [ReferenceIdeal.Hand.opsV3, List.Forall, nullary_writes, unary_writes, binary_writes, ternary_writes, quaternary_writes, reshape_writes, Finset.mem_singleton]
  repeat' apply And.intro
  all_goals exact devRef_ne_of_ne (fun e => by subst e; revert hr; decide)

theorem keepR_opsB3 (V : Valuation ReferenceIdeal.τ ReferenceIdeal.sig (Elt Ideal)) (r : Ref ReferenceIdeal.sig .tc) (hr : r ∈ rLive) :
    after (ReferenceIdeal.Hand.opsB3 (F := Ideal)) V (Proc.devRef .tc r) = V (Proc.devRef .tc r) := by
  refine after_of_forall_not_mem _ _ (List.forall_iff_forall_mem.mp ?_)
  simp only [ReferenceIdeal.Hand.opsB3, List.Forall, nullary_writes, unary_writes, binary_writes, ternary_writes, quaternary_writes, reshape_writes, Finset.mem_singleton]
  repeat' apply And.intro
  all_goals exact devRef_ne_of_ne (fun e => by subst e; revert hr; decide)

theorem keepR_opsEa (V : Valuation ReferenceIdeal.τ ReferenceIdeal.sig (Elt Ideal)) (r : Ref ReferenceIdeal.sig .tc) (hr : r ∈ rLive) :
    after (ReferenceIdeal.Hand.opsEa (F := Ideal)) V (Proc.devRef .tc r) = V (Proc.devRef .tc r) := by
  refine after_of_forall_not_mem _ _ (List.forall_iff_forall_mem.mp ?_)
  simp only [ReferenceIdeal.Hand.opsEa, List.Forall, nullary_writes, unary_writes, binary_writes, ternary_writes, quaternary_writes, reshape_writes, Finset.mem_singleton]
  repeat' apply And.intro
  all_goals exact devRef_ne_of_ne (fun e => by subst e; revert hr; decide)

theorem keepR_opsEb (V : Valuation ReferenceIdeal.τ ReferenceIdeal.sig (Elt Ideal)) (r : Ref ReferenceIdeal.sig .tc) (hr : r ∈ rLive) :
    after (ReferenceIdeal.Hand.opsEb (F := Ideal)) V (Proc.devRef .tc r) = V (Proc.devRef .tc r) := by
  refine after_of_forall_not_mem _ _ (List.forall_iff_forall_mem.mp ?_)
  simp only [ReferenceIdeal.Hand.opsEb, List.Forall, nullary_writes, unary_writes, binary_writes, ternary_writes, quaternary_writes, reshape_writes, Finset.mem_singleton]
  repeat' apply And.intro
  all_goals exact devRef_ne_of_ne (fun e => by subst e; revert hr; decide)

theorem keepR_opsM (V : Valuation ReferenceIdeal.τ ReferenceIdeal.sig (Elt Ideal)) (r : Ref ReferenceIdeal.sig .tc) (hr : r ∈ rLive) :
    after (ReferenceIdeal.Hand.opsM (F := Ideal)) V (Proc.devRef .tc r) = V (Proc.devRef .tc r) := by
  refine after_of_forall_not_mem _ _ (List.forall_iff_forall_mem.mp ?_)
  simp only [ReferenceIdeal.Hand.opsM, List.Forall, nullary_writes, unary_writes, binary_writes, ternary_writes, quaternary_writes, reshape_writes, Finset.mem_singleton]
  repeat' apply And.intro
  all_goals exact devRef_ne_of_ne (fun e => by subst e; revert hr; decide)

end Cert.Bridge

end
-- ==== Proof.BridgePre.lean ====
/-
  The stretches the two programs share outside the layers. Before the first layer both read the edge list the same way
  (senders and receivers sliced off, the self-loops appended, the in-degrees scattered, the symmetric edge weights
  rsqrt(deg s)·rsqrt(deg t) gathered): equal edge lists give equal values. After the last layer both gather the node
  features at each edge's two ends and lay them side by side. And the kernel program's own small stretches that only
  turn a per-column vector into a one-row matrix.
-/
import proofs.«123362_j807453851682_1_alg».proof.Proof.BridgeTactic

noncomputable section

namespace Cert.Bridge

open Idealize.ShloMosaic Idealize.ShloMosaic.TcCoe Idealize.SL.Sem Idealize.ShloMosaic.StableHlo
open Cert

theorem pre_v1 (Vk : Valuation KernelIdeal.τ KernelIdeal.sig (Elt Ideal)) (Vr : Valuation ReferenceIdeal.τ ReferenceIdeal.sig (Elt Ideal))
    (h0 : Vk (Proc.devRef .tc KernelIdeal.main_arg1) = Vr (Proc.devRef .tc ReferenceIdeal.main_arg1)) :
    after (KernelIdeal.Gen.hostOps0 (F := Ideal)) Vk (Proc.devRef .tc KernelIdeal.main_v1)
      = after (ReferenceIdeal.Hand.opsP (F := Ideal)) Vr (Proc.devRef .tc ReferenceIdeal.main_v1) := by
  eval_after
  try simp only [h0]
  try rfl

theorem pre_v3 (Vk : Valuation KernelIdeal.τ KernelIdeal.sig (Elt Ideal)) (Vr : Valuation ReferenceIdeal.τ ReferenceIdeal.sig (Elt Ideal))
    (h0 : Vk (Proc.devRef .tc KernelIdeal.main_arg1) = Vr (Proc.devRef .tc ReferenceIdeal.main_arg1)) :
    after (KernelIdeal.Gen.hostOps0 (F := Ideal)) Vk (Proc.devRef .tc KernelIdeal.main_v3)
      = after (ReferenceIdeal.Hand.opsP (F := Ideal)) Vr (Proc.devRef .tc ReferenceIdeal.main_v3) := by
  eval_after
  try simp only [h0]
  try rfl

theorem pre_v5 (Vk : Valuation KernelIdeal.τ KernelIdeal.sig (Elt Ideal)) (Vr : Valuation ReferenceIdeal.τ ReferenceIdeal.sig (Elt Ideal))
    (h0 : Vk (Proc.devRef .tc KernelIdeal.main_arg1) = Vr (Proc.devRef .tc ReferenceIdeal.main_arg1)) :
    after (KernelIdeal.Gen.hostOps0 (F := Ideal)) Vk (Proc.devRef .tc KernelIdeal.main_v5)
      = after (ReferenceIdeal.Hand.opsP (F := Ideal)) Vr (Proc.devRef .tc ReferenceIdeal.main_v5) := by
  eval_after
  try simp only [h0]
  try rfl

theorem pre_v6 (Vk : Valuation KernelIdeal.τ KernelIdeal.sig (Elt Ideal)) (Vr : Valuation ReferenceIdeal.τ ReferenceIdeal.sig (Elt Ideal))
    (h0 : Vk (Proc.devRef .tc KernelIdeal.main_arg1) = Vr (Proc.devRef .tc ReferenceIdeal.main_arg1)) :
    after (KernelIdeal.Gen.hostOps0 (F := Ideal)) Vk (Proc.devRef .tc KernelIdeal.main_v6)
      = after (ReferenceIdeal.Hand.opsP (F := Ideal)) Vr (Proc.devRef .tc ReferenceIdeal.main_v6) := by
  eval_after
  try simp only [h0]
  try rfl

theorem pre_v26 (Vk : Valuation KernelIdeal.τ KernelIdeal.sig (Elt Ideal)) (Vr : Valuation ReferenceIdeal.τ ReferenceIdeal.sig (Elt Ideal))
    (h0 : Vk (Proc.devRef .tc KernelIdeal.main_arg1) = Vr (Proc.devRef .tc ReferenceIdeal.main_arg1)) :
    after (KernelIdeal.Gen.hostOps0 (F := Ideal)) Vk (Proc.devRef .tc KernelIdeal.main_v26)
      = after (ReferenceIdeal.Hand.opsP (F := Ideal)) Vr (Proc.devRef .tc ReferenceIdeal.main_v26) := by
  eval_after
  try simp only [h0]
  try rfl

theorem efeat (Vk : Valuation KernelIdeal.τ KernelIdeal.sig (Elt Ideal)) (Vr : Valuation ReferenceIdeal.τ ReferenceIdeal.sig (Elt Ideal))
    (h0 : Vk (Proc.devRef .tc KernelIdeal.main_v104) = Vr (Proc.devRef .tc ReferenceIdeal.main_v137))
    (h1 : Vk (Proc.devRef .tc KernelIdeal.main_v1) = Vr (Proc.devRef .tc ReferenceIdeal.main_v1))
    (h2 : Vk (Proc.devRef .tc KernelIdeal.main_v3) = Vr (Proc.devRef .tc ReferenceIdeal.main_v3)) :
    after (KernelIdeal.Gen.hostOps6 (F := Ideal)) Vk (Proc.devRef .tc KernelIdeal.main_v119)
      = after ((ReferenceIdeal.Hand.opsEa (F := Ideal)) ++ (ReferenceIdeal.Hand.opsEb (F := Ideal))) Vr (Proc.devRef .tc ReferenceIdeal.main_v152) := by
  eval_after
  try simp only [h0, h1, h2]
  try rfl

theorem row1_0 (Vk : Valuation KernelIdeal.τ KernelIdeal.sig (Elt Ideal)) :
    after (KernelIdeal.Gen.hostOps1_2 (F := Ideal)) Vk (Proc.devRef .tc KernelIdeal.main_v48)
      = shapeCast KernelIdeal.S1x128 (Vk (Proc.devRef .tc KernelIdeal.main_v46)) KernelIdeal.Gen.shapeCasts_S128_S1x128 := by
  eval_after
  try rfl

theorem row1_1 (Vk : Valuation KernelIdeal.τ KernelIdeal.sig (Elt Ideal)) :
    after (KernelIdeal.Gen.hostOps1_2 (F := Ideal)) Vk (Proc.devRef .tc KernelIdeal.main_v49)
      = shapeCast KernelIdeal.S1x128 (Vk (Proc.devRef .tc KernelIdeal.main_v47)) KernelIdeal.Gen.shapeCasts_S128_S1x128 := by
  eval_after
  try rfl

theorem row1_2 (Vk : Valuation KernelIdeal.τ KernelIdeal.sig (Elt Ideal)) :
    after (KernelIdeal.Gen.hostOps1_2 (F := Ideal)) Vk (Proc.devRef .tc KernelIdeal.main_v50)
      = shapeCast KernelIdeal.S1x128 (Vk (Proc.devRef .tc KernelIdeal.main_arg4)) KernelIdeal.Gen.shapeCasts_S128_S1x128 := by
  eval_after
  try rfl

theorem row1_3 (Vk : Valuation KernelIdeal.τ KernelIdeal.sig (Elt Ideal)) :
    after (KernelIdeal.Gen.hostOps1_2 (F := Ideal)) Vk (Proc.devRef .tc KernelIdeal.main_v51)
      = shapeCast KernelIdeal.S1x128 (Vk (Proc.devRef .tc KernelIdeal.main_arg5)) KernelIdeal.Gen.shapeCasts_S128_S1x128 := by
  eval_after
  try rfl

theorem aggR1 (Vk : Valuation KernelIdeal.τ KernelIdeal.sig (Elt Ideal)) :
    after (KernelIdeal.Gen.hostOps1_2 (F := Ideal)) Vk (Proc.devRef .tc KernelIdeal.main_v43) = Vk (Proc.devRef .tc KernelIdeal.main_v43) := by
  eval_after

theorem row2_0 (Vk : Valuation KernelIdeal.τ KernelIdeal.sig (Elt Ideal)) :
    after (KernelIdeal.Gen.hostOps3_2 (F := Ideal)) Vk (Proc.devRef .tc KernelIdeal.main_v74)
      = shapeCast KernelIdeal.S1x128 (Vk (Proc.devRef .tc KernelIdeal.main_v72)) KernelIdeal.Gen.shapeCasts_S128_S1x128 := by
  eval_after
  try rfl

theorem row2_1 (Vk : Valuation KernelIdeal.τ KernelIdeal.sig (Elt Ideal)) :
    after (KernelIdeal.Gen.hostOps3_2 (F := Ideal)) Vk (Proc.devRef .tc KernelIdeal.main_v75)
      = shapeCast KernelIdeal.S1x128 (Vk (Proc.devRef .tc KernelIdeal.main_v73)) KernelIdeal.Gen.shapeCasts_S128_S1x128 := by
  eval_after
  try rfl

theorem row2_2 (Vk : Valuation KernelIdeal.τ KernelIdeal.sig (Elt Ideal)) :
    after (KernelIdeal.Gen.hostOps3_2 (F := Ideal)) Vk (Proc.devRef .tc KernelIdeal.main_v76)
      = shapeCast KernelIdeal.S1x128 (Vk (Proc.devRef .tc KernelIdeal.main_arg8)) KernelIdeal.Gen.shapeCasts_S128_S1x128 := by
  eval_after
  try rfl

theorem row2_3 (Vk : Valuation KernelIdeal.τ KernelIdeal.sig (Elt Ideal)) :
    after (KernelIdeal.Gen.hostOps3_2 (F := Ideal)) Vk (Proc.devRef .tc KernelIdeal.main_v77)
      = shapeCast KernelIdeal.S1x128 (Vk (Proc.devRef .tc KernelIdeal.main_arg9)) KernelIdeal.Gen.shapeCasts_S128_S1x128 := by
  eval_after
  try rfl

theorem aggR2 (Vk : Valuation KernelIdeal.τ KernelIdeal.sig (Elt Ideal)) :
    after (KernelIdeal.Gen.hostOps3_2 (F := Ideal)) Vk (Proc.devRef .tc KernelIdeal.main_v69) = Vk (Proc.devRef .tc KernelIdeal.main_v69) := by
  eval_after

theorem row3_0 (Vk : Valuation KernelIdeal.τ KernelIdeal.sig (Elt Ideal)) :
    after (KernelIdeal.Gen.hostOps5_2 (F := Ideal)) Vk (Proc.devRef .tc KernelIdeal.main_v100)
      = shapeCast KernelIdeal.S1x128 (Vk (Proc.devRef .tc KernelIdeal.main_v98)) KernelIdeal.Gen.shapeCasts_S128_S1x128 := by
  eval_after
  try rfl

theorem row3_1 (Vk : Valuation KernelIdeal.τ KernelIdeal.sig (Elt Ideal)) :
    after (KernelIdeal.Gen.hostOps5_2 (F := Ideal)) Vk (Proc.devRef .tc KernelIdeal.main_v101)
      = shapeCast KernelIdeal.S1x128 (Vk (Proc.devRef .tc KernelIdeal.main_v99)) KernelIdeal.Gen.shapeCasts_S128_S1x128 := by
  eval_after
  try rfl

theorem row3_2 (Vk : Valuation KernelIdeal.τ KernelIdeal.sig (Elt Ideal)) :
    after (KernelIdeal.Gen.hostOps5_2 (F := Ideal)) Vk (Proc.devRef .tc KernelIdeal.main_v102)
      = shapeCast KernelIdeal.S1x128 (Vk (Proc.devRef .tc KernelIdeal.main_arg12)) KernelIdeal.Gen.shapeCasts_S128_S1x128 := by
  eval_after
  try rfl

theorem row3_3 (Vk : Valuation KernelIdeal.τ KernelIdeal.sig (Elt Ideal)) :
    after (KernelIdeal.Gen.hostOps5_2 (F := Ideal)) Vk (Proc.devRef .tc KernelIdeal.main_v103)
      = shapeCast KernelIdeal.S1x128 (Vk (Proc.devRef .tc KernelIdeal.main_arg13)) KernelIdeal.Gen.shapeCasts_S128_S1x128 := by
  eval_after
  try rfl

theorem aggR3 (Vk : Valuation KernelIdeal.τ KernelIdeal.sig (Elt Ideal)) :
    after (KernelIdeal.Gen.hostOps5_2 (F := Ideal)) Vk (Proc.devRef .tc KernelIdeal.main_v95) = Vk (Proc.devRef .tc KernelIdeal.main_v95) := by
  eval_after

theorem rowM_0 (Vk : Valuation KernelIdeal.τ KernelIdeal.sig (Elt Ideal)) :
    after (KernelIdeal.Gen.hostOps6 (F := Ideal)) Vk (Proc.devRef .tc KernelIdeal.main_v120)
      = shapeCast KernelIdeal.S1x256 (Vk (Proc.devRef .tc KernelIdeal.main_arg15)) KernelIdeal.Gen.shapeCasts_S256_S1x256 := by
  eval_after
  try rfl

theorem rowM_1 (Vk : Valuation KernelIdeal.τ KernelIdeal.sig (Elt Ideal)) :
    after (KernelIdeal.Gen.hostOps6 (F := Ideal)) Vk (Proc.devRef .tc KernelIdeal.main_v121)
      = shapeCast KernelIdeal.S1x128 (Vk (Proc.devRef .tc KernelIdeal.main_arg17)) KernelIdeal.Gen.shapeCasts_S128_S1x128 := by
  eval_after
  try rfl

theorem rowM_2 (Vk : Valuation KernelIdeal.τ KernelIdeal.sig (Elt Ideal)) :
    after (KernelIdeal.Gen.hostOps6 (F := Ideal)) Vk (Proc.devRef .tc KernelIdeal.main_v122)
      = shapeCast KernelIdeal.S1x64 (Vk (Proc.devRef .tc KernelIdeal.main_arg19)) KernelIdeal.Gen.shapeCasts_S64_S1x64 := by
  eval_after
  try rfl

theorem rowM_3 (Vk : Valuation KernelIdeal.τ KernelIdeal.sig (Elt Ideal)) :
    after (KernelIdeal.Gen.hostOps6 (F := Ideal)) Vk (Proc.devRef .tc KernelIdeal.main_v123)
      = shapeCast KernelIdeal.S1x2 (Vk (Proc.devRef .tc KernelIdeal.main_arg21)) KernelIdeal.Gen.shapeCasts_S2_S1x2 := by
  eval_after
  try rfl

end Cert.Bridge

end
-- ==== Proof.Chain.lean ====
/-
  What the stretches and regions never write, followed along both programs: every argument buffer holds its launch
  contents at every boundary of the kernel program, and the five edge-list values computed before the first layer hold
  what that first stretch left; the same for the reference's stretches. With the launch memories agreeing on the
  arguments, each such buffer therefore reads the same in the two programs at every pair of matching boundaries.
-/
import proofs.«123362_j807453851682_1_alg».proof.Proof.KernelRun
import proofs.«123362_j807453851682_1_alg».proof.Proof.KeepsK
import proofs.«123362_j807453851682_1_alg».proof.Proof.KeepsR
import proofs.«123362_j807453851682_1_alg».proof.Proof.BridgePre

set_option maxRecDepth 16384

noncomputable section

namespace Cert.Bridge

open Idealize.ShloMosaic Idealize.ShloMosaic.TcCoe Idealize.SL.Sem Idealize.ShloMosaic.StableHlo
open Cert

variable (m : (ℓ : Loc KernelIdeal.nD KernelIdeal.τ KernelIdeal.sig) → Buf (Elt Ideal) ℓ) (ρ : Dev KernelIdeal.nD → PrngReg)
variable (m' : (ℓ : Loc ReferenceIdeal.nD ReferenceIdeal.τ ReferenceIdeal.sig) → Buf (Elt Ideal) ℓ)
variable (c : Dev KernelIdeal.nD)

/-! ## The kernel program's boundaries -/

theorem kstep_1 (r : Ref KernelIdeal.sig .tc) (hr : r ∈ kArgs) :
    KernelIdeal.Gen.W1 m ρ c (Proc.devRef .tc r) = KernelIdeal.Gen.W0 m ρ c (Proc.devRef .tc r) :=
  keepK_hostOps0 (KernelIdeal.Gen.W0 m ρ c) r hr

theorem kstep_2 (r : Ref KernelIdeal.sig .tc) (hr : r ∈ kLive) :
    KernelIdeal.Gen.W2 m ρ c (Proc.devRef .tc r) = KernelIdeal.Gen.W1 m ρ c (Proc.devRef .tc r) := by
  by_cases h : ∀ w, Pipeline.arrRef KernelIdeal.spec0 w ≠ r
  · exact KernelIdeal.Gen.W2_of_ne m ρ c r h
  · push_neg at h
    obtain ⟨w, rfl⟩ := h
    have hw : w = 0 ∨ w = 1 := (by decide : ∀ w : Fin KernelIdeal.cfg0.W, Pipeline.arrRef KernelIdeal.spec0 w ∈ kLive → w = 0 ∨ w = 1) w hr
    rcases hw with rfl | rfl
    · exact (KernelIdeal.Gen.W2_arr m ρ c 0).trans (((KernelIdeal.Gen.dat0 (KernelIdeal.Gen.V1 m ρ) c).arrAt_in 0 rfl _).trans (KernelIdeal.Gen.A_eq0 (KernelIdeal.Gen.V1 m ρ) c 0))
    · exact (KernelIdeal.Gen.W2_arr m ρ c 1).trans (((KernelIdeal.Gen.dat0 (KernelIdeal.Gen.V1 m ρ) c).arrAt_in 1 rfl _).trans (KernelIdeal.Gen.A_eq0 (KernelIdeal.Gen.V1 m ρ) c 1))

theorem kstep_3 (r : Ref KernelIdeal.sig .tc) (hr : r ∈ kLive) :
    KernelIdeal.Gen.W3 m ρ c (Proc.devRef .tc r) = KernelIdeal.Gen.W2 m ρ c (Proc.devRef .tc r) :=
  keepK_hostOps1 (KernelIdeal.Gen.W2 m ρ c) r hr

theorem kstep_4 (r : Ref KernelIdeal.sig .tc) (hr : r ∈ kLive) :
    KernelIdeal.Gen.W4 m ρ c (Proc.devRef .tc r) = KernelIdeal.Gen.W3 m ρ c (Proc.devRef .tc r) :=
  keepK_hostOps1_1 (KernelIdeal.Gen.W3 m ρ c) r hr

theorem kstep_5 (r : Ref KernelIdeal.sig .tc) (hr : r ∈ kLive) :
    KernelIdeal.Gen.W5 m ρ c (Proc.devRef .tc r) = KernelIdeal.Gen.W4 m ρ c (Proc.devRef .tc r) :=
  keepK_hostOps1_2 (KernelIdeal.Gen.W4 m ρ c) r hr

theorem kstep_6 (r : Ref KernelIdeal.sig .tc) (hr : r ∈ kLive) :
    KernelIdeal.Gen.W6 m ρ c (Proc.devRef .tc r) = KernelIdeal.Gen.W5 m ρ c (Proc.devRef .tc r) :=
  KernelIdeal.Gen.W6_of_ne m ρ c r (fun w e => (by decide : ∀ w : Fin KernelIdeal.cfg1.W, Pipeline.arrRef KernelIdeal.spec1 w ∉ kLive) w (e ▸ hr))

theorem kstep_7 (r : Ref KernelIdeal.sig .tc) (hr : r ∈ kLive) :
    KernelIdeal.Gen.W7 m ρ c (Proc.devRef .tc r) = KernelIdeal.Gen.W6 m ρ c (Proc.devRef .tc r) := by
  by_cases h : ∀ w, Pipeline.arrRef KernelIdeal.spec2 w ≠ r
  · exact KernelIdeal.Gen.W7_of_ne m ρ c r h
  · push_neg at h
    obtain ⟨w, rfl⟩ := h
    have hw : w = 1 := (by decide : ∀ w : Fin KernelIdeal.cfg2.W, Pipeline.arrRef KernelIdeal.spec2 w ∈ kLive → w = 1) w hr
    subst hw
    exact (KernelIdeal.Gen.W7_arr m ρ c 1).trans (((KernelIdeal.Gen.dat2 (KernelIdeal.Gen.V6 m ρ) c).arrAt_in 1 rfl _).trans (KernelIdeal.Gen.A_eq2 (KernelIdeal.Gen.V6 m ρ) c 1))

theorem kstep_8 (r : Ref KernelIdeal.sig .tc) (hr : r ∈ kLive) :
    KernelIdeal.Gen.W8 m ρ c (Proc.devRef .tc r) = KernelIdeal.Gen.W7 m ρ c (Proc.devRef .tc r) :=
  keepK_hostOps3 (KernelIdeal.Gen.W7 m ρ c) r hr

theorem kstep_9 (r : Ref KernelIdeal.sig .tc) (hr : r ∈ kLive) :
    KernelIdeal.Gen.W9 m ρ c (Proc.devRef .tc r) = KernelIdeal.Gen.W8 m ρ c (Proc.devRef .tc r) :=
  keepK_hostOps3_1 (KernelIdeal.Gen.W8 m ρ c) r hr

theorem kstep_10 (r : Ref KernelIdeal.sig .tc) (hr : r ∈ kLive) :
    KernelIdeal.Gen.W10 m ρ c (Proc.devRef .tc r) = KernelIdeal.Gen.W9 m ρ c (Proc.devRef .tc r) :=
  keepK_hostOps3_2 (KernelIdeal.Gen.W9 m ρ c) r hr

theorem kstep_11 (r : Ref KernelIdeal.sig .tc) (hr : r ∈ kLive) :
    KernelIdeal.Gen.W11 m ρ c (Proc.devRef .tc r) = KernelIdeal.Gen.W10 m ρ c (Proc.devRef .tc r) :=
  KernelIdeal.Gen.W11_of_ne m ρ c r (fun w e => (by decide : ∀ w : Fin KernelIdeal.cfg3.W, Pipeline.arrRef KernelIdeal.spec3 w ∉ kLive) w (e ▸ hr))

theorem kstep_12 (r : Ref KernelIdeal.sig .tc) (hr : r ∈ kLive) :
    KernelIdeal.Gen.W12 m ρ c (Proc.devRef .tc r) = KernelIdeal.Gen.W11 m ρ c (Proc.devRef .tc r) := by
  by_cases h : ∀ w, Pipeline.arrRef KernelIdeal.spec4 w ≠ r
  · exact KernelIdeal.Gen.W12_of_ne m ρ c r h
  · push_neg at h
    obtain ⟨w, rfl⟩ := h
    have hw : w = 1 := (by decide : ∀ w : Fin KernelIdeal.cfg4.W, Pipeline.arrRef KernelIdeal.spec4 w ∈ kLive → w = 1) w hr
    subst hw
    exact (KernelIdeal.Gen.W12_arr m ρ c 1).trans (((KernelIdeal.Gen.dat4 (KernelIdeal.Gen.V11 m ρ) c).arrAt_in 1 rfl _).trans (KernelIdeal.Gen.A_eq4 (KernelIdeal.Gen.V11 m ρ) c 1))

theorem kstep_13 (r : Ref KernelIdeal.sig .tc) (hr : r ∈ kLive) :
    KernelIdeal.Gen.W13 m ρ c (Proc.devRef .tc r) = KernelIdeal.Gen.W12 m ρ c (Proc.devRef .tc r) :=
  keepK_hostOps5 (KernelIdeal.Gen.W12 m ρ c) r hr

theorem kstep_14 (r : Ref KernelIdeal.sig .tc) (hr : r ∈ kLive) :
    KernelIdeal.Gen.W14 m ρ c (Proc.devRef .tc r) = KernelIdeal.Gen.W13 m ρ c (Proc.devRef .tc r) :=
  keepK_hostOps5_1 (KernelIdeal.Gen.W13 m ρ c) r hr

theorem kstep_15 (r : Ref KernelIdeal.sig .tc) (hr : r ∈ kLive) :
    KernelIdeal.Gen.W15 m ρ c (Proc.devRef .tc r) = KernelIdeal.Gen.W14 m ρ c (Proc.devRef .tc r) :=
  keepK_hostOps5_2 (KernelIdeal.Gen.W14 m ρ c) r hr

theorem kstep_16 (r : Ref KernelIdeal.sig .tc) (hr : r ∈ kLive) :
    KernelIdeal.Gen.W16 m ρ c (Proc.devRef .tc r) = KernelIdeal.Gen.W15 m ρ c (Proc.devRef .tc r) :=
  KernelIdeal.Gen.W16_of_ne m ρ c r (fun w e => (by decide : ∀ w : Fin KernelIdeal.cfg5.W, Pipeline.arrRef KernelIdeal.spec5 w ∉ kLive) w (e ▸ hr))

theorem kstep_17 (r : Ref KernelIdeal.sig .tc) (hr : r ∈ kLive) :
    KernelIdeal.Gen.W17 m ρ c (Proc.devRef .tc r) = KernelIdeal.Gen.W16 m ρ c (Proc.devRef .tc r) :=
  keepK_hostOps6 (KernelIdeal.Gen.W16 m ρ c) r hr

theorem klive_1 (r : Ref KernelIdeal.sig .tc) (hr : r ∈ kLive) : KernelIdeal.Gen.W1 m ρ c (Proc.devRef .tc r) = KernelIdeal.Gen.W1 m ρ c (Proc.devRef .tc r) := rfl
theorem klive_2 (r : Ref KernelIdeal.sig .tc) (hr : r ∈ kLive) : KernelIdeal.Gen.W2 m ρ c (Proc.devRef .tc r) = KernelIdeal.Gen.W1 m ρ c (Proc.devRef .tc r) :=
  (kstep_2 m ρ c r hr).trans (klive_1 m ρ c r hr)
theorem klive_3 (r : Ref KernelIdeal.sig .tc) (hr : r ∈ kLive) : KernelIdeal.Gen.W3 m ρ c (Proc.devRef .tc r) = KernelIdeal.Gen.W1 m ρ c (Proc.devRef .tc r) :=
  (kstep_3 m ρ c r hr).trans (klive_2 m ρ c r hr)
theorem klive_4 (r : Ref KernelIdeal.sig .tc) (hr : r ∈ kLive) : KernelIdeal.Gen.W4 m ρ c (Proc.devRef .tc r) = KernelIdeal.Gen.W1 m ρ c (Proc.devRef .tc r) :=
  (kstep_4 m ρ c r hr).trans (klive_3 m ρ c r hr)
theorem klive_5 (r : Ref KernelIdeal.sig .tc) (hr : r ∈ kLive) : KernelIdeal.Gen.W5 m ρ c (Proc.devRef .tc r) = KernelIdeal.Gen.W1 m ρ c (Proc.devRef .tc r) :=
  (kstep_5 m ρ c r hr).trans (klive_4 m ρ c r hr)
theorem klive_6 (r : Ref KernelIdeal.sig .tc) (hr : r ∈ kLive) : KernelIdeal.Gen.W6 m ρ c (Proc.devRef .tc r) = KernelIdeal.Gen.W1 m ρ c (Proc.devRef .tc r) :=
  (kstep_6 m ρ c r hr).trans (klive_5 m ρ c r hr)
theorem klive_7 (r : Ref KernelIdeal.sig .tc) (hr : r ∈ kLive) : KernelIdeal.Gen.W7 m ρ c (Proc.devRef .tc r) = KernelIdeal.Gen.W1 m ρ c (Proc.devRef .tc r) :=
  (kstep_7 m ρ c r hr).trans (klive_6 m ρ c r hr)
theorem klive_8 (r : Ref KernelIdeal.sig .tc) (hr : r ∈ kLive) : KernelIdeal.Gen.W8 m ρ c (Proc.devRef .tc r) = KernelIdeal.Gen.W1 m ρ c (Proc.devRef .tc r) :=
  (kstep_8 m ρ c r hr).trans (klive_7 m ρ c r hr)
theorem klive_9 (r : Ref KernelIdeal.sig .tc) (hr : r ∈ kLive) : KernelIdeal.Gen.W9 m ρ c (Proc.devRef .tc r) = KernelIdeal.Gen.W1 m ρ c (Proc.devRef .tc r) :=
  (kstep_9 m ρ c r hr).trans (klive_8 m ρ c r hr)
theorem klive_10 (r : Ref KernelIdeal.sig .tc) (hr : r ∈ kLive) : KernelIdeal.Gen.W10 m ρ c (Proc.devRef .tc r) = KernelIdeal.Gen.W1 m ρ c (Proc.devRef .tc r) :=
  (kstep_10 m ρ c r hr).trans (klive_9 m ρ c r hr)
theorem klive_11 (r : Ref KernelIdeal.sig .tc) (hr : r ∈ kLive) : KernelIdeal.Gen.W11 m ρ c (Proc.devRef .tc r) = KernelIdeal.Gen.W1 m ρ c (Proc.devRef .tc r) :=
  (kstep_11 m ρ c r hr).trans (klive_10 m ρ c r hr)
theorem klive_12 (r : Ref KernelIdeal.sig .tc) (hr : r ∈ kLive) : KernelIdeal.Gen.W12 m ρ c (Proc.devRef .tc r) = KernelIdeal.Gen.W1 m ρ c (Proc.devRef .tc r) :=
  (kstep_12 m ρ c r hr).trans (klive_11 m ρ c r hr)
theorem klive_13 (r : Ref KernelIdeal.sig .tc) (hr : r ∈ kLive) : KernelIdeal.Gen.W13 m ρ c (Proc.devRef .tc r) = KernelIdeal.Gen.W1 m ρ c (Proc.devRef .tc r) :=
  (kstep_13 m ρ c r hr).trans (klive_12 m ρ c r hr)
theorem klive_14 (r : Ref KernelIdeal.sig .tc) (hr : r ∈ kLive) : KernelIdeal.Gen.W14 m ρ c (Proc.devRef .tc r) = KernelIdeal.Gen.W1 m ρ c (Proc.devRef .tc r) :=
  (kstep_14 m ρ c r hr).trans (klive_13 m ρ c r hr)
theorem klive_15 (r : Ref KernelIdeal.sig .tc) (hr : r ∈ kLive) : KernelIdeal.Gen.W15 m ρ c (Proc.devRef .tc r) = KernelIdeal.Gen.W1 m ρ c (Proc.devRef .tc r) :=
  (kstep_15 m ρ c r hr).trans (klive_14 m ρ c r hr)
theorem klive_16 (r : Ref KernelIdeal.sig .tc) (hr : r ∈ kLive) : KernelIdeal.Gen.W16 m ρ c (Proc.devRef .tc r) = KernelIdeal.Gen.W1 m ρ c (Proc.devRef .tc r) :=
  (kstep_16 m ρ c r hr).trans (klive_15 m ρ c r hr)
theorem klive_17 (r : Ref KernelIdeal.sig .tc) (hr : r ∈ kLive) : KernelIdeal.Gen.W17 m ρ c (Proc.devRef .tc r) = KernelIdeal.Gen.W1 m ρ c (Proc.devRef .tc r) :=
  (kstep_17 m ρ c r hr).trans (klive_16 m ρ c r hr)

/-! ## The reference's boundaries -/

/-- The reference's launch contents on the device. -/
abbrev U0 : Valuation ReferenceIdeal.τ ReferenceIdeal.sig (Elt Ideal) := launchContents m' c
abbrev UP : Valuation ReferenceIdeal.τ ReferenceIdeal.sig (Elt Ideal) := after (ReferenceIdeal.Hand.opsP (F := Ideal)) (U0 m' c)
abbrev UD1 : Valuation ReferenceIdeal.τ ReferenceIdeal.sig (Elt Ideal) := after (ReferenceIdeal.Hand.opsD1 (F := Ideal)) (UP m' c)
abbrev UA1 : Valuation ReferenceIdeal.τ ReferenceIdeal.sig (Elt Ideal) := after (ReferenceIdeal.Hand.opsA1 (F := Ideal)) (UD1 m' c)
abbrev UV1 : Valuation ReferenceIdeal.τ ReferenceIdeal.sig (Elt Ideal) := after (ReferenceIdeal.Hand.opsV1 (F := Ideal)) (UA1 m' c)
abbrev UB1 : Valuation ReferenceIdeal.τ ReferenceIdeal.sig (Elt Ideal) := after (ReferenceIdeal.Hand.opsB1 (F := Ideal)) (UV1 m' c)
abbrev UD2 : Valuation ReferenceIdeal.τ ReferenceIdeal.sig (Elt Ideal) := after (ReferenceIdeal.Hand.opsD2 (F := Ideal)) (UB1 m' c)
abbrev UA2 : Valuation ReferenceIdeal.τ ReferenceIdeal.sig (Elt Ideal) := after (ReferenceIdeal.Hand.opsA2 (F := Ideal)) (UD2 m' c)
abbrev UV2 : Valuation ReferenceIdeal.τ ReferenceIdeal.sig (Elt Ideal) := after (ReferenceIdeal.Hand.opsV2 (F := Ideal)) (UA2 m' c)
abbrev UB2 : Valuation ReferenceIdeal.τ ReferenceIdeal.sig (Elt Ideal) := after ((ReferenceIdeal.Hand.opsB2a (F := Ideal)) ++ (ReferenceIdeal.Hand.opsB2b (F := Ideal))) (UV2 m' c)
abbrev UD3 : Valuation ReferenceIdeal.τ ReferenceIdeal.sig (Elt Ideal) := after (ReferenceIdeal.Hand.opsD3 (F := Ideal)) (UB2 m' c)
abbrev UA3 : Valuation ReferenceIdeal.τ ReferenceIdeal.sig (Elt Ideal) := after (ReferenceIdeal.Hand.opsA3 (F := Ideal)) (UD3 m' c)
abbrev UV3 : Valuation ReferenceIdeal.τ ReferenceIdeal.sig (Elt Ideal) := after (ReferenceIdeal.Hand.opsV3 (F := Ideal)) (UA3 m' c)
abbrev UB3 : Valuation ReferenceIdeal.τ ReferenceIdeal.sig (Elt Ideal) := after (ReferenceIdeal.Hand.opsB3 (F := Ideal)) (UV3 m' c)
abbrev UE : Valuation ReferenceIdeal.τ ReferenceIdeal.sig (Elt Ideal) := after ((ReferenceIdeal.Hand.opsEa (F := Ideal)) ++ (ReferenceIdeal.Hand.opsEb (F := Ideal))) (UB3 m' c)
abbrev UM : Valuation ReferenceIdeal.τ ReferenceIdeal.sig (Elt Ideal) := after (ReferenceIdeal.Hand.opsM (F := Ideal)) (UE m' c)

theorem rstep_P (r : Ref ReferenceIdeal.sig .tc) (hr : r ∈ rArgs) : UP m' c (Proc.devRef .tc r) = U0 m' c (Proc.devRef .tc r) :=
  keepR_opsP (U0 m' c) r hr
theorem rstep_D1 (r : Ref ReferenceIdeal.sig .tc) (hr : r ∈ rLive) : UD1 m' c (Proc.devRef .tc r) = UP m' c (Proc.devRef .tc r) :=
  keepR_opsD1 (UP m' c) r hr
theorem rstep_A1 (r : Ref ReferenceIdeal.sig .tc) (hr : r ∈ rLive) : UA1 m' c (Proc.devRef .tc r) = UD1 m' c (Proc.devRef .tc r) :=
  keepR_opsA1 (UD1 m' c) r hr
theorem rstep_V1 (r : Ref ReferenceIdeal.sig .tc) (hr : r ∈ rLive) : UV1 m' c (Proc.devRef .tc r) = UA1 m' c (Proc.devRef .tc r) :=
  keepR_opsV1 (UA1 m' c) r hr
theorem rstep_B1 (r : Ref ReferenceIdeal.sig .tc) (hr : r ∈ rLive) : UB1 m' c (Proc.devRef .tc r) = UV1 m' c (Proc.devRef .tc r) :=
  keepR_opsB1 (UV1 m' c) r hr
theorem rstep_D2 (r : Ref ReferenceIdeal.sig .tc) (hr : r ∈ rLive) : UD2 m' c (Proc.devRef .tc r) = UB1 m' c (Proc.devRef .tc r) :=
  keepR_opsD2 (UB1 m' c) r hr
theorem rstep_A2 (r : Ref ReferenceIdeal.sig .tc) (hr : r ∈ rLive) : UA2 m' c (Proc.devRef .tc r) = UD2 m' c (Proc.devRef .tc r) :=
  keepR_opsA2 (UD2 m' c) r hr
theorem rstep_V2 (r : Ref ReferenceIdeal.sig .tc) (hr : r ∈ rLive) : UV2 m' c (Proc.devRef .tc r) = UA2 m' c (Proc.devRef .tc r) :=
  keepR_opsV2 (UA2 m' c) r hr
theorem rstep_B2 (r : Ref ReferenceIdeal.sig .tc) (hr : r ∈ rLive) : UB2 m' c (Proc.devRef .tc r) = UV2 m' c (Proc.devRef .tc r) :=
  (congrFun (after_app _ _ (UV2 m' c)) _).trans ((keepR_opsB2b _ r hr).trans (keepR_opsB2a (UV2 m' c) r hr))
theorem rstep_D3 (r : Ref ReferenceIdeal.sig .tc) (hr : r ∈ rLive) : UD3 m' c (Proc.devRef .tc r) = UB2 m' c (Proc.devRef .tc r) :=
  keepR_opsD3 (UB2 m' c) r hr
theorem rstep_A3 (r : Ref ReferenceIdeal.sig .tc) (hr : r ∈ rLive) : UA3 m' c (Proc.devRef .tc r) = UD3 m' c (Proc.devRef .tc r) :=
  keepR_opsA3 (UD3 m' c) r hr
theorem rstep_V3 (r : Ref ReferenceIdeal.sig .tc) (hr : r ∈ rLive) : UV3 m' c (Proc.devRef .tc r) = UA3 m' c (Proc.devRef .tc r) :=
  keepR_opsV3 (UA3 m' c) r hr
theorem rstep_B3 (r : Ref ReferenceIdeal.sig .tc) (hr : r ∈ rLive) : UB3 m' c (Proc.devRef .tc r) = UV3 m' c (Proc.devRef .tc r) :=
  keepR_opsB3 (UV3 m' c) r hr
theorem rstep_E (r : Ref ReferenceIdeal.sig .tc) (hr : r ∈ rLive) : UE m' c (Proc.devRef .tc r) = UB3 m' c (Proc.devRef .tc r) :=
  (congrFun (after_app _ _ (UB3 m' c)) _).trans ((keepR_opsEb _ r hr).trans (keepR_opsEa (UB3 m' c) r hr))
theorem rlive_P (r : Ref ReferenceIdeal.sig .tc) (hr : r ∈ rLive) : UP m' c (Proc.devRef .tc r) = UP m' c (Proc.devRef .tc r) := rfl
theorem rlive_D1 (r : Ref ReferenceIdeal.sig .tc) (hr : r ∈ rLive) : UD1 m' c (Proc.devRef .tc r) = UP m' c (Proc.devRef .tc r) :=
  (rstep_D1 m' c r hr).trans (rlive_P m' c r hr)
theorem rlive_A1 (r : Ref ReferenceIdeal.sig .tc) (hr : r ∈ rLive) : UA1 m' c (Proc.devRef .tc r) = UP m' c (Proc.devRef .tc r) :=
  (rstep_A1 m' c r hr).trans (rlive_D1 m' c r hr)
theorem rlive_V1 (r : Ref ReferenceIdeal.sig .tc) (hr : r ∈ rLive) : UV1 m' c (Proc.devRef .tc r) = UP m' c (Proc.devRef .tc r) :=
  (rstep_V1 m' c r hr).trans (rlive_A1 m' c r hr)
theorem rlive_B1 (r : Ref ReferenceIdeal.sig .tc) (hr : r ∈ rLive) : UB1 m' c (Proc.devRef .tc r) = UP m' c (Proc.devRef .tc r) :=
  (rstep_B1 m' c r hr).trans (rlive_V1 m' c r hr)
theorem rlive_D2 (r : Ref ReferenceIdeal.sig .tc) (hr : r ∈ rLive) : UD2 m' c (Proc.devRef .tc r) = UP m' c (Proc.devRef .tc r) :=
  (rstep_D2 m' c r hr).trans (rlive_B1 m' c r hr)
theorem rlive_A2 (r : Ref ReferenceIdeal.sig .tc) (hr : r ∈ rLive) : UA2 m' c (Proc.devRef .tc r) = UP m' c (Proc.devRef .tc r) :=
  (rstep_A2 m' c r hr).trans (rlive_D2 m' c r hr)
theorem rlive_V2 (r : Ref ReferenceIdeal.sig .tc) (hr : r ∈ rLive) : UV2 m' c (Proc.devRef .tc r) = UP m' c (Proc.devRef .tc r) :=
  (rstep_V2 m' c r hr).trans (rlive_A2 m' c r hr)
theorem rlive_B2 (r : Ref ReferenceIdeal.sig .tc) (hr : r ∈ rLive) : UB2 m' c (Proc.devRef .tc r) = UP m' c (Proc.devRef .tc r) :=
  (rstep_B2 m' c r hr).trans (rlive_V2 m' c r hr)
theorem rlive_D3 (r : Ref ReferenceIdeal.sig .tc) (hr : r ∈ rLive) : UD3 m' c (Proc.devRef .tc r) = UP m' c (Proc.devRef .tc r) :=
  (rstep_D3 m' c r hr).trans (rlive_B2 m' c r hr)
theorem rlive_A3 (r : Ref ReferenceIdeal.sig .tc) (hr : r ∈ rLive) : UA3 m' c (Proc.devRef .tc r) = UP m' c (Proc.devRef .tc r) :=
  (rstep_A3 m' c r hr).trans (rlive_D3 m' c r hr)
theorem rlive_V3 (r : Ref ReferenceIdeal.sig .tc) (hr : r ∈ rLive) : UV3 m' c (Proc.devRef .tc r) = UP m' c (Proc.devRef .tc r) :=
  (rstep_V3 m' c r hr).trans (rlive_A3 m' c r hr)
theorem rlive_B3 (r : Ref ReferenceIdeal.sig .tc) (hr : r ∈ rLive) : UB3 m' c (Proc.devRef .tc r) = UP m' c (Proc.devRef .tc r) :=
  (rstep_B3 m' c r hr).trans (rlive_V3 m' c r hr)
theorem rlive_E (r : Ref ReferenceIdeal.sig .tc) (hr : r ∈ rLive) : UE m' c (Proc.devRef .tc r) = UP m' c (Proc.devRef .tc r) :=
  (rstep_E m' c r hr).trans (rlive_B3 m' c r hr)
theorem rstep_M (r : Ref ReferenceIdeal.sig .tc) (hr : r ∈ rLive) : UM m' c (Proc.devRef .tc r) = UE m' c (Proc.devRef .tc r) :=
  keepR_opsM (UE m' c) r hr
theorem rlive_M (r : Ref ReferenceIdeal.sig .tc) (hr : r ∈ rLive) : UM m' c (Proc.devRef .tc r) = UP m' c (Proc.devRef .tc r) :=
  (rstep_M m' c r hr).trans (rlive_E m' c r hr)

/-- The reference's whole line folds stretch by stretch. -/
theorem ops_fold : after (ReferenceIdeal.Hand.ops (F := Ideal)) (U0 m' c) = UM m' c := by
  rw [ReferenceIdeal.Hand.ops_def]
  simp only [after_app, UM, UE, UB3, UV3, UA3, UD3, UB2, UV2, UA2, UD2, UB1, UV1, UA1, UD1, UP]

/-- The reference's line leaves every argument as launched. -/
theorem ref_arg (r : Ref ReferenceIdeal.sig .tc) (hr : r ∈ rArgs) :
    after (ReferenceIdeal.Hand.ops (F := Ideal)) (launchContents m' c) (Proc.devRef .tc r) = launchContents m' c (Proc.devRef .tc r) :=
  (congrFun (ops_fold m' c) _).trans ((rlive_M m' c r (List.mem_append_left _ hr)).trans (rstep_P m' c r hr))

/-! ## The two programs side by side -/

/-- The launch memories hold the same argument arrays on the device. -/
def Agree : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)
  ∧ m' ((c.tc : Thread ReferenceIdeal.nD ReferenceIdeal.τ).loc ReferenceIdeal.main_arg6) = m ((c.tc : Thread KernelIdeal.nD KernelIdeal.τ).loc KernelIdeal.main_arg6)
  ∧ m' ((c.tc : Thread ReferenceIdeal.nD ReferenceIdeal.τ).loc ReferenceIdeal.main_arg7) = m ((c.tc : Thread KernelIdeal.nD KernelIdeal.τ).loc KernelIdeal.main_arg7)
  ∧ m' ((c.tc : Thread ReferenceIdeal.nD ReferenceIdeal.τ).loc ReferenceIdeal.main_arg8) = m ((c.tc : Thread KernelIdeal.nD KernelIdeal.τ).loc KernelIdeal.main_arg8)
  ∧ m' ((c.tc : Thread ReferenceIdeal.nD ReferenceIdeal.τ).loc ReferenceIdeal.main_arg9) = m ((c.tc : Thread KernelIdeal.nD KernelIdeal.τ).loc KernelIdeal.main_arg9)
  ∧ m' ((c.tc : Thread ReferenceIdeal.nD ReferenceIdeal.τ).loc ReferenceIdeal.main_arg10) = m ((c.tc : Thread KernelIdeal.nD KernelIdeal.τ).loc KernelIdeal.main_arg10)
  ∧ m' ((c.tc : Thread ReferenceIdeal.nD ReferenceIdeal.τ).loc ReferenceIdeal.main_arg11) = m ((c.tc : Thread KernelIdeal.nD KernelIdeal.τ).loc KernelIdeal.main_arg11)
  ∧ m' ((c.tc : Thread ReferenceIdeal.nD ReferenceIdeal.τ).loc ReferenceIdeal.main_arg12) = m ((c.tc : Thread KernelIdeal.nD KernelIdeal.τ).loc KernelIdeal.main_arg12)
  ∧ m' ((c.tc : Thread ReferenceIdeal.nD ReferenceIdeal.τ).loc ReferenceIdeal.main_arg13) = m ((c.tc : Thread KernelIdeal.nD KernelIdeal.τ).loc KernelIdeal.main_arg13)
  ∧ m' ((c.tc : Thread ReferenceIdeal.nD ReferenceIdeal.τ).loc ReferenceIdeal.main_arg14) = m ((c.tc : Thread KernelIdeal.nD KernelIdeal.τ).loc KernelIdeal.main_arg14)
  ∧ m' ((c.tc : Thread ReferenceIdeal.nD ReferenceIdeal.τ).loc ReferenceIdeal.main_arg15) = m ((c.tc : Thread KernelIdeal.nD KernelIdeal.τ).loc KernelIdeal.main_arg15)
  ∧ m' ((c.tc : Thread ReferenceIdeal.nD ReferenceIdeal.τ).loc ReferenceIdeal.main_arg16) = m ((c.tc : Thread KernelIdeal.nD KernelIdeal.τ).loc KernelIdeal.main_arg16)
  ∧ m' ((c.tc : Thread ReferenceIdeal.nD ReferenceIdeal.τ).loc ReferenceIdeal.main_arg17) = m ((c.tc : Thread KernelIdeal.nD KernelIdeal.τ).loc KernelIdeal.main_arg17)
  ∧ m' ((c.tc : Thread ReferenceIdeal.nD ReferenceIdeal.τ).loc ReferenceIdeal.main_arg18) = m ((c.tc : Thread KernelIdeal.nD KernelIdeal.τ).loc KernelIdeal.main_arg18)
  ∧ m' ((c.tc : Thread ReferenceIdeal.nD ReferenceIdeal.τ).loc ReferenceIdeal.main_arg19) = m ((c.tc : Thread KernelIdeal.nD KernelIdeal.τ).loc KernelIdeal.main_arg19)
  ∧ m' ((c.tc : Thread ReferenceIdeal.nD ReferenceIdeal.τ).loc ReferenceIdeal.main_arg20) = m ((c.tc : Thread KernelIdeal.nD KernelIdeal.τ).loc KernelIdeal.main_arg20)
  ∧ m' ((c.tc : Thread ReferenceIdeal.nD ReferenceIdeal.τ).loc ReferenceIdeal.main_arg21) = m ((c.tc : Thread KernelIdeal.nD KernelIdeal.τ).loc KernelIdeal.main_arg21)

variable (hag : Agree m m' c)
include hag

theorem arg1_0 : KernelIdeal.Gen.W1 m ρ c (Proc.devRef .tc KernelIdeal.main_arg0) = UP m' c (Proc.devRef .tc ReferenceIdeal.main_arg0) :=
  (kstep_1 m ρ c KernelIdeal.main_arg0 (by decide)).trans
    ((show KernelIdeal.Gen.W0 m ρ c (Proc.devRef .tc KernelIdeal.main_arg0) = U0 m' c (Proc.devRef .tc ReferenceIdeal.main_arg0) from (hag.1).symm).trans (rstep_P m' c ReferenceIdeal.main_arg0 (by decide)).symm)
theorem arg1_1 : KernelIdeal.Gen.W1 m ρ c (Proc.devRef .tc KernelIdeal.main_arg1) = UP m' c (Proc.devRef .tc ReferenceIdeal.main_arg1) :=
  (kstep_1 m ρ c KernelIdeal.main_arg1 (by decide)).trans
    ((show KernelIdeal.Gen.W0 m ρ c (Proc.devRef .tc KernelIdeal.main_arg1) = U0 m' c (Proc.devRef .tc ReferenceIdeal.main_arg1) from (hag.2.1).symm).trans (rstep_P m' c ReferenceIdeal.main_arg1 (by decide)).symm)
theorem arg1_2 : KernelIdeal.Gen.W1 m ρ c (Proc.devRef .tc KernelIdeal.main_arg2) = UP m' c (Proc.devRef .tc ReferenceIdeal.main_arg2) :=
  (kstep_1 m ρ c KernelIdeal.main_arg2 (by decide)).trans
    ((show KernelIdeal.Gen.W0 m ρ c (Proc.devRef .tc KernelIdeal.main_arg2) = U0 m' c (Proc.devRef .tc ReferenceIdeal.main_arg2) from (hag.2.2.1).symm).trans (rstep_P m' c ReferenceIdeal.main_arg2 (by decide)).symm)
theorem arg1_3 : KernelIdeal.Gen.W1 m ρ c (Proc.devRef .tc KernelIdeal.main_arg3) = UP m' c (Proc.devRef .tc ReferenceIdeal.main_arg3) :=
  (kstep_1 m ρ c KernelIdeal.main_arg3 (by decide)).trans
    ((show KernelIdeal.Gen.W0 m ρ c (Proc.devRef .tc KernelIdeal.main_arg3) = U0 m' c (Proc.devRef .tc ReferenceIdeal.main_arg3) from (hag.2.2.2.1).symm).trans (rstep_P m' c ReferenceIdeal.main_arg3 (by decide)).symm)
theorem arg1_4 : KernelIdeal.Gen.W1 m ρ c (Proc.devRef .tc KernelIdeal.main_arg4) = UP m' c (Proc.devRef .tc ReferenceIdeal.main_arg4) :=
  (kstep_1 m ρ c KernelIdeal.main_arg4 (by decide)).trans
    ((show KernelIdeal.Gen.W0 m ρ c (Proc.devRef .tc KernelIdeal.main_arg4) = U0 m' c (Proc.devRef .tc ReferenceIdeal.main_arg4) from (hag.2.2.2.2.1).symm).trans (rstep_P m' c ReferenceIdeal.main_arg4 (by decide)).symm)
theorem arg1_5 : KernelIdeal.Gen.W1 m ρ c (Proc.devRef .tc KernelIdeal.main_arg5) = UP m' c (Proc.devRef .tc ReferenceIdeal.main_arg5) :=
  (kstep_1 m ρ c KernelIdeal.main_arg5 (by decide)).trans
    ((show KernelIdeal.Gen.W0 m ρ c (Proc.devRef .tc KernelIdeal.main_arg5) = U0 m' c (Proc.devRef .tc ReferenceIdeal.main_arg5) from (hag.2.2.2.2.2.1).symm).trans (rstep_P m' c ReferenceIdeal.main_arg5 (by decide)).symm)
theorem arg1_6 : KernelIdeal.Gen.W1 m ρ c (Proc.devRef .tc KernelIdeal.main_arg6) = UP m' c (Proc.devRef .tc ReferenceIdeal.main_arg6) :=
  (kstep_1 m ρ c KernelIdeal.main_arg6 (by decide)).trans
    ((show KernelIdeal.Gen.W0 m ρ c (Proc.devRef .tc KernelIdeal.main_arg6) = U0 m' c (Proc.devRef .tc ReferenceIdeal.main_arg6) from (hag.2.2.2.2.2.2.1).symm).trans (rstep_P m' c ReferenceIdeal.main_arg6 (by decide)).symm)
theorem arg1_7 : KernelIdeal.Gen.W1 m ρ c (Proc.devRef .tc KernelIdeal.main_arg7) = UP m' c (Proc.devRef .tc ReferenceIdeal.main_arg7) :=
  (kstep_1 m ρ c KernelIdeal.main_arg7 (by decide)).trans
    ((show KernelIdeal.Gen.W0 m ρ c (Proc.devRef .tc KernelIdeal.main_arg7) = U0 m' c (Proc.devRef .tc ReferenceIdeal.main_arg7) from (hag.2.2.2.2.2.2.2.1).symm).trans (rstep_P m' c ReferenceIdeal.main_arg7 (by decide)).symm)
theorem arg1_8 : KernelIdeal.Gen.W1 m ρ c (Proc.devRef .tc KernelIdeal.main_arg8) = UP m' c (Proc.devRef .tc ReferenceIdeal.main_arg8) :=
  (kstep_1 m ρ c KernelIdeal.main_arg8 (by decide)).trans
    ((show KernelIdeal.Gen.W0 m ρ c (Proc.devRef .tc KernelIdeal.main_arg8) = U0 m' c (Proc.devRef .tc ReferenceIdeal.main_arg8) from (hag.2.2.2.2.2.2.2.2.1).symm).trans (rstep_P m' c ReferenceIdeal.main_arg8 (by decide)).symm)
theorem arg1_9 : KernelIdeal.Gen.W1 m ρ c (Proc.devRef .tc KernelIdeal.main_arg9) = UP m' c (Proc.devRef .tc ReferenceIdeal.main_arg9) :=
  (kstep_1 m ρ c KernelIdeal.main_arg9 (by decide)).trans
    ((show KernelIdeal.Gen.W0 m ρ c (Proc.devRef .tc KernelIdeal.main_arg9) = U0 m' c (Proc.devRef .tc ReferenceIdeal.main_arg9) from (hag.2.2.2.2.2.2.2.2.2.1).symm).trans (rstep_P m' c ReferenceIdeal.main_arg9 (by decide)).symm)
theorem arg1_10 : KernelIdeal.Gen.W1 m ρ c (Proc.devRef .tc KernelIdeal.main_arg10) = UP m' c (Proc.devRef .tc ReferenceIdeal.main_arg10) :=
  (kstep_1 m ρ c KernelIdeal.main_arg10 (by decide)).trans
    ((show KernelIdeal.Gen.W0 m ρ c (Proc.devRef .tc KernelIdeal.main_arg10) = U0 m' c (Proc.devRef .tc ReferenceIdeal.main_arg10) from (hag.2.2.2.2.2.2.2.2.2.2.1).symm).trans (rstep_P m' c ReferenceIdeal.main_arg10 (by decide)).symm)
theorem arg1_11 : KernelIdeal.Gen.W1 m ρ c (Proc.devRef .tc KernelIdeal.main_arg11) = UP m' c (Proc.devRef .tc ReferenceIdeal.main_arg11) :=
  (kstep_1 m ρ c KernelIdeal.main_arg11 (by decide)).trans
    ((show KernelIdeal.Gen.W0 m ρ c (Proc.devRef .tc KernelIdeal.main_arg11) = U0 m' c (Proc.devRef .tc ReferenceIdeal.main_arg11) from (hag.2.2.2.2.2.2.2.2.2.2.2.1).symm).trans (rstep_P m' c ReferenceIdeal.main_arg11 (by decide)).symm)
theorem arg1_12 : KernelIdeal.Gen.W1 m ρ c (Proc.devRef .tc KernelIdeal.main_arg12) = UP m' c (Proc.devRef .tc ReferenceIdeal.main_arg12) :=
  (kstep_1 m ρ c KernelIdeal.main_arg12 (by decide)).trans
    ((show KernelIdeal.Gen.W0 m ρ c (Proc.devRef .tc KernelIdeal.main_arg12) = U0 m' c (Proc.devRef .tc ReferenceIdeal.main_arg12) from (hag.2.2.2.2.2.2.2.2.2.2.2.2.1).symm).trans (rstep_P m' c ReferenceIdeal.main_arg12 (by decide)).symm)
theorem arg1_13 : KernelIdeal.Gen.W1 m ρ c (Proc.devRef .tc KernelIdeal.main_arg13) = UP m' c (Proc.devRef .tc ReferenceIdeal.main_arg13) :=
  (kstep_1 m ρ c KernelIdeal.main_arg13 (by decide)).trans
    ((show KernelIdeal.Gen.W0 m ρ c (Proc.devRef .tc KernelIdeal.main_arg13) = U0 m' c (Proc.devRef .tc ReferenceIdeal.main_arg13) from (hag.2.2.2.2.2.2.2.2.2.2.2.2.2.1).symm).trans (rstep_P m' c ReferenceIdeal.main_arg13 (by decide)).symm)
theorem arg1_14 : KernelIdeal.Gen.W1 m ρ c (Proc.devRef .tc KernelIdeal.main_arg14) = UP m' c (Proc.devRef .tc ReferenceIdeal.main_arg14) :=
  (kstep_1 m ρ c KernelIdeal.main_arg14 (by decide)).trans
    ((show KernelIdeal.Gen.W0 m ρ c (Proc.devRef .tc KernelIdeal.main_arg14) = U0 m' c (Proc.devRef .tc ReferenceIdeal.main_arg14) from (hag.2.2.2.2.2.2.2.2.2.2.2.2.2.2.1).symm).trans (rstep_P m' c ReferenceIdeal.main_arg14 (by decide)).symm)
theorem arg1_15 : KernelIdeal.Gen.W1 m ρ c (Proc.devRef .tc KernelIdeal.main_arg15) = UP m' c (Proc.devRef .tc ReferenceIdeal.main_arg15) :=
  (kstep_1 m ρ c KernelIdeal.main_arg15 (by decide)).trans
    ((show KernelIdeal.Gen.W0 m ρ c (Proc.devRef .tc KernelIdeal.main_arg15) = U0 m' c (Proc.devRef .tc ReferenceIdeal.main_arg15) from (hag.2.2.2.2.2.2.2.2.2.2.2.2.2.2.2.1).symm).trans (rstep_P m' c ReferenceIdeal.main_arg15 (by decide)).symm)
theorem arg1_16 : KernelIdeal.Gen.W1 m ρ c (Proc.devRef .tc KernelIdeal.main_arg16) = UP m' c (Proc.devRef .tc ReferenceIdeal.main_arg16) :=
  (kstep_1 m ρ c KernelIdeal.main_arg16 (by decide)).trans
    ((show KernelIdeal.Gen.W0 m ρ c (Proc.devRef .tc KernelIdeal.main_arg16) = U0 m' c (Proc.devRef .tc ReferenceIdeal.main_arg16) from (hag.2.2.2.2.2.2.2.2.2.2.2.2.2.2.2.2.1).symm).trans (rstep_P m' c ReferenceIdeal.main_arg16 (by decide)).symm)
theorem arg1_17 : KernelIdeal.Gen.W1 m ρ c (Proc.devRef .tc KernelIdeal.main_arg17) = UP m' c (Proc.devRef .tc ReferenceIdeal.main_arg17) :=
  (kstep_1 m ρ c KernelIdeal.main_arg17 (by decide)).trans
    ((show KernelIdeal.Gen.W0 m ρ c (Proc.devRef .tc KernelIdeal.main_arg17) = U0 m' c (Proc.devRef .tc ReferenceIdeal.main_arg17) from (hag.2.2.2.2.2.2.2.2.2.2.2.2.2.2.2.2.2.1).symm).trans (rstep_P m' c ReferenceIdeal.main_arg17 (by decide)).symm)
theorem arg1_18 : KernelIdeal.Gen.W1 m ρ c (Proc.devRef .tc KernelIdeal.main_arg18) = UP m' c (Proc.devRef .tc ReferenceIdeal.main_arg18) :=
  (kstep_1 m ρ c KernelIdeal.main_arg18 (by decide)).trans
    ((show KernelIdeal.Gen.W0 m ρ c (Proc.devRef .tc KernelIdeal.main_arg18) = U0 m' c (Proc.devRef .tc ReferenceIdeal.main_arg18) from (hag.2.2.2.2.2.2.2.2.2.2.2.2.2.2.2.2.2.2.1).symm).trans (rstep_P m' c ReferenceIdeal.main_arg18 (by decide)).symm)
theorem arg1_19 : KernelIdeal.Gen.W1 m ρ c (Proc.devRef .tc KernelIdeal.main_arg19) = UP m' c (Proc.devRef .tc ReferenceIdeal.main_arg19) :=
  (kstep_1 m ρ c KernelIdeal.main_arg19 (by decide)).trans
    ((show KernelIdeal.Gen.W0 m ρ c (Proc.devRef .tc KernelIdeal.main_arg19) = U0 m' c (Proc.devRef .tc ReferenceIdeal.main_arg19) from (hag.2.2.2.2.2.2.2.2.2.2.2.2.2.2.2.2.2.2.2.1).symm).trans (rstep_P m' c ReferenceIdeal.main_arg19 (by decide)).symm)
theorem arg1_20 : KernelIdeal.Gen.W1 m ρ c (Proc.devRef .tc KernelIdeal.main_arg20) = UP m' c (Proc.devRef .tc ReferenceIdeal.main_arg20) :=
  (kstep_1 m ρ c KernelIdeal.main_arg20 (by decide)).trans
    ((show KernelIdeal.Gen.W0 m ρ c (Proc.devRef .tc KernelIdeal.main_arg20) = U0 m' c (Proc.devRef .tc ReferenceIdeal.main_arg20) from (hag.2.2.2.2.2.2.2.2.2.2.2.2.2.2.2.2.2.2.2.2.1).symm).trans (rstep_P m' c ReferenceIdeal.main_arg20 (by decide)).symm)
theorem arg1_21 : KernelIdeal.Gen.W1 m ρ c (Proc.devRef .tc KernelIdeal.main_arg21) = UP m' c (Proc.devRef .tc ReferenceIdeal.main_arg21) :=
  (kstep_1 m ρ c KernelIdeal.main_arg21 (by decide)).trans
    ((show KernelIdeal.Gen.W0 m ρ c (Proc.devRef .tc KernelIdeal.main_arg21) = U0 m' c (Proc.devRef .tc ReferenceIdeal.main_arg21) from (hag.2.2.2.2.2.2.2.2.2.2.2.2.2.2.2.2.2.2.2.2.2).symm).trans (rstep_P m' c ReferenceIdeal.main_arg21 (by decide)).symm)
theorem live1_v1 : KernelIdeal.Gen.W1 m ρ c (Proc.devRef .tc KernelIdeal.main_v1) = UP m' c (Proc.devRef .tc ReferenceIdeal.main_v1) :=
  pre_v1 (KernelIdeal.Gen.W0 m ρ c) (U0 m' c) (show KernelIdeal.Gen.W0 m ρ c (Proc.devRef .tc KernelIdeal.main_arg1) = U0 m' c (Proc.devRef .tc ReferenceIdeal.main_arg1) from (hag.2.1).symm)
theorem live1_v3 : KernelIdeal.Gen.W1 m ρ c (Proc.devRef .tc KernelIdeal.main_v3) = UP m' c (Proc.devRef .tc ReferenceIdeal.main_v3) :=
  pre_v3 (KernelIdeal.Gen.W0 m ρ c) (U0 m' c) (show KernelIdeal.Gen.W0 m ρ c (Proc.devRef .tc KernelIdeal.main_arg1) = U0 m' c (Proc.devRef .tc ReferenceIdeal.main_arg1) from (hag.2.1).symm)
theorem live1_v5 : KernelIdeal.Gen.W1 m ρ c (Proc.devRef .tc KernelIdeal.main_v5) = UP m' c (Proc.devRef .tc ReferenceIdeal.main_v5) :=
  pre_v5 (KernelIdeal.Gen.W0 m ρ c) (U0 m' c) (show KernelIdeal.Gen.W0 m ρ c (Proc.devRef .tc KernelIdeal.main_arg1) = U0 m' c (Proc.devRef .tc ReferenceIdeal.main_arg1) from (hag.2.1).symm)
theorem live1_v6 : KernelIdeal.Gen.W1 m ρ c (Proc.devRef .tc KernelIdeal.main_v6) = UP m' c (Proc.devRef .tc ReferenceIdeal.main_v6) :=
  pre_v6 (KernelIdeal.Gen.W0 m ρ c) (U0 m' c) (show KernelIdeal.Gen.W0 m ρ c (Proc.devRef .tc KernelIdeal.main_arg1) = U0 m' c (Proc.devRef .tc ReferenceIdeal.main_arg1) from (hag.2.1).symm)
theorem live1_v26 : KernelIdeal.Gen.W1 m ρ c (Proc.devRef .tc KernelIdeal.main_v26) = UP m' c (Proc.devRef .tc ReferenceIdeal.main_v26) :=
  pre_v26 (KernelIdeal.Gen.W0 m ρ c) (U0 m' c) (show KernelIdeal.Gen.W0 m ρ c (Proc.devRef .tc KernelIdeal.main_arg1) = U0 m' c (Proc.devRef .tc ReferenceIdeal.main_arg1) from (hag.2.1).symm)

end Cert.Bridge

end
-- ==== Proof.BridgeLayer1.lean ====
/-
  Layer 1's shared host stretches: from equal feature products, equal edge data and an equal bias both programs
  aggregate the same way (gather at the senders, weight, scatter-add at the receivers, add the bias), take the same
  column mean, and the same column variance (the mean of the squared deviations); values no operation of a stretch
  writes pass through it unchanged on both sides.
-/
import proofs.«123362_j807453851682_1_alg».proof.Proof.BridgeTactic

noncomputable section

namespace Cert.Bridge

open Idealize.ShloMosaic Idealize.ShloMosaic.TcCoe Idealize.SL.Sem Idealize.ShloMosaic.StableHlo
open Cert

theorem agg1 (Vk : Valuation KernelIdeal.τ KernelIdeal.sig (Elt Ideal)) (Vr : Valuation ReferenceIdeal.τ ReferenceIdeal.sig (Elt Ideal))
    (h0 : Vk (Proc.devRef .tc KernelIdeal.main_v27) = Vr (Proc.devRef .tc ReferenceIdeal.main_v27))
    (h1 : Vk (Proc.devRef .tc KernelIdeal.main_v5) = Vr (Proc.devRef .tc ReferenceIdeal.main_v5))
    (h2 : Vk (Proc.devRef .tc KernelIdeal.main_v6) = Vr (Proc.devRef .tc ReferenceIdeal.main_v6))
    (h3 : Vk (Proc.devRef .tc KernelIdeal.main_v26) = Vr (Proc.devRef .tc ReferenceIdeal.main_v26))
    (h4 : Vk (Proc.devRef .tc KernelIdeal.main_arg3) = Vr (Proc.devRef .tc ReferenceIdeal.main_arg3)) :
    after (KernelIdeal.Gen.hostOps1 (F := Ideal)) Vk (Proc.devRef .tc KernelIdeal.main_v43)
      = after (ReferenceIdeal.Hand.opsA1 (F := Ideal)) Vr (Proc.devRef .tc ReferenceIdeal.main_v43) := by
  eval_after
  try simp only [h0, h1, h2, h3, h4]
  try rfl

theorem mean1 (Vk : Valuation KernelIdeal.τ KernelIdeal.sig (Elt Ideal)) (Vr : Valuation ReferenceIdeal.τ ReferenceIdeal.sig (Elt Ideal))
    (h0 : Vk (Proc.devRef .tc KernelIdeal.main_v27) = Vr (Proc.devRef .tc ReferenceIdeal.main_v27))
    (h1 : Vk (Proc.devRef .tc KernelIdeal.main_v5) = Vr (Proc.devRef .tc ReferenceIdeal.main_v5))
    (h2 : Vk (Proc.devRef .tc KernelIdeal.main_v6) = Vr (Proc.devRef .tc ReferenceIdeal.main_v6))
    (h3 : Vk (Proc.devRef .tc KernelIdeal.main_v26) = Vr (Proc.devRef .tc ReferenceIdeal.main_v26))
    (h4 : Vk (Proc.devRef .tc KernelIdeal.main_arg3) = Vr (Proc.devRef .tc ReferenceIdeal.main_arg3)) :
    after (KernelIdeal.Gen.hostOps1 (F := Ideal)) Vk (Proc.devRef .tc KernelIdeal.main_v46)
      = after (ReferenceIdeal.Hand.opsA1 (F := Ideal)) Vr (Proc.devRef .tc ReferenceIdeal.main_v46) := by
  eval_after
  try simp only [h0, h1, h2, h3, h4]
  try rfl

theorem cst1 (Vk : Valuation KernelIdeal.τ KernelIdeal.sig (Elt Ideal)) (Vr : Valuation ReferenceIdeal.τ ReferenceIdeal.sig (Elt Ideal))
:
    after (KernelIdeal.Gen.hostOps1 (F := Ideal)) Vk (Proc.devRef .tc KernelIdeal.main_c_9)
      = after (ReferenceIdeal.Hand.opsA1 (F := Ideal)) Vr (Proc.devRef .tc ReferenceIdeal.main_c_9) := by
  eval_after
  skip
  try rfl

theorem var1 (Vk : Valuation KernelIdeal.τ KernelIdeal.sig (Elt Ideal)) (Vr : Valuation ReferenceIdeal.τ ReferenceIdeal.sig (Elt Ideal))
    (h0 : Vk (Proc.devRef .tc KernelIdeal.main_v43) = Vr (Proc.devRef .tc ReferenceIdeal.main_v43))
    (h1 : Vk (Proc.devRef .tc KernelIdeal.main_c_9) = Vr (Proc.devRef .tc ReferenceIdeal.main_c_9)) :
    after (KernelIdeal.Gen.hostOps1_1 (F := Ideal)) Vk (Proc.devRef .tc KernelIdeal.main_v47)
      = after (ReferenceIdeal.Hand.opsV1 (F := Ideal)) Vr (Proc.devRef .tc ReferenceIdeal.main_v47) := by
  eval_after
  try simp only [h0, h1]
  try rfl

theorem aggV1 (Vk : Valuation KernelIdeal.τ KernelIdeal.sig (Elt Ideal)) (Vr : Valuation ReferenceIdeal.τ ReferenceIdeal.sig (Elt Ideal))
    (h0 : Vk (Proc.devRef .tc KernelIdeal.main_v43) = Vr (Proc.devRef .tc ReferenceIdeal.main_v43)) :
    after (KernelIdeal.Gen.hostOps1_1 (F := Ideal)) Vk (Proc.devRef .tc KernelIdeal.main_v43)
      = after (ReferenceIdeal.Hand.opsV1 (F := Ideal)) Vr (Proc.devRef .tc ReferenceIdeal.main_v43) := by
  eval_after
  try simp only [h0]
  try rfl

theorem meanV1 (Vk : Valuation KernelIdeal.τ KernelIdeal.sig (Elt Ideal)) (Vr : Valuation ReferenceIdeal.τ ReferenceIdeal.sig (Elt Ideal))
    (h0 : Vk (Proc.devRef .tc KernelIdeal.main_v46) = Vr (Proc.devRef .tc ReferenceIdeal.main_v46)) :
    after (KernelIdeal.Gen.hostOps1_1 (F := Ideal)) Vk (Proc.devRef .tc KernelIdeal.main_v46)
      = after (ReferenceIdeal.Hand.opsV1 (F := Ideal)) Vr (Proc.devRef .tc ReferenceIdeal.main_v46) := by
  eval_after
  try simp only [h0]
  try rfl

end Cert.Bridge

end
-- ==== Proof.BridgeLayer2.lean ====
/-
  Layer 2's shared host stretches: from equal feature products, equal edge data and an equal bias both programs
  aggregate the same way (gather at the senders, weight, scatter-add at the receivers, add the bias), take the same
  column mean, and the same column variance (the mean of the squared deviations); values no operation of a stretch
  writes pass through it unchanged on both sides.
-/
import proofs.«123362_j807453851682_1_alg».proof.Proof.BridgeTactic

noncomputable section

namespace Cert.Bridge

open Idealize.ShloMosaic Idealize.ShloMosaic.TcCoe Idealize.SL.Sem Idealize.ShloMosaic.StableHlo
open Cert

theorem agg2 (Vk : Valuation KernelIdeal.τ KernelIdeal.sig (Elt Ideal)) (Vr : Valuation ReferenceIdeal.τ ReferenceIdeal.sig (Elt Ideal))
    (h0 : Vk (Proc.devRef .tc KernelIdeal.main_v53) = Vr (Proc.devRef .tc ReferenceIdeal.main_v64))
    (h1 : Vk (Proc.devRef .tc KernelIdeal.main_v5) = Vr (Proc.devRef .tc ReferenceIdeal.main_v5))
    (h2 : Vk (Proc.devRef .tc KernelIdeal.main_v6) = Vr (Proc.devRef .tc ReferenceIdeal.main_v6))
    (h3 : Vk (Proc.devRef .tc KernelIdeal.main_v26) = Vr (Proc.devRef .tc ReferenceIdeal.main_v26))
    (h4 : Vk (Proc.devRef .tc KernelIdeal.main_arg7) = Vr (Proc.devRef .tc ReferenceIdeal.main_arg7)) :
    after (KernelIdeal.Gen.hostOps3 (F := Ideal)) Vk (Proc.devRef .tc KernelIdeal.main_v69)
      = after (ReferenceIdeal.Hand.opsA2 (F := Ideal)) Vr (Proc.devRef .tc ReferenceIdeal.main_v80) := by
  eval_after
  try simp only [h0, h1, h2, h3, h4]
  try rfl

theorem mean2 (Vk : Valuation KernelIdeal.τ KernelIdeal.sig (Elt Ideal)) (Vr : Valuation ReferenceIdeal.τ ReferenceIdeal.sig (Elt Ideal))
    (h0 : Vk (Proc.devRef .tc KernelIdeal.main_v53) = Vr (Proc.devRef .tc ReferenceIdeal.main_v64))
    (h1 : Vk (Proc.devRef .tc KernelIdeal.main_v5) = Vr (Proc.devRef .tc ReferenceIdeal.main_v5))
    (h2 : Vk (Proc.devRef .tc KernelIdeal.main_v6) = Vr (Proc.devRef .tc ReferenceIdeal.main_v6))
    (h3 : Vk (Proc.devRef .tc KernelIdeal.main_v26) = Vr (Proc.devRef .tc ReferenceIdeal.main_v26))
    (h4 : Vk (Proc.devRef .tc KernelIdeal.main_arg7) = Vr (Proc.devRef .tc ReferenceIdeal.main_arg7)) :
    after (KernelIdeal.Gen.hostOps3 (F := Ideal)) Vk (Proc.devRef .tc KernelIdeal.main_v72)
      = after (ReferenceIdeal.Hand.opsA2 (F := Ideal)) Vr (Proc.devRef .tc ReferenceIdeal.main_v83) := by
  eval_after
  try simp only [h0, h1, h2, h3, h4]
  try rfl

theorem cst2 (Vk : Valuation KernelIdeal.τ KernelIdeal.sig (Elt Ideal)) (Vr : Valuation ReferenceIdeal.τ ReferenceIdeal.sig (Elt Ideal))
:
    after (KernelIdeal.Gen.hostOps3 (F := Ideal)) Vk (Proc.devRef .tc KernelIdeal.main_c_15)
      = after (ReferenceIdeal.Hand.opsA2 (F := Ideal)) Vr (Proc.devRef .tc ReferenceIdeal.main_c_16) := by
  eval_after
  skip
  try rfl

theorem var2 (Vk : Valuation KernelIdeal.τ KernelIdeal.sig (Elt Ideal)) (Vr : Valuation ReferenceIdeal.τ ReferenceIdeal.sig (Elt Ideal))
    (h0 : Vk (Proc.devRef .tc KernelIdeal.main_v69) = Vr (Proc.devRef .tc ReferenceIdeal.main_v80))
    (h1 : Vk (Proc.devRef .tc KernelIdeal.main_c_15) = Vr (Proc.devRef .tc ReferenceIdeal.main_c_16)) :
    after (KernelIdeal.Gen.hostOps3_1 (F := Ideal)) Vk (Proc.devRef .tc KernelIdeal.main_v73)
      = after (ReferenceIdeal.Hand.opsV2 (F := Ideal)) Vr (Proc.devRef .tc ReferenceIdeal.main_v84) := by
  eval_after
  try simp only [h0, h1]
  try rfl

theorem aggV2 (Vk : Valuation KernelIdeal.τ KernelIdeal.sig (Elt Ideal)) (Vr : Valuation ReferenceIdeal.τ ReferenceIdeal.sig (Elt Ideal))
    (h0 : Vk (Proc.devRef .tc KernelIdeal.main_v69) = Vr (Proc.devRef .tc ReferenceIdeal.main_v80)) :
    after (KernelIdeal.Gen.hostOps3_1 (F := Ideal)) Vk (Proc.devRef .tc KernelIdeal.main_v69)
      = after (ReferenceIdeal.Hand.opsV2 (F := Ideal)) Vr (Proc.devRef .tc ReferenceIdeal.main_v80) := by
  eval_after
  try simp only [h0]
  try rfl

theorem meanV2 (Vk : Valuation KernelIdeal.τ KernelIdeal.sig (Elt Ideal)) (Vr : Valuation ReferenceIdeal.τ ReferenceIdeal.sig (Elt Ideal))
    (h0 : Vk (Proc.devRef .tc KernelIdeal.main_v72) = Vr (Proc.devRef .tc ReferenceIdeal.main_v83)) :
    after (KernelIdeal.Gen.hostOps3_1 (F := Ideal)) Vk (Proc.devRef .tc KernelIdeal.main_v72)
      = after (ReferenceIdeal.Hand.opsV2 (F := Ideal)) Vr (Proc.devRef .tc ReferenceIdeal.main_v83) := by
  eval_after
  try simp only [h0]
  try rfl

end Cert.Bridge

end
-- ==== Proof.BridgeLayer3.lean ====
/-
  Layer 3's shared host stretches: from equal feature products, equal edge data and an equal bias both programs
  aggregate the same way (gather at the senders, weight, scatter-add at the receivers, add the bias), take the same
  column mean, and the same column variance (the mean of the squared deviations); values no operation of a stretch
  writes pass through it unchanged on both sides.
-/
import proofs.«123362_j807453851682_1_alg».proof.Proof.BridgeTactic

noncomputable section

namespace Cert.Bridge

open Idealize.ShloMosaic Idealize.ShloMosaic.TcCoe Idealize.SL.Sem Idealize.ShloMosaic.StableHlo
open Cert

theorem agg3 (Vk : Valuation KernelIdeal.τ KernelIdeal.sig (Elt Ideal)) (Vr : Valuation ReferenceIdeal.τ ReferenceIdeal.sig (Elt Ideal))
    (h0 : Vk (Proc.devRef .tc KernelIdeal.main_v79) = Vr (Proc.devRef .tc ReferenceIdeal.main_v101))
    (h1 : Vk (Proc.devRef .tc KernelIdeal.main_v5) = Vr (Proc.devRef .tc ReferenceIdeal.main_v5))
    (h2 : Vk (Proc.devRef .tc KernelIdeal.main_v6) = Vr (Proc.devRef .tc ReferenceIdeal.main_v6))
    (h3 : Vk (Proc.devRef .tc KernelIdeal.main_v26) = Vr (Proc.devRef .tc ReferenceIdeal.main_v26))
    (h4 : Vk (Proc.devRef .tc KernelIdeal.main_arg11) = Vr (Proc.devRef .tc ReferenceIdeal.main_arg11)) :
    after (KernelIdeal.Gen.hostOps5 (F := Ideal)) Vk (Proc.devRef .tc KernelIdeal.main_v95)
      = after (ReferenceIdeal.Hand.opsA3 (F := Ideal)) Vr (Proc.devRef .tc ReferenceIdeal.main_v117) := by
  eval_after
  try simp only [h0, h1, h2, h3, h4]
  try rfl

theorem mean3 (Vk : Valuation KernelIdeal.τ KernelIdeal.sig (Elt Ideal)) (Vr : Valuation ReferenceIdeal.τ ReferenceIdeal.sig (Elt Ideal))
    (h0 : Vk (Proc.devRef .tc KernelIdeal.main_v79) = Vr (Proc.devRef .tc ReferenceIdeal.main_v101))
    (h1 : Vk (Proc.devRef .tc KernelIdeal.main_v5) = Vr (Proc.devRef .tc ReferenceIdeal.main_v5))
    (h2 : Vk (Proc.devRef .tc KernelIdeal.main_v6) = Vr (Proc.devRef .tc ReferenceIdeal.main_v6))
    (h3 : Vk (Proc.devRef .tc KernelIdeal.main_v26) = Vr (Proc.devRef .tc ReferenceIdeal.main_v26))
    (h4 : Vk (Proc.devRef .tc KernelIdeal.main_arg11) = Vr (Proc.devRef .tc ReferenceIdeal.main_arg11)) :
    after (KernelIdeal.Gen.hostOps5 (F := Ideal)) Vk (Proc.devRef .tc KernelIdeal.main_v98)
      = after (ReferenceIdeal.Hand.opsA3 (F := Ideal)) Vr (Proc.devRef .tc ReferenceIdeal.main_v120) := by
  eval_after
  try simp only [h0, h1, h2, h3, h4]
  try rfl

theorem cst3 (Vk : Valuation KernelIdeal.τ KernelIdeal.sig (Elt Ideal)) (Vr : Valuation ReferenceIdeal.τ ReferenceIdeal.sig (Elt Ideal))
:
    after (KernelIdeal.Gen.hostOps5 (F := Ideal)) Vk (Proc.devRef .tc KernelIdeal.main_c_21)
      = after (ReferenceIdeal.Hand.opsA3 (F := Ideal)) Vr (Proc.devRef .tc ReferenceIdeal.main_c_23) := by
  eval_after
  skip
  try rfl

theorem var3 (Vk : Valuation KernelIdeal.τ KernelIdeal.sig (Elt Ideal)) (Vr : Valuation ReferenceIdeal.τ ReferenceIdeal.sig (Elt Ideal))
    (h0 : Vk (Proc.devRef .tc KernelIdeal.main_v95) = Vr (Proc.devRef .tc ReferenceIdeal.main_v117))
    (h1 : Vk (Proc.devRef .tc KernelIdeal.main_c_21) = Vr (Proc.devRef .tc ReferenceIdeal.main_c_23)) :
    after (KernelIdeal.Gen.hostOps5_1 (F := Ideal)) Vk (Proc.devRef .tc KernelIdeal.main_v99)
      = after (ReferenceIdeal.Hand.opsV3 (F := Ideal)) Vr (Proc.devRef .tc ReferenceIdeal.main_v121) := by
  eval_after
  try simp only [h0, h1]
  try rfl

theorem aggV3 (Vk : Valuation KernelIdeal.τ KernelIdeal.sig (Elt Ideal)) (Vr : Valuation ReferenceIdeal.τ ReferenceIdeal.sig (Elt Ideal))
    (h0 : Vk (Proc.devRef .tc KernelIdeal.main_v95) = Vr (Proc.devRef .tc ReferenceIdeal.main_v117)) :
    after (KernelIdeal.Gen.hostOps5_1 (F := Ideal)) Vk (Proc.devRef .tc KernelIdeal.main_v95)
      = after (ReferenceIdeal.Hand.opsV3 (F := Ideal)) Vr (Proc.devRef .tc ReferenceIdeal.main_v117) := by
  eval_after
  try simp only [h0]
  try rfl

theorem meanV3 (Vk : Valuation KernelIdeal.τ KernelIdeal.sig (Elt Ideal)) (Vr : Valuation ReferenceIdeal.τ ReferenceIdeal.sig (Elt Ideal))
    (h0 : Vk (Proc.devRef .tc KernelIdeal.main_v98) = Vr (Proc.devRef .tc ReferenceIdeal.main_v120)) :
    after (KernelIdeal.Gen.hostOps5_1 (F := Ideal)) Vk (Proc.devRef .tc KernelIdeal.main_v98)
      = after (ReferenceIdeal.Hand.opsV3 (F := Ideal)) Vr (Proc.devRef .tc ReferenceIdeal.main_v120) := by
  eval_after
  try simp only [h0]
  try rfl

end Cert.Bridge

end
-- ==== Proof.BridgeRef.lean ====
/-
  The reference's own stretches named as functions of what they read: a layer's feature product is the host's
  matrix product, its normalisation-and-rectifier stretch is `Spec.bnHost` of the aggregate, its column statistics
  and the layer's scale and shift, and the classifier's stretch is `Spec.mlpHost`.
-/
import proofs.«123362_j807453851682_1_alg».proof.Proof.BridgeTactic

noncomputable section

namespace Cert.Bridge

open Idealize.ShloMosaic Idealize.ShloMosaic.TcCoe Idealize.SL.Sem Idealize.ShloMosaic.StableHlo
open Cert

theorem refD1 (Vr : Valuation ReferenceIdeal.τ ReferenceIdeal.sig (Elt Ideal)) :
    after (ReferenceIdeal.Hand.opsD1 (F := Ideal)) Vr (Proc.devRef .tc ReferenceIdeal.main_v27)
      = Host.dotGeneral (F := Ideal) (φ₁ := .f32) (φ₂ := .f32) ReferenceIdeal.dot_S50000x128_S128x128_S50000x128_1_0_0_1_n_n none (Vr (Proc.devRef .tc ReferenceIdeal.main_arg0)) (Vr (Proc.devRef .tc ReferenceIdeal.main_arg2)) := by
  eval_after

theorem refB1 (Vr : Valuation ReferenceIdeal.τ ReferenceIdeal.sig (Elt Ideal)) :
    after (ReferenceIdeal.Hand.opsB1 (F := Ideal)) Vr (Proc.devRef .tc ReferenceIdeal.main_v63)
      = ReferenceIdeal.Spec.bnHost (F := Ideal) (Vr (Proc.devRef .tc ReferenceIdeal.main_v43)) (Vr (Proc.devRef .tc ReferenceIdeal.main_v46)) (Vr (Proc.devRef .tc ReferenceIdeal.main_v47)) (Vr (Proc.devRef .tc ReferenceIdeal.main_arg4)) (Vr (Proc.devRef .tc ReferenceIdeal.main_arg5)) := by
  eval_after
  try rfl

theorem refD2 (Vr : Valuation ReferenceIdeal.τ ReferenceIdeal.sig (Elt Ideal)) :
    after (ReferenceIdeal.Hand.opsD2 (F := Ideal)) Vr (Proc.devRef .tc ReferenceIdeal.main_v64)
      = Host.dotGeneral (F := Ideal) (φ₁ := .f32) (φ₂ := .f32) ReferenceIdeal.dot_S50000x128_S128x128_S50000x128_1_0_0_1_n_n none (Vr (Proc.devRef .tc ReferenceIdeal.main_v63)) (Vr (Proc.devRef .tc ReferenceIdeal.main_arg6)) := by
  eval_after

theorem refB2 (Vr : Valuation ReferenceIdeal.τ ReferenceIdeal.sig (Elt Ideal)) :
    after ((ReferenceIdeal.Hand.opsB2a (F := Ideal)) ++ (ReferenceIdeal.Hand.opsB2b (F := Ideal))) Vr (Proc.devRef .tc ReferenceIdeal.main_v100)
      = ReferenceIdeal.Spec.bnHost (F := Ideal) (Vr (Proc.devRef .tc ReferenceIdeal.main_v80)) (Vr (Proc.devRef .tc ReferenceIdeal.main_v83)) (Vr (Proc.devRef .tc ReferenceIdeal.main_v84)) (Vr (Proc.devRef .tc ReferenceIdeal.main_arg8)) (Vr (Proc.devRef .tc ReferenceIdeal.main_arg9)) := by
  eval_after
  try rfl

theorem refD3 (Vr : Valuation ReferenceIdeal.τ ReferenceIdeal.sig (Elt Ideal)) :
    after (ReferenceIdeal.Hand.opsD3 (F := Ideal)) Vr (Proc.devRef .tc ReferenceIdeal.main_v101)
      = Host.dotGeneral (F := Ideal) (φ₁ := .f32) (φ₂ := .f32) ReferenceIdeal.dot_S50000x128_S128x128_S50000x128_1_0_0_1_n_n none (Vr (Proc.devRef .tc ReferenceIdeal.main_v100)) (Vr (Proc.devRef .tc ReferenceIdeal.main_arg10)) := by
  eval_after

theorem refB3 (Vr : Valuation ReferenceIdeal.τ ReferenceIdeal.sig (Elt Ideal)) :
    after (ReferenceIdeal.Hand.opsB3 (F := Ideal)) Vr (Proc.devRef .tc ReferenceIdeal.main_v137)
      = ReferenceIdeal.Spec.bnHost (F := Ideal) (Vr (Proc.devRef .tc ReferenceIdeal.main_v117)) (Vr (Proc.devRef .tc ReferenceIdeal.main_v120)) (Vr (Proc.devRef .tc ReferenceIdeal.main_v121)) (Vr (Proc.devRef .tc ReferenceIdeal.main_arg12)) (Vr (Proc.devRef .tc ReferenceIdeal.main_arg13)) := by
  eval_after
  try rfl

theorem refM (Vr : Valuation ReferenceIdeal.τ ReferenceIdeal.sig (Elt Ideal)) :
    after (ReferenceIdeal.Hand.opsM (F := Ideal)) Vr (Proc.devRef .tc ReferenceIdeal.main_v171)
      = ReferenceIdeal.Spec.mlpHost (F := Ideal) (Vr (Proc.devRef .tc ReferenceIdeal.main_v152)) (Vr (Proc.devRef .tc ReferenceIdeal.main_arg14)) (Vr (Proc.devRef .tc ReferenceIdeal.main_arg15)) (Vr (Proc.devRef .tc ReferenceIdeal.main_arg16)) (Vr (Proc.devRef .tc ReferenceIdeal.main_arg17)) (Vr (Proc.devRef .tc ReferenceIdeal.main_arg18)) (Vr (Proc.devRef .tc ReferenceIdeal.main_arg19)) (Vr (Proc.devRef .tc ReferenceIdeal.main_arg20)) (Vr (Proc.devRef .tc ReferenceIdeal.main_arg21)) := by
  eval_after
  try rfl

end Cert.Bridge

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibProductRows.lean ====
/-
  Rows of a plain matrix product, on the extended reals.

  A vector-unit product of `lb` (`B×K`) with `rb` (`K×N`) into the zero accumulator, read at entry `(p, j)`, and the
  host's `dot_general` of `l` (`M×K`) with `r` (`K×N`), read at entry `(i, j)`, are both the sum over the contracted
  coordinate `k` of a left entry times a right entry. When row `p` of `lb` is row `i` of `l` and column `j` of `rb` is
  column `j` of `r`, the two sums agree term by term: no law of arithmetic is used and nothing need be finite. This is
  the case of a block of consecutive rows of `l` multiplied on the vector unit, against the whole product on the host.
-/
import proofs.«123362_j807453851682_1_alg».proof.Proof.LibPlainDot

noncomputable section

open scoped BigOperators

namespace Cert.Lib.ProductRows

open Idealize.ShloMosaic Idealize.ShloMosaic.ValueIdx

variable {B M K N : ℕ} {φ₁ φ₂ ψ₁ ψ₂ : FTy}

/-- Entry `(p, j)` of the vector-unit product of a block is entry `(i, j)` of the host's whole product, when the block's
    row `p` is the whole left operand's row `i` and the two right operands have the same column `j`. -/
theorem matmul_entry_eq_dotGeneral_entry (prec prec' : Option ContractPrecision) (sched : HostSchedule)
    (lb : FVec Ideal ⟨2, ![B, K]⟩ φ₁) (rb : FVec Ideal ⟨2, ![K, N]⟩ φ₂)
    (l : FVec Ideal ⟨2, ![M, K]⟩ ψ₁) (r : FVec Ideal ⟨2, ![K, N]⟩ ψ₂) (p : Fin B) (i : Fin M) (j : Fin N)
    (hl : ∀ k : Fin K, (lb (ix2 p k) : EReal) = l (ix2 i k)) (hr : ∀ k : Fin K, (rb (ix2 k j) : EReal) = r (ix2 k j)) :
    (FloatOps.matmul (DotDims.plain B K N) prec lb rb (constant ⟨2, ![B, N]⟩ .f32 0x00000000#32) (ix2 p j) : EReal)
      = FloatOps.dotGeneral (DotDims.plain M K N) prec' sched l r (ix2 i j) := by
  rw [Cert.Lib.PlainDot.matmul_zero_apply, Cert.Lib.PlainDot.dotGeneral_apply]
  exact Finset.sum_congr rfl fun k _ => by rw [hl k, hr k]

end Cert.Lib.ProductRows

end
-- ==== Proof.MatmulPoint.lean ====
/-
  The matrix-product kernel's payload at an entry.

  Each of the three product regions multiplies a block of 5000 rows of a `[50000, 128]` matrix by a resident
  `[128, 128]` weight on the vector unit, into the zero accumulator, after narrowing both operands to bf16 — the
  identity on extended reals. Entry `(p, j)` of the block's product is therefore `∑ k, x (p, k) * w (k, j)`, which is
  entry `(i, j)` of the host's whole product of any `[50000, 128]` matrix whose row `i` is the block's row `p`.
-/
import proofs.«123362_j807453851682_1_alg».proof.Proof.Gen.KernelIdeal.Skeleton
import proofs.«123362_j807453851682_1_alg».proof.Proof.Gen.ReferenceIdeal
import proofs.«123362_j807453851682_1_alg».proof.Proof.LibProductRows
import Idealize.ShloMosaic.Lib.Pipeline.Value

noncomputable section

namespace Cert.KernelIdeal.Regions

open Cert.KernelIdeal Idealize.ShloMosaic Idealize.ShloMosaic.ValueIdx

/-- The block's product at `(p, j)` is the whole product at `(i, j)` when the block's row `p` is the matrix's row `i`
    (first product region). -/
theorem k0_pay1_entry (x0 : Vec Ideal S5000x128 .f32) (x1 : Vec Ideal S128x128 .f32)
    (l : FVec Ideal Cert.ReferenceIdeal.S50000x128 .f32) (r : FVec Ideal Cert.ReferenceIdeal.S128x128 .f32)
    (p : Fin 5000) (i : Fin 50000) (j : Fin 128)
    (hl : ∀ k : Fin 128, (x0 (ix2 p k) : EReal) = l (ix2 i k)) (hr : ∀ k : Fin 128, (x1 (ix2 k j) : EReal) = r (ix2 k j)) :
    (Gen.k0_pay1 (F := Ideal) x0 x1 (ix2 p j) : EReal)
      = Host.dotGeneral (F := Ideal) Cert.ReferenceIdeal.dot_S50000x128_S128x128_S50000x128_1_0_0_1_n_n none l r (ix2 i j) := by
  unfold Gen.k0_pay1
  exact Cert.Lib.ProductRows.matmul_entry_eq_dotGeneral_entry (B := 5000) (M := 50000) (K := 128) (N := 128) none none .single
    (truncf .bf16 x0 _) (truncf .bf16 x1 _) l r p i j hl hr

/-- The same for the second product region, whose payload first reshapes the block to its own shape (the identity). -/
theorem k2_pay1_entry (x0 : Vec Ideal S5000x128 .f32) (x1 : Vec Ideal S128x128 .f32)
    (l : FVec Ideal Cert.ReferenceIdeal.S50000x128 .f32) (r : FVec Ideal Cert.ReferenceIdeal.S128x128 .f32)
    (p : Fin 5000) (i : Fin 50000) (j : Fin 128)
    (hl : ∀ k : Fin 128, (x0 (ix2 p k) : EReal) = l (ix2 i k)) (hr : ∀ k : Fin 128, (x1 (ix2 k j) : EReal) = r (ix2 k j)) :
    (Gen.k2_pay1 (F := Ideal) x0 x1 (ix2 p j) : EReal)
      = Host.dotGeneral (F := Ideal) Cert.ReferenceIdeal.dot_S50000x128_S128x128_S50000x128_1_0_0_1_n_n none l r (ix2 i j) := by
  unfold Gen.k2_pay1
  exact Cert.Lib.ProductRows.matmul_entry_eq_dotGeneral_entry (B := 5000) (M := 50000) (K := 128) (N := 128) none none .single
    (truncf .bf16 (shapeCast S5000x128 x0 _) _) (truncf .bf16 x1 _) l r p i j
    (fun k => (congrFun (shapeCast_self x0 _) (ix2 p k)).trans (hl k)) hr

/-- The same for the third product region, whose payload first reshapes the block to its own shape (the identity). -/
theorem k4_pay1_entry (x0 : Vec Ideal S5000x128 .f32) (x1 : Vec Ideal S128x128 .f32)
    (l : FVec Ideal Cert.ReferenceIdeal.S50000x128 .f32) (r : FVec Ideal Cert.ReferenceIdeal.S128x128 .f32)
    (p : Fin 5000) (i : Fin 50000) (j : Fin 128)
    (hl : ∀ k : Fin 128, (x0 (ix2 p k) : EReal) = l (ix2 i k)) (hr : ∀ k : Fin 128, (x1 (ix2 k j) : EReal) = r (ix2 k j)) :
    (Gen.k4_pay1 (F := Ideal) x0 x1 (ix2 p j) : EReal)
      = Host.dotGeneral (F := Ideal) Cert.ReferenceIdeal.dot_S50000x128_S128x128_S50000x128_1_0_0_1_n_n none l r (ix2 i j) := by
  unfold Gen.k4_pay1
  exact Cert.Lib.ProductRows.matmul_entry_eq_dotGeneral_entry (B := 5000) (M := 50000) (K := 128) (N := 128) none none .single
    (truncf .bf16 (shapeCast S5000x128 x0 _) _) (truncf .bf16 x1 _) l r p i j
    (fun k => (congrFun (shapeCast_self x0 _) (ix2 p k)).trans (hl k)) hr

end Cert.KernelIdeal.Regions

end
-- ==== Proof.BlockOffset.lean ====
/-
  Every window of the six product and normalisation regions is loaded and stored whole, from offset `(0, 0)` of its
  staging buffer; the generated frame spells that offset `![0, 0]`, the library's lemmas about a whole read or write
  want the constant-zero function.
-/
import Idealize.ShloMosaic.Lib.ValueIdx

namespace Cert.KernelIdeal.Regions

/-- The offset `(0, 0)` is the zero offset. -/
theorem offset_zero : (![0, 0] : Fin 2 → Nat) = fun _ => 0 := funext fun a => by fin_cases a <;> rfl

end Cert.KernelIdeal.Regions
-- ==== Proof.MatmulRegion0.lean ====
/-
  The first matrix-product region, from blocks to the array.

  The region runs over a grid of 10 points; point `t` reads rows `5000 t … 5000 t + 4999` of the `[50000, 128]` input
  (window 0), the whole `[128, 128]` weight (window 1), and writes the same rows of the `[50000, 128]` output
  (window 2) with the block's product. By the payload's entry lemma each written entry is the corresponding entry of
  the host's product of the whole input by the weight; the ten blocks tile the output (the point covering row `r` is
  `r / 5000`), so after the region the output array IS that whole product.
-/
import proofs.«123362_j807453851682_1_alg».proof.Proof.Gen.KernelIdeal.Frame
import proofs.«123362_j807453851682_1_alg».proof.Proof.MatmulPoint
import proofs.«123362_j807453851682_1_alg».proof.Proof.BlockOffset
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: point `t` takes block `(t, 0)` of the input and of the output, and the one
    block `(0, 0)` of the weight. -/
theorem mm0_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The host's product of the region's whole input by its weight, as the region finds them. -/
abbrev mm0_product (c : Dev nD) : FVec Ideal Cert.ReferenceIdeal.S50000x128 .f32 :=
  Host.dotGeneral (F := Ideal) (φ₁ := .f32) (φ₂ := .f32) Cert.ReferenceIdeal.dot_S50000x128_S128x128_S50000x128_1_0_0_1_n_n none
    (V c (Pipeline.arrRef spec0 0)) (V c (Pipeline.arrRef spec0 1))

/-- What point `t` writes back is rows `5000 t …` of the whole product. -/
theorem mm0_flushed (c : Dev nD) (t : Fin cfg0.N) :
    (dat0 (F := Ideal) V c).flushed 2 t = ((cfg0.win 2).blk t).view.read (Elt Ideal) (mm0_product V c) := by
  show (cfg0.win 2).cut (grid0.coords t) ((dat0 V c).after 2 t) = _
  rw [after0_2]
  unfold out0_2
  rw [View.canon_unit_zero offset_zero]
  simp only [View.ld_unit_zero (S := S5000x128) offset_zero, View.ld_unit_zero (S := S128x128) offset_zero]
  funext y
  obtain ⟨p, q, rfl⟩ : ∃ (p : Fin 5000) (q : Fin 128), y = ix2 p q := ⟨y 0, y 1, eq_ix2 y⟩
  obtain ⟨e00, e01, e10, e11, e20, e21⟩ := mm0_index t
  have ht : t.val < 10 := lt_of_lt_of_eq t.isLt N_0
  have hrow : t.val * 5000 + p.val < 50000 := by have := p.isLt; omega
  -- the output block's entry (p, q) is the array's entry (5000 t + p, q)
  have hemb : ((cfg0.win 2).blk t).view.emb (ix2 p q) = ix2 (⟨t.val * 5000 + p.val, hrow⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  show k0_pay1 (iblk0 V c 0 t) (iblk0 V c 1 t) (ix2 p q) = mm0_product V c (((cfg0.win 2).blk t).view.emb (ix2 p q))
  rw [hemb]
  refine k0_pay1_entry (iblk0 V c 0 t) (iblk0 V c 1 t) (V c (Pipeline.arrRef spec0 0)) (V c (Pipeline.arrRef spec0 1)) p
    ⟨t.val * 5000 + p.val, hrow⟩ q (fun k => ?_) (fun k => ?_)
  · -- the input block's row p is the array's row 5000 t + p
    show V c (Pipeline.arrRef spec0 0) (((cfg0.win 0).blk t).view.emb (ix2 p k))
      = V c (Pipeline.arrRef spec0 0) (ix2 (⟨t.val * 5000 + p.val, hrow⟩ : Fin 50000) k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · -- the weight's one block is the weight
    show V c (Pipeline.arrRef spec0 1) (((cfg0.win 1).blk t).view.emb (ix2 k q)) = V c (Pipeline.arrRef spec0 1) (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega

/-- An index of the output array is in point `t`'s block iff each coordinate is in the block's range on its axis. -/
theorem mm0_mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v27).slice (win0_2.rect t)).set ↔ _
  rw [View.set_slice_whole, Rect.mem_set_unit]
  exact Iff.rfl

/-- Every index of the output array is in the block of the point `row / 5000`. -/
theorem mm0_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega : (i 0).val / 5000 < 10) N_0.symm⟩, rfl⟩
  refine ⟨t, flush0_2 t, ?_⟩
  rw [mm0_mem_blk]
  obtain ⟨-, -, -, -, e20, e21⟩ := mm0_index t
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- After the first product region its output array is the host's product of its whole input by its weight. -/
theorem mm0 (c : Dev nD) :
    (dat0 (F := Ideal) V c).arrAt 2 cfg0.N
      = Host.dotGeneral (F := Ideal) (φ₁ := .f32) (φ₂ := .f32) Cert.ReferenceIdeal.dot_S50000x128_S128x128_S50000x128_1_0_0_1_n_n none
          (V c (Pipeline.arrRef spec0 0)) (V c (Pipeline.arrRef spec0 1)) :=
  (dat0 V c).arrAt_eq_of_cover 2 (mm0_product V c) (fun t _ => mm0_flushed V c t) mm0_cover

end Cert.KernelIdeal.Regions

end
-- ==== Proof.MatmulRegion2.lean ====
/-
  The second matrix-product region, from blocks to the array.

  The region runs over a grid of 10 points; point `t` reads rows `5000 t … 5000 t + 4999` of the `[50000, 128]` input
  (window 0), the whole `[128, 128]` weight (window 1), and writes the same rows of the `[50000, 128]` output
  (window 2) with the block's product. By the payload's entry lemma each written entry is the corresponding entry of
  the host's product of the whole input by the weight; the ten blocks tile the output (the point covering row `r` is
  `r / 5000`), so after the region the output array IS that whole product.
-/
import proofs.«123362_j807453851682_1_alg».proof.Proof.Gen.KernelIdeal.Frame
import proofs.«123362_j807453851682_1_alg».proof.Proof.MatmulPoint
import proofs.«123362_j807453851682_1_alg».proof.Proof.BlockOffset
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: point `t` takes block `(t, 0)` of the input and of the output, and the one
    block `(0, 0)` of the weight. -/
theorem mm2_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The host's product of the region's whole input by its weight, as the region finds them. -/
abbrev mm2_product (c : Dev nD) : FVec Ideal Cert.ReferenceIdeal.S50000x128 .f32 :=
  Host.dotGeneral (F := Ideal) (φ₁ := .f32) (φ₂ := .f32) Cert.ReferenceIdeal.dot_S50000x128_S128x128_S50000x128_1_0_0_1_n_n none
    (V c (Pipeline.arrRef spec2 0)) (V c (Pipeline.arrRef spec2 1))

/-- What point `t` writes back is rows `5000 t …` of the whole product. -/
theorem mm2_flushed (c : Dev nD) (t : Fin cfg2.N) :
    (dat2 (F := Ideal) V c).flushed 2 t = ((cfg2.win 2).blk t).view.read (Elt Ideal) (mm2_product V c) := by
  show (cfg2.win 2).cut (grid2.coords t) ((dat2 V c).after 2 t) = _
  rw [after2_2]
  unfold out2_2
  rw [View.canon_unit_zero offset_zero]
  simp only [View.ld_unit_zero (S := S5000x128) offset_zero, View.ld_unit_zero (S := S128x128) offset_zero]
  funext y
  obtain ⟨p, q, rfl⟩ : ∃ (p : Fin 5000) (q : Fin 128), y = ix2 p q := ⟨y 0, y 1, eq_ix2 y⟩
  obtain ⟨e00, e01, e10, e11, e20, e21⟩ := mm2_index t
  have ht : t.val < 10 := lt_of_lt_of_eq t.isLt N_2
  have hrow : t.val * 5000 + p.val < 50000 := by have := p.isLt; omega
  -- the output block's entry (p, q) is the array's entry (5000 t + p, q)
  have hemb : ((cfg2.win 2).blk t).view.emb (ix2 p q) = ix2 (⟨t.val * 5000 + p.val, hrow⟩ : Fin 50000) q := by
    funext a; apply Fin.ext
    match a with
    | ⟨0, _⟩ => show win2_2.index t (0 : Fin 2) * 5000 + 1 * p.val = t.val * 5000 + p.val; omega
    | ⟨1, _⟩ => show win2_2.index t (1 : Fin 2) * 128 + 1 * q.val = q.val; omega
  show k2_pay1 (iblk2 V c 0 t) (iblk2 V c 1 t) (ix2 p q) = mm2_product V c (((cfg2.win 2).blk t).view.emb (ix2 p q))
  rw [hemb]
  refine k2_pay1_entry (iblk2 V c 0 t) (iblk2 V c 1 t) (V c (Pipeline.arrRef spec2 0)) (V c (Pipeline.arrRef spec2 1)) p
    ⟨t.val * 5000 + p.val, hrow⟩ q (fun k => ?_) (fun k => ?_)
  · -- the input block's row p is the array's row 5000 t + p
    show V c (Pipeline.arrRef spec2 0) (((cfg2.win 0).blk t).view.emb (ix2 p k))
      = V c (Pipeline.arrRef spec2 0) (ix2 (⟨t.val * 5000 + p.val, hrow⟩ : Fin 50000) k)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · -- the weight's one block is the weight
    show V c (Pipeline.arrRef spec2 1) (((cfg2.win 1).blk t).view.emb (ix2 k q)) = V c (Pipeline.arrRef spec2 1) (ix2 k q)
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega

/-- An index of the output array is in point `t`'s block iff each coordinate is in the block's range on its axis. -/
theorem mm2_mem_blk (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v53).slice (win2_2.rect t)).set ↔ _
  rw [View.set_slice_whole, Rect.mem_set_unit]
  exact Iff.rfl

/-- Every index of the output array is in the block of the point `row / 5000`. -/
theorem mm2_cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, lt_of_lt_of_eq (by omega : (i 0).val / 5000 < 10) N_2.symm⟩, rfl⟩
  refine ⟨t, flush2_2 t, ?_⟩
  rw [mm2_mem_blk]
  obtain ⟨-, -, -, -, e20, e21⟩ := mm2_index t
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- After the second product region its output array is the host's product of its whole input by its weight. -/
theorem mm2 (c : Dev nD) :
    (dat2 (F := Ideal) V c).arrAt 2 cfg2.N
      = Host.dotGeneral (F := Ideal) (φ₁ := .f32) (φ₂ := .f32) Cert.ReferenceIdeal.dot_S50000x128_S128x128_S50000x128_1_0_0_1_n_n none
          (V c (Pipeline.arrRef spec2 0)) (V c (Pipeline.arrRef spec2 1)) :=
  (dat2 V c).arrAt_eq_of_cover 2 (mm2_product V c) (fun t _ => mm2_flushed V c t) mm2_cover

end Cert.KernelIdeal.Regions

end
-- ==== Proof.MatmulRegion4.lean ====
/-
  The third matrix-product region, from blocks to the array.

  The region runs over a grid of 10 points; point `t` reads rows `5000 t … 5000 t + 4999` of the `[50000, 128]` input
  (window 0), the whole `[128, 128]` weight (window 1), and writes the same rows of the `[50000, 128]` output
  (window 2) with the block's product. By the payload's entry lemma each written entry is the corresponding entry of
  the host's product of the whole input by the weight; the ten blocks tile the output (the point covering row `r` is
  `r / 5000`), so after the region the output array IS that whole product.
-/
import proofs.«123362_j807453851682_1_alg».proof.Proof.Gen.KernelIdeal.Frame
import proofs.«123362_j807453851682_1_alg».proof.Proof.MatmulPoint
import proofs.«123362_j807453851682_1_alg».proof.Proof.BlockOffset
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: point `t` takes block `(t, 0)` of the input and of the output, and the one
    block `(0, 0)` of the weight. -/
theorem mm4_index : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The host's product of the region's whole input by its weight, as the region finds them. -/
abbrev mm4_product (c : Dev nD) : FVec Ideal Cert.ReferenceIdeal.S50000x128 .f32 :=
  Host.dotGeneral (F := Ideal) (φ₁ := .f32) (φ₂ := .f32) Cert.ReferenceIdeal.dot_S50000x128_S128x128_S50000x128_1_0_0_1_n_n none
    (V c (Pipeline.arrRef spec4 0)) (V c (Pipeline.arrRef spec4 1))

/-- What point `t` writes back is rows `5000 t …` of the whole product. -/
theorem mm4_flushed (c : Dev nD) (t : Fin cfg4.N) :
    (dat4 (F := Ideal) V c).flushed 2 t = ((cfg4.win 2).blk t).view.read (Elt Ideal) (mm4_product V c) := by
  show (cfg4.win 2).cut (grid4.coords t) ((dat4 V c).after 2 t) = _
  rw [after4_2]
  unfold out4_2
  rw [View.canon_unit_zero offset_zero]
  simp only [View.ld_unit_zero (S := S5000x128) offset_zero, View.ld_unit_zero (S := S128x128) offset_zero]
  funext y
  obtain ⟨p, q, rfl⟩ : ∃ (p : Fin 5000) (q : Fin 128), y = ix2 p q := ⟨y 0, y 1, eq_ix2 y⟩
  obtain ⟨e00, e01, e10, e11, e20, e21⟩ := mm4_index t
  have ht : t.val < 10 := lt_of_lt_of_eq t.isLt N_4
  have hrow : t.val * 5000 + p.val < 50000 := by have := p.isLt; omega
  -- the output block's entry (p, q) is the array's entry (5000 t + p, q)
  have hemb : ((cfg4.win 2).blk t).view.emb (ix2 p q) = ix2 (⟨t.val * 5000 + p.val, hrow⟩ : Fin 50000) q := by
    funext a; apply Fin.ext
    match a with
    | ⟨0, _⟩ => show win4_2.index t (0 : Fin 2) * 5000 + 1 * p.val = t.val * 5000 + p.val; omega
    | ⟨1, _⟩ => show win4_2.index t (1 : Fin 2) * 128 + 1 * q.val = q.val; omega
  show k4_pay1 (iblk4 V c 0 t) (iblk4 V c 1 t) (ix2 p q) = mm4_product V c (((cfg4.win 2).blk t).view.emb (ix2 p q))
  rw [hemb]
  refine k4_pay1_entry (iblk4 V c 0 t) (iblk4 V c 1 t) (V c (Pipeline.arrRef spec4 0)) (V c (Pipeline.arrRef spec4 1)) p
    ⟨t.val * 5000 + p.val, hrow⟩ q (fun k => ?_) (fun k => ?_)
  · -- the input block's row p is the array's row 5000 t + p
    show V c (Pipeline.arrRef spec4 0) (((cfg4.win 0).blk t).view.emb (ix2 p k))
      = V c (Pipeline.arrRef spec4 0) (ix2 (⟨t.val * 5000 + p.val, hrow⟩ : Fin 50000) k)
    refine congrArg _ (funext fun a => Fin.ext ?_)
    match a with
    | ⟨0, _⟩ => show win4_0.index t (0 : Fin 2) * 5000 + 1 * p.val = t.val * 5000 + p.val; omega
    | ⟨1, _⟩ => show win4_0.index t (1 : Fin 2) * 128 + 1 * k.val = k.val; omega
  · -- the weight's one block is the weight
    show V c (Pipeline.arrRef spec4 1) (((cfg4.win 1).blk t).view.emb (ix2 k q)) = V c (Pipeline.arrRef spec4 1) (ix2 k q)
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * q.val = q.val; omega

/-- An index of the output array is in point `t`'s block iff each coordinate is in the block's range on its axis. -/
theorem mm4_mem_blk (t : Fin cfg4.N) (i : S50000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v79).slice (win4_2.rect t)).set ↔ _
  rw [View.set_slice_whole, Rect.mem_set_unit]
  exact Iff.rfl

/-- Every index of the output array is in the block of the point `row / 5000`. -/
theorem mm4_cover (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ : ∃ t : Fin cfg4.N, t.val = (i 0).val / 5000 :=
    ⟨⟨(i 0).val / 5000, lt_of_lt_of_eq (by omega : (i 0).val / 5000 < 10) N_4.symm⟩, rfl⟩
  refine ⟨t, flush4_2 t, ?_⟩
  rw [mm4_mem_blk]
  obtain ⟨-, -, -, -, e20, e21⟩ := mm4_index t
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 128 ≤ (i 1).val ∧ (i 1).val < win4_2.index t (1 : Fin 2) * 128 + 128
    omega

/-- After the third product region its output array is the host's product of its whole input by its weight. -/
theorem mm4 (c : Dev nD) :
    (dat4 (F := Ideal) V c).arrAt 2 cfg4.N
      = Host.dotGeneral (F := Ideal) (φ₁ := .f32) (φ₂ := .f32) Cert.ReferenceIdeal.dot_S50000x128_S128x128_S50000x128_1_0_0_1_n_n none
          (V c (Pipeline.arrRef spec4 0)) (V c (Pipeline.arrRef spec4 1)) :=
  (dat4 V c).arrAt_eq_of_cover 2 (mm4_product V c) (fun t _ => mm4_flushed V c t) mm4_cover

end Cert.KernelIdeal.Regions

end
-- ==== Proof.MatmulRegion.lean ====
/-
  The three matrix-product regions: after region `K` (`K` = 0, 2, 4) its output array is the host's product of its
  whole `[50000, 128]` input by its `[128, 128]` weight — `mm0`, `mm2`, `mm4`, one module each.
-/
import proofs.«123362_j807453851682_1_alg».proof.Proof.MatmulRegion0
import proofs.«123362_j807453851682_1_alg».proof.Proof.MatmulRegion2
import proofs.«123362_j807453851682_1_alg».proof.Proof.MatmulRegion4
-- ==== Proof.BnPoint.lean ====
/-
  The batch-normalisation kernel's payload at an entry.

  Each of the three normalisation regions takes a block `x` of 5000 rows and four resident `[1, 128]` rows — mean,
  variance, scale, shift — and stores `max (((x - mean) * rsqrt (var + eps)) * scale + shift, 0)`, each row spread over
  the block's rows; `eps` is added and the reciprocal square root taken on the `[1, 128]` row before it is spread. All
  of it is pointwise: entry `(p, q)` depends on `x (p, q)` and on the four rows at `(0, q)` only.
-/
import proofs.«123362_j807453851682_1_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.Regions

open Cert.KernelIdeal Idealize.ShloMosaic Idealize.ShloMosaic.ValueIdx

/-- The normalised, scaled, shifted and rectified value at one entry, from the entry of `x` and the four column
    statistics at that entry's column. -/
def bnAt (x mean var g beta : EReal) : EReal :=
  max ((x - mean) * Ideal.rsqrt (var + Ideal.ofBits .f32 0x3727C5AC#32) * g + beta) (Ideal.ofBits .f32 0x00000000#32)

/-- The first normalisation region's payload at entry `(p, q)`. -/
theorem k1_pay1_entry (x0 : Vec Ideal S5000x128 .f32) (r1 r2 r3 r4 : Vec Ideal S1x128 .f32) (p : Fin 5000) (q : Fin 128) :
    (Gen.k1_pay1 (F := Ideal) x0 r1 r2 r3 r4 (ix2 p q) : EReal)
      = bnAt (x0 (ix2 p q)) (r1 (ix2 (0 : Fin 1) q)) (r2 (ix2 (0 : Fin 1) q)) (r3 (ix2 (0 : Fin 1) q)) (r4 (ix2 (0 : Fin 1) q)) := by
  unfold Gen.k1_pay1 bnAt
  simp only [shapeCast_self]
  rw [maximumf_apply, addf_apply, mulf_apply, mulf_apply, subf_apply,
    broadcastTo_1b_ab_apply, broadcastTo_1b_ab_apply, broadcastTo_1b_ab_apply, broadcastTo_1b_ab_apply]
  rfl

/-- The second normalisation region's payload at entry `(p, q)`: the same expression. -/
theorem k3_pay1_entry (x0 : Vec Ideal S5000x128 .f32) (r1 r2 r3 r4 : Vec Ideal S1x128 .f32) (p : Fin 5000) (q : Fin 128) :
    (Gen.k3_pay1 (F := Ideal) x0 r1 r2 r3 r4 (ix2 p q) : EReal)
      = bnAt (x0 (ix2 p q)) (r1 (ix2 (0 : Fin 1) q)) (r2 (ix2 (0 : Fin 1) q)) (r3 (ix2 (0 : Fin 1) q)) (r4 (ix2 (0 : Fin 1) q)) := by
  unfold Gen.k3_pay1 bnAt
  simp only [shapeCast_self]
  rw [maximumf_apply, addf_apply, mulf_apply, mulf_apply, subf_apply,
    broadcastTo_1b_ab_apply, broadcastTo_1b_ab_apply, broadcastTo_1b_ab_apply, broadcastTo_1b_ab_apply]
  rfl

/-- The third normalisation region's payload at entry `(p, q)`: the same expression. -/
theorem k5_pay1_entry (x0 : Vec Ideal S5000x128 .f32) (r1 r2 r3 r4 : Vec Ideal S1x128 .f32) (p : Fin 5000) (q : Fin 128) :
    (Gen.k5_pay1 (F := Ideal) x0 r1 r2 r3 r4 (ix2 p q) : EReal)
      = bnAt (x0 (ix2 p q)) (r1 (ix2 (0 : Fin 1) q)) (r2 (ix2 (0 : Fin 1) q)) (r3 (ix2 (0 : Fin 1) q)) (r4 (ix2 (0 : Fin 1) q)) := by
  unfold Gen.k5_pay1 bnAt
  simp only [shapeCast_self]
  rw [maximumf_apply, addf_apply, mulf_apply, mulf_apply, subf_apply,
    broadcastTo_1b_ab_apply, broadcastTo_1b_ab_apply, broadcastTo_1b_ab_apply, broadcastTo_1b_ab_apply]
  rfl

/-- A `[1, 128]` row that is a `[128]` vector given a unit row axis reads, at `(0, q)`, the vector at `q`. -/
theorem row_eq_of_reshape (r : Vec Ideal S1x128 .f32) (v : FVec Ideal S128 .f32)
    (h : r = shapeCast S1x128 v Facts₀.shapeCasts_S128_S1x128) (q : Fin 128) :
    (r (ix2 (0 : Fin 1) q) : EReal) = v (ix1 q) :=
  (congrFun h (ix2 (0 : Fin 1) q)).trans (shapeCast_a_1a_apply v Facts₀.shapeCasts_S128_S1x128 (0 : Fin 1) q)

end Cert.KernelIdeal.Regions

end
-- ==== Proof.LibRowBroadcast.lean ====
/-
  The host's broadcasts of a vector over the rows of a matrix, read at an entry.

  A `[b]` vector is first given a unit row axis, `[b] → [1, b]` (`broadcast_in_dim` sending the vector's axis to axis 1),
  and the one row is then repeated down the rows, `[1, b] → [a, b]` (`broadcast_in_dim` sending axes 0, 1 to 0, 1). At
  entry `(p, c)` the first reads the vector at `c`, the second reads the row at `(0, c)`; so the composite reads the
  vector at the entry's column.
-/
import Idealize.ShloMosaic.Lib.ValueIdx
import Idealize.ShloMosaic.Lib.Pipeline.Value

namespace Cert.Lib.RowBroadcast

open Idealize.ShloMosaic Idealize.ShloMosaic.ValueIdx

variable {α : Type}

/-- A `[b]` vector laid out as the one row of a `[1, b]` matrix reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- The one row of a `[1, b]` matrix repeated down `a` rows reads, at `(p, c)`, the row at `(0, c)`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

end Cert.Lib.RowBroadcast
-- ==== Proof.BnHostPoint.lean ====
/-
  The reference's batch normalisation at an entry.

  The reference computes `max (((x - mean) * rsqrt (var + eps)) * g + beta, 0)` on `[50000, 128]` arrays: each `[128]`
  vector is given a unit row axis and repeated down the 50000 rows; `eps` is added and the reciprocal square root
  taken on the `[128]` vector before it is spread. Read at entry `(i, q)` this is the same pointwise expression as the
  kernel's payload, of `x (i, q)` and the four vectors at `q`.
-/
import proofs.«123362_j807453851682_1_alg».proof.Proof.Spec
import proofs.«123362_j807453851682_1_alg».proof.Proof.BnPoint
import proofs.«123362_j807453851682_1_alg».proof.Proof.LibRowBroadcast
import Idealize.ShloMosaic.Lib.IdealHost

noncomputable section

namespace Cert.KernelIdeal.Regions

open Idealize.ShloMosaic Idealize.ShloMosaic.ValueIdx Cert.Lib.RowBroadcast

/-- The reference's normalisation at entry `(i, q)`. -/
theorem bnHost_entry (x : FVec Ideal Cert.ReferenceIdeal.S50000x128 .f32) (mean var g beta : FVec Ideal Cert.ReferenceIdeal.S128 .f32)
    (i : Fin 50000) (q : Fin 128) :
    (Cert.ReferenceIdeal.Spec.bnHost (F := Ideal) x mean var g beta (ix2 i q) : EReal)
      = bnAt (x (ix2 i q)) (mean (ix1 q)) (var (ix1 q)) (g (ix1 q)) (beta (ix1 q)) := by
  unfold Cert.ReferenceIdeal.Spec.bnHost bnAt
  rw [maximumf_apply, addf_apply, mulf_apply, mulf_apply, subf_apply,
    broadcastInDim_1b_ab_apply, broadcastInDim_1b_ab_apply, broadcastInDim_1b_ab_apply, broadcastInDim_1b_ab_apply,
    broadcastInDim_b_1b_apply, broadcastInDim_b_1b_apply, broadcastInDim_b_1b_apply, broadcastInDim_b_1b_apply,
    broadcastInDim_scalar_apply]
  rfl

end Cert.KernelIdeal.Regions

end
-- ==== Proof.BnRegion1.lean ====
/-
  The first batch-normalisation region, from blocks to the array.

  The region runs over a grid of 10 points; point `t` reads rows `5000 t … 5000 t + 4999` of the `[50000, 128]` input
  (window 0) and the four resident `[1, 128]` rows — mean, variance, scale, shift (windows 1–4) — and writes the same
  rows of the `[50000, 128]` output (window 5). When the four rows are `[128]` vectors given a unit row axis, each
  written entry is the reference's normalisation of the whole input at that entry (both are one pointwise expression
  of the input's entry and the four vectors at its column); the ten blocks tile the output (the point covering row
  `r` is `r / 5000`), so after the region the output array IS the reference's normalisation of the whole input.
-/
import proofs.«123362_j807453851682_1_alg».proof.Proof.Gen.KernelIdeal.Frame
import proofs.«123362_j807453851682_1_alg».proof.Proof.Spec
import proofs.«123362_j807453851682_1_alg».proof.Proof.BnPoint
import proofs.«123362_j807453851682_1_alg».proof.Proof.BnHostPoint
import proofs.«123362_j807453851682_1_alg».proof.Proof.BlockOffset
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: point `t` takes block `(t, 0)` of the input and of the output, and the one
    block `(0, 0)` of each of the four rows. -/
theorem bn1_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A resident row's one block, read at `(0, q)`, is the row's array at `(0, q)`. -/
theorem bn1_row (c : Dev nD) (t : Fin cfg1.N) (q : Fin 128) :
    (iblk1 V c 1 t (ix2 (0 : Fin 1) q) : EReal) = V c (Pipeline.arrRef spec1 1) (ix2 (0 : Fin 1) q)
    ∧ (iblk1 V c 2 t (ix2 (0 : Fin 1) q) : EReal) = V c (Pipeline.arrRef spec1 2) (ix2 (0 : Fin 1) q)
    ∧ (iblk1 V c 3 t (ix2 (0 : Fin 1) q) : EReal) = V c (Pipeline.arrRef spec1 3) (ix2 (0 : Fin 1) q)
    ∧ (iblk1 V c 4 t (ix2 (0 : Fin 1) q) : EReal) = V c (Pipeline.arrRef spec1 4) (ix2 (0 : Fin 1) q) := by
  obtain ⟨-, -, e10, e11, e20, e21, e30, e31, e40, e41, -, -⟩ := bn1_index t
  refine ⟨?_, ?_, ?_, ?_⟩
  · show V c (Pipeline.arrRef spec1 1) (((cfg1.win 1).blk t).view.emb (ix2 (0 : Fin 1) q)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · show V c (Pipeline.arrRef spec1 2) (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · show V c (Pipeline.arrRef spec1 3) (((cfg1.win 3).blk t).view.emb (ix2 (0 : Fin 1) q)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  · show V c (Pipeline.arrRef spec1 4) (((cfg1.win 4).blk t).view.emb (ix2 (0 : Fin 1) q)) = _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega

section
variable (c : Dev nD) (mean var g beta : FVec Ideal S128 .f32)
  (hm : V c (Pipeline.arrRef spec1 1) = shapeCast S1x128 mean Facts₀.shapeCasts_S128_S1x128)
  (hv : V c (Pipeline.arrRef spec1 2) = shapeCast S1x128 var Facts₀.shapeCasts_S128_S1x128)
  (hg : V c (Pipeline.arrRef spec1 3) = shapeCast S1x128 g Facts₀.shapeCasts_S128_S1x128)
  (hb : V c (Pipeline.arrRef spec1 4) = shapeCast S1x128 beta Facts₀.shapeCasts_S128_S1x128)
include hm hv hg hb

/-- Each resident row's block at `(0, q)` is its vector at `q`. -/
theorem bn1_rows (t : Fin cfg1.N) (q : Fin 128) :
    (iblk1 V c 1 t (ix2 (0 : Fin 1) q) : EReal) = mean (ix1 q)
    ∧ (iblk1 V c 2 t (ix2 (0 : Fin 1) q) : EReal) = var (ix1 q)
    ∧ (iblk1 V c 3 t (ix2 (0 : Fin 1) q) : EReal) = g (ix1 q)
    ∧ (iblk1 V c 4 t (ix2 (0 : Fin 1) q) : EReal) = beta (ix1 q) := by
  obtain ⟨h1, h2, h3, h4⟩ := bn1_row V c t q
  exact ⟨h1.trans (row_eq_of_reshape (V c (Pipeline.arrRef spec1 1)) mean hm q),
    h2.trans (row_eq_of_reshape (V c (Pipeline.arrRef spec1 2)) var hv q),
    h3.trans (row_eq_of_reshape (V c (Pipeline.arrRef spec1 3)) g hg q),
    h4.trans (row_eq_of_reshape (V c (Pipeline.arrRef spec1 4)) beta hb q)⟩

/-- What point `t` writes back is rows `5000 t …` of the reference's normalisation of the whole input. -/
theorem bn1_flushed (t : Fin cfg1.N) :
    (dat1 (F := Ideal) V c).flushed 5 t = ((cfg1.win 5).blk t).view.read (Elt Ideal)
      (Cert.ReferenceIdeal.Spec.bnHost (F := Ideal) (V c (Pipeline.arrRef spec1 0)) mean var g beta) := by
  show (cfg1.win 5).cut (grid1.coords t) ((dat1 V c).after 5 t) = _
  rw [after1_5]
  unfold out1_5
  rw [View.canon_unit_zero offset_zero]
  simp only [View.ld_unit_zero (S := S5000x128) offset_zero, View.ld_unit_zero (S := S1x128) offset_zero]
  funext y
  obtain ⟨p, q, rfl⟩ : ∃ (p : Fin 5000) (q : Fin 128), y = ix2 p q := ⟨y 0, y 1, eq_ix2 y⟩
  obtain ⟨e00, e01, -, -, -, -, -, -, -, -, e50, e51⟩ := bn1_index t
  have ht : t.val < 10 := lt_of_lt_of_eq t.isLt N_1
  have hrow : t.val * 5000 + p.val < 50000 := by have := p.isLt; omega
  -- the output block's entry (p, q) is the array's entry (5000 t + p, q)
  have hemb : ((cfg1.win 5).blk t).view.emb (ix2 p q) = ix2 (⟨t.val * 5000 + p.val, hrow⟩ : Fin 50000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  -- and so is the input block's
  have hx : (iblk1 V c 0 t (ix2 p q) : EReal) = V c (Pipeline.arrRef spec1 0) (ix2 (⟨t.val * 5000 + p.val, hrow⟩ : Fin 50000) q) := by
    show V c (Pipeline.arrRef spec1 0) (((cfg1.win 0).blk t).view.emb (ix2 p q)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * q.val = q.val; omega
  obtain ⟨m1, m2, m3, m4⟩ := bn1_rows V c mean var g beta hm hv hg hb t q
  show k1_pay1 (iblk1 V c 0 t) (iblk1 V c 1 t) (iblk1 V c 2 t) (iblk1 V c 3 t) (iblk1 V c 4 t) (ix2 p q)
    = Cert.ReferenceIdeal.Spec.bnHost (F := Ideal) (V c (Pipeline.arrRef spec1 0)) mean var g beta (((cfg1.win 5).blk t).view.emb (ix2 p q))
  rw [hemb]
  exact (k1_pay1_entry (iblk1 V c 0 t) (iblk1 V c 1 t) (iblk1 V c 2 t) (iblk1 V c 3 t) (iblk1 V c 4 t) p q).trans
    ((congr (congr (congr (congr (congrArg bnAt hx) m1) m2) m3) m4).trans
      (bnHost_entry (V c (Pipeline.arrRef spec1 0)) mean var g beta ⟨t.val * 5000 + p.val, hrow⟩ q).symm)

end

/-- An index of the output array is in point `t`'s block iff each coordinate is in the block's range on its axis. -/
theorem bn1_mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v52).slice (win1_5.rect t)).set ↔ _
  rw [View.set_slice_whole, Rect.mem_set_unit]
  exact Iff.rfl

/-- Every index of the output array is in the block of the point `row / 5000`. -/
theorem bn1_cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega : (i 0).val / 5000 < 10) N_1.symm⟩, rfl⟩
  refine ⟨t, flush1_5 t, ?_⟩
  rw [bn1_mem_blk]
  obtain ⟨-, -, -, -, -, -, -, -, -, -, e50, e51⟩ := bn1_index t
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- After the first normalisation region its output array is the reference's normalisation of its whole input by the
    four vectors whose `[1, 128]` reshapes the region finds in windows 1–4. -/
theorem bn1 (c : Dev nD) (mean var g beta : FVec Ideal S128 .f32)
    (hm : V c (Pipeline.arrRef spec1 1) = shapeCast S1x128 mean Facts₀.shapeCasts_S128_S1x128)
    (hv : V c (Pipeline.arrRef spec1 2) = shapeCast S1x128 var Facts₀.shapeCasts_S128_S1x128)
    (hg : V c (Pipeline.arrRef spec1 3) = shapeCast S1x128 g Facts₀.shapeCasts_S128_S1x128)
    (hb : V c (Pipeline.arrRef spec1 4) = shapeCast S1x128 beta Facts₀.shapeCasts_S128_S1x128) :
    (dat1 (F := Ideal) V c).arrAt 5 cfg1.N
      = Cert.ReferenceIdeal.Spec.bnHost (F := Ideal) (V c (Pipeline.arrRef spec1 0)) mean var g beta :=
  (dat1 V c).arrAt_eq_of_cover 5 (Cert.ReferenceIdeal.Spec.bnHost (F := Ideal) (V c (Pipeline.arrRef spec1 0)) mean var g beta)
    (fun t _ => bn1_flushed V c mean var g beta hm hv hg hb t) bn1_cover

end Cert.KernelIdeal.Regions

end
-- ==== Proof.BnRegion3.lean ====
/-
  The second batch-normalisation region, from blocks to the array.

  The region runs over a grid of 10 points; point `t` reads rows `5000 t … 5000 t + 4999` of the `[50000, 128]` input
  (window 0) and the four resident `[1, 128]` rows — mean, variance, scale, shift (windows 1–4) — and writes the same
  rows of the `[50000, 128]` output (window 5). When the four rows are `[128]` vectors given a unit row axis, each
  written entry is the reference's normalisation of the whole input at that entry (both are one pointwise expression
  of the input's entry and the four vectors at its column); the ten blocks tile the output (the point covering row
  `r` is `r / 5000`), so after the region the output array IS the reference's normalisation of the whole input.
-/
import proofs.«123362_j807453851682_1_alg».proof.Proof.Gen.KernelIdeal.Frame
import proofs.«123362_j807453851682_1_alg».proof.Proof.Spec
import proofs.«123362_j807453851682_1_alg».proof.Proof.BnPoint
import proofs.«123362_j807453851682_1_alg».proof.Proof.BnHostPoint
import proofs.«123362_j807453851682_1_alg».proof.Proof.BlockOffset
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: point `t` takes block `(t, 0)` of the input and of the output, and the one
    block `(0, 0)` of each of the four rows. -/
theorem bn3_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- A resident row's one block, read at `(0, q)`, is the row's array at `(0, q)`. -/
theorem bn3_row (c : Dev nD) (t : Fin cfg3.N) (q : Fin 128) :
    (iblk3 V c 1 t (ix2 (0 : Fin 1) q) : EReal) = V c (Pipeline.arrRef spec3 1) (ix2 (0 : Fin 1) q)
    ∧ (iblk3 V c 2 t (ix2 (0 : Fin 1) q) : EReal) = V c (Pipeline.arrRef spec3 2) (ix2 (0 : Fin 1) q)
    ∧ (iblk3 V c 3 t (ix2 (0 : Fin 1) q) : EReal) = V c (Pipeline.arrRef spec3 3) (ix2 (0 : Fin 1) q)
    ∧ (iblk3 V c 4 t (ix2 (0 : Fin 1) q) : EReal) = V c (Pipeline.arrRef spec3 4) (ix2 (0 : Fin 1) q) := by
  obtain ⟨-, -, e10, e11, e20, e21, e30, e31, e40, e41, -, -⟩ := bn3_index t
  refine ⟨?_, ?_, ?_, ?_⟩
  · show V c (Pipeline.arrRef spec3 1) (((cfg3.win 1).blk t).view.emb (ix2 (0 : Fin 1) q)) = _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  · show V c (Pipeline.arrRef spec3 2) (((cfg3.win 2).blk t).view.emb (ix2 (0 : Fin 1) q)) = _
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega
  · show V c (Pipeline.arrRef spec3 3) (((cfg3.win 3).blk t).view.emb (ix2 (0 : Fin 1) q)) = _
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * q.val = q.val; omega
  · show V c (Pipeline.arrRef spec3 4) (((cfg3.win 4).blk t).view.emb (ix2 (0 : Fin 1) q)) = _
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * q.val = q.val; omega

section
variable (c : Dev nD) (mean var g beta : FVec Ideal S128 .f32)
  (hm : V c (Pipeline.arrRef spec3 1) = shapeCast S1x128 mean Facts₀.shapeCasts_S128_S1x128)
  (hv : V c (Pipeline.arrRef spec3 2) = shapeCast S1x128 var Facts₀.shapeCasts_S128_S1x128)
  (hg : V c (Pipeline.arrRef spec3 3) = shapeCast S1x128 g Facts₀.shapeCasts_S128_S1x128)
  (hb : V c (Pipeline.arrRef spec3 4) = shapeCast S1x128 beta Facts₀.shapeCasts_S128_S1x128)
include hm hv hg hb

/-- Each resident row's block at `(0, q)` is its vector at `q`. -/
theorem bn3_rows (t : Fin cfg3.N) (q : Fin 128) :
    (iblk3 V c 1 t (ix2 (0 : Fin 1) q) : EReal) = mean (ix1 q)
    ∧ (iblk3 V c 2 t (ix2 (0 : Fin 1) q) : EReal) = var (ix1 q)
    ∧ (iblk3 V c 3 t (ix2 (0 : Fin 1) q) : EReal) = g (ix1 q)
    ∧ (iblk3 V c 4 t (ix2 (0 : Fin 1) q) : EReal) = beta (ix1 q) := by
  obtain ⟨h1, h2, h3, h4⟩ := bn3_row V c t q
  exact ⟨h1.trans (row_eq_of_reshape (V c (Pipeline.arrRef spec3 1)) mean hm q),
    h2.trans (row_eq_of_reshape (V c (Pipeline.arrRef spec3 2)) var hv q),
    h3.trans (row_eq_of_reshape (V c (Pipeline.arrRef spec3 3)) g hg q),
    h4.trans (row_eq_of_reshape (V c (Pipeline.arrRef spec3 4)) beta hb q)⟩

/-- What point `t` writes back is rows `5000 t …` of the reference's normalisation of the whole input. -/
theorem bn3_flushed (t : Fin cfg3.N) :
    (dat3 (F := Ideal) V c).flushed 5 t = ((cfg3.win 5).blk t).view.read (Elt Ideal)
      (Cert.ReferenceIdeal.Spec.bnHost (F := Ideal) (V c (Pipeline.arrRef spec3 0)) mean var g beta) := by
  show (cfg3.win 5).cut (grid3.coords t) ((dat3 V c).after 5 t) = _
  rw [after3_5]
  unfold out3_5
  rw [View.canon_unit_zero offset_zero]
  simp only [View.ld_unit_zero (S := S5000x128) offset_zero, View.ld_unit_zero (S := S1x128) offset_zero]
  funext y
  obtain ⟨p, q, rfl⟩ : ∃ (p : Fin 5000) (q : Fin 128), y = ix2 p q := ⟨y 0, y 1, eq_ix2 y⟩
  obtain ⟨e00, e01, -, -, -, -, -, -, -, -, e50, e51⟩ := bn3_index t
  have ht : t.val < 10 := lt_of_lt_of_eq t.isLt N_3
  have hrow : t.val * 5000 + p.val < 50000 := by have := p.isLt; omega
  -- the output block's entry (p, q) is the array's entry (5000 t + p, q)
  have hemb : ((cfg3.win 5).blk t).view.emb (ix2 p q) = ix2 (⟨t.val * 5000 + p.val, hrow⟩ : Fin 50000) q := by
    funext a; apply Fin.ext
    match a with
    | ⟨0, _⟩ => show win3_5.index t (0 : Fin 2) * 5000 + 1 * p.val = t.val * 5000 + p.val; omega
    | ⟨1, _⟩ => show win3_5.index t (1 : Fin 2) * 128 + 1 * q.val = q.val; omega
  -- and so is the input block's
  have hx : (iblk3 V c 0 t (ix2 p q) : EReal) = V c (Pipeline.arrRef spec3 0) (ix2 (⟨t.val * 5000 + p.val, hrow⟩ : Fin 50000) q) := by
    show V c (Pipeline.arrRef spec3 0) (((cfg3.win 0).blk t).view.emb (ix2 p q)) = _
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * q.val = q.val; omega
  obtain ⟨m1, m2, m3, m4⟩ := bn3_rows V c mean var g beta hm hv hg hb t q
  show k3_pay1 (iblk3 V c 0 t) (iblk3 V c 1 t) (iblk3 V c 2 t) (iblk3 V c 3 t) (iblk3 V c 4 t) (ix2 p q)
    = Cert.ReferenceIdeal.Spec.bnHost (F := Ideal) (V c (Pipeline.arrRef spec3 0)) mean var g beta (((cfg3.win 5).blk t).view.emb (ix2 p q))
  rw [hemb]
  exact (k3_pay1_entry (iblk3 V c 0 t) (iblk3 V c 1 t) (iblk3 V c 2 t) (iblk3 V c 3 t) (iblk3 V c 4 t) p q).trans
    ((congr (congr (congr (congr (congrArg bnAt hx) m1) m2) m3) m4).trans
      (bnHost_entry (V c (Pipeline.arrRef spec3 0)) mean var g beta ⟨t.val * 5000 + p.val, hrow⟩ q).symm)

end

/-- An index of the output array is in point `t`'s block iff each coordinate is in the block's range on its axis. -/
theorem bn3_mem_blk (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v78).slice (win3_5.rect t)).set ↔ _
  rw [View.set_slice_whole, Rect.mem_set_unit]
  exact Iff.rfl

/-- Every index of the output array is in the block of the point `row / 5000`. -/
theorem bn3_cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, lt_of_lt_of_eq (by omega : (i 0).val / 5000 < 10) N_3.symm⟩, rfl⟩
  refine ⟨t, flush3_5 t, ?_⟩
  rw [bn3_mem_blk]
  obtain ⟨-, -, -, -, -, -, -, -, -, -, e50, e51⟩ := bn3_index t
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 128 ≤ (i 1).val ∧ (i 1).val < win3_5.index t (1 : Fin 2) * 128 + 128
    omega

/-- After the second normalisation region its output array is the reference's normalisation of its whole input by the
    four vectors whose `[1, 128]` reshapes the region finds in windows 1–4. -/
theorem bn3 (c : Dev nD) (mean var g beta : FVec Ideal S128 .f32)
    (hm : V c (Pipeline.arrRef spec3 1) = shapeCast S1x128 mean Facts₀.shapeCasts_S128_S1x128)
    (hv : V c (Pipeline.arrRef spec3 2) = shapeCast S1x128 var Facts₀.shapeCasts_S128_S1x128)
    (hg : V c (Pipeline.arrRef spec3 3) = shapeCast S1x128 g Facts₀.shapeCasts_S128_S1x128)
    (hb : V c (Pipeline.arrRef spec3 4) = shapeCast S1x128 beta Facts₀.shapeCasts_S128_S1x128) :
    (dat3 (F := Ideal) V c).arrAt 5 cfg3.N
      = Cert.ReferenceIdeal.Spec.bnHost (F := Ideal) (V c (Pipeline.arrRef spec3 0)) mean var g beta :=
  (dat3 V c).arrAt_eq_of_cover 5 (Cert.ReferenceIdeal.Spec.bnHost (F := Ideal) (V c (Pipeline.arrRef spec3 0)) mean var g beta)
    (fun t _ => bn3_flushed V c mean var g beta hm hv hg hb t) bn3_cover

end Cert.KernelIdeal.Regions

end
-- ==== Proof.BnRegion5.lean ====
/-
  The third batch-normalisation region, from blocks to the array.

  The region runs over a grid of 10 points; point `t` reads rows `5000 t … 5000 t + 4999` of the `[50000, 128]` input
  (window 0) and the four resident `[1, 128]` rows — mean, variance, scale, shift (windows 1–4) — and writes the same
  rows of the `[50000, 128]` output (window 5). When the four rows are `[128]` vectors given a unit row axis, each
  written entry is the reference's normalisation of the whole input at that entry (both are one pointwise expression
  of the input's entry and the four vectors at its column); the ten blocks tile the output (the point covering row
  `r` is `r / 5000`), so after the region the output array IS the reference's normalisation of the whole input.
-/
import proofs.«123362_j807453851682_1_alg».proof.Proof.Gen.KernelIdeal.Frame
import proofs.«123362_j807453851682_1_alg».proof.Proof.Spec
import proofs.«123362_j807453851682_1_alg».proof.Proof.BnPoint
import proofs.«123362_j807453851682_1_alg».proof.Proof.BnHostPoint
import proofs.«123362_j807453851682_1_alg».proof.Proof.BlockOffset
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: point `t` takes block `(t, 0)` of the input and of the output, and the one
    block `(0, 0)` of each of the four rows. -/
theorem bn5_index : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- A resident row's one block, read at `(0, q)`, is the row's array at `(0, q)`. -/
theorem bn5_row (c : Dev nD) (t : Fin cfg5.N) (q : Fin 128) :
    (iblk5 V c 1 t (ix2 (0 : Fin 1) q) : EReal) = V c (Pipeline.arrRef spec5 1) (ix2 (0 : Fin 1) q)
    ∧ (iblk5 V c 2 t (ix2 (0 : Fin 1) q) : EReal) = V c (Pipeline.arrRef spec5 2) (ix2 (0 : Fin 1) q)
    ∧ (iblk5 V c 3 t (ix2 (0 : Fin 1) q) : EReal) = V c (Pipeline.arrRef spec5 3) (ix2 (0 : Fin 1) q)
    ∧ (iblk5 V c 4 t (ix2 (0 : Fin 1) q) : EReal) = V c (Pipeline.arrRef spec5 4) (ix2 (0 : Fin 1) q) := by
  obtain ⟨-, -, e10, e11, e20, e21, e30, e31, e40, e41, -, -⟩ := bn5_index t
  refine ⟨?_, ?_, ?_, ?_⟩
  · show V c (Pipeline.arrRef spec5 1) (((cfg5.win 1).blk t).view.emb (ix2 (0 : Fin 1) q)) = _
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * q.val = q.val; omega
  · show V c (Pipeline.arrRef spec5 2) (((cfg5.win 2).blk t).view.emb (ix2 (0 : Fin 1) q)) = _
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * q.val = q.val; omega
  · show V c (Pipeline.arrRef spec5 3) (((cfg5.win 3).blk t).view.emb (ix2 (0 : Fin 1) q)) = _
    refine congrArg _ (funext fun a => Fin.ext ?_)
    match a with
    | ⟨0, _⟩ => show win5_3.index t (0 : Fin 2) * 1 + 1 * 0 = 0; omega
    | ⟨1, _⟩ => show win5_3.index t (1 : Fin 2) * 128 + 1 * q.val = q.val; omega
  · show V c (Pipeline.arrRef spec5 4) (((cfg5.win 4).blk t).view.emb (ix2 (0 : Fin 1) q)) = _
    refine congrArg _ (funext fun a => Fin.ext ?_)
    match a with
    | ⟨0, _⟩ => show win5_4.index t (0 : Fin 2) * 1 + 1 * 0 = 0; omega
    | ⟨1, _⟩ => show win5_4.index t (1 : Fin 2) * 128 + 1 * q.val = q.val; omega

section
variable (c : Dev nD) (mean var g beta : FVec Ideal S128 .f32)
  (hm : V c (Pipeline.arrRef spec5 1) = shapeCast S1x128 mean Facts₀.shapeCasts_S128_S1x128)
  (hv : V c (Pipeline.arrRef spec5 2) = shapeCast S1x128 var Facts₀.shapeCasts_S128_S1x128)
  (hg : V c (Pipeline.arrRef spec5 3) = shapeCast S1x128 g Facts₀.shapeCasts_S128_S1x128)
  (hb : V c (Pipeline.arrRef spec5 4) = shapeCast S1x128 beta Facts₀.shapeCasts_S128_S1x128)
include hm hv hg hb

/-- Each resident row's block at `(0, q)` is its vector at `q`. -/
theorem bn5_rows (t : Fin cfg5.N) (q : Fin 128) :
    (iblk5 V c 1 t (ix2 (0 : Fin 1) q) : EReal) = mean (ix1 q)
    ∧ (iblk5 V c 2 t (ix2 (0 : Fin 1) q) : EReal) = var (ix1 q)
    ∧ (iblk5 V c 3 t (ix2 (0 : Fin 1) q) : EReal) = g (ix1 q)
    ∧ (iblk5 V c 4 t (ix2 (0 : Fin 1) q) : EReal) = beta (ix1 q) := by
  obtain ⟨h1, h2, h3, h4⟩ := bn5_row V c t q
  exact ⟨h1.trans (row_eq_of_reshape (V c (Pipeline.arrRef spec5 1)) mean hm q),
    h2.trans (row_eq_of_reshape (V c (Pipeline.arrRef spec5 2)) var hv q),
    h3.trans (row_eq_of_reshape (V c (Pipeline.arrRef spec5 3)) g hg q),
    h4.trans (row_eq_of_reshape (V c (Pipeline.arrRef spec5 4)) beta hb q)⟩

/-- What point `t` writes back is rows `5000 t …` of the reference's normalisation of the whole input. -/
theorem bn5_flushed (t : Fin cfg5.N) :
    (dat5 (F := Ideal) V c).flushed 5 t = ((cfg5.win 5).blk t).view.read (Elt Ideal)
      (Cert.ReferenceIdeal.Spec.bnHost (F := Ideal) (V c (Pipeline.arrRef spec5 0)) mean var g beta) := by
  show (cfg5.win 5).cut (grid5.coords t) ((dat5 V c).after 5 t) = _
  rw [after5_5]
  unfold out5_5
  rw [View.canon_unit_zero offset_zero]
  simp only [View.ld_unit_zero (S := S5000x128) offset_zero, View.ld_unit_zero (S := S1x128) offset_zero]
  funext y
  obtain ⟨p, q, rfl⟩ : ∃ (p : Fin 5000) (q : Fin 128), y = ix2 p q := ⟨y 0, y 1, eq_ix2 y⟩
  obtain ⟨e00, e01, -, -, -, -, -, -, -, -, e50, e51⟩ := bn5_index t
  have ht : t.val < 10 := lt_of_lt_of_eq t.isLt N_5
  have hrow : t.val * 5000 + p.val < 50000 := by have := p.isLt; omega
  -- the output block's entry (p, q) is the array's entry (5000 t + p, q)
  have hemb : ((cfg5.win 5).blk t).view.emb (ix2 p q) = ix2 (⟨t.val * 5000 + p.val, hrow⟩ : Fin 50000) q := by
    funext a; apply Fin.ext
    match a with
    | ⟨0, _⟩ => show win5_5.index t (0 : Fin 2) * 5000 + 1 * p.val = t.val * 5000 + p.val; omega
    | ⟨1, _⟩ => show win5_5.index t (1 : Fin 2) * 128 + 1 * q.val = q.val; omega
  -- and so is the input block's
  have hx : (iblk5 V c 0 t (ix2 p q) : EReal) = V c (Pipeline.arrRef spec5 0) (ix2 (⟨t.val * 5000 + p.val, hrow⟩ : Fin 50000) q) := by
    show V c (Pipeline.arrRef spec5 0) (((cfg5.win 0).blk t).view.emb (ix2 p q)) = _
    refine congrArg _ (funext fun a => Fin.ext ?_)
    match a with
    | ⟨0, _⟩ => show win5_0.index t (0 : Fin 2) * 5000 + 1 * p.val = t.val * 5000 + p.val; omega
    | ⟨1, _⟩ => show win5_0.index t (1 : Fin 2) * 128 + 1 * q.val = q.val; omega
  obtain ⟨m1, m2, m3, m4⟩ := bn5_rows V c mean var g beta hm hv hg hb t q
  show k5_pay1 (iblk5 V c 0 t) (iblk5 V c 1 t) (iblk5 V c 2 t) (iblk5 V c 3 t) (iblk5 V c 4 t) (ix2 p q)
    = Cert.ReferenceIdeal.Spec.bnHost (F := Ideal) (V c (Pipeline.arrRef spec5 0)) mean var g beta (((cfg5.win 5).blk t).view.emb (ix2 p q))
  rw [hemb]
  exact (k5_pay1_entry (iblk5 V c 0 t) (iblk5 V c 1 t) (iblk5 V c 2 t) (iblk5 V c 3 t) (iblk5 V c 4 t) p q).trans
    ((congr (congr (congr (congr (congrArg bnAt hx) m1) m2) m3) m4).trans
      (bnHost_entry (V c (Pipeline.arrRef spec5 0)) mean var g beta ⟨t.val * 5000 + p.val, hrow⟩ q).symm)

end

/-- An index of the output array is in point `t`'s block iff each coordinate is in the block's range on its axis. -/
theorem bn5_mem_blk (t : Fin cfg5.N) (i : S50000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v104).slice (win5_5.rect t)).set ↔ _
  rw [View.set_slice_whole, Rect.mem_set_unit]
  exact Iff.rfl

/-- Every index of the output array is in the block of the point `row / 5000`. -/
theorem bn5_cover (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  obtain ⟨t, ht⟩ : ∃ t : Fin cfg5.N, t.val = (i 0).val / 5000 :=
    ⟨⟨(i 0).val / 5000, lt_of_lt_of_eq (by omega : (i 0).val / 5000 < 10) N_5.symm⟩, rfl⟩
  refine ⟨t, flush5_5 t, ?_⟩
  rw [bn5_mem_blk]
  obtain ⟨-, -, -, -, -, -, -, -, -, -, e50, e51⟩ := bn5_index t
  intro a
  match a with
  | ⟨0, _⟩ =>
    show win5_5.index t (0 : Fin 2) * 5000 ≤ (i 0).val ∧ (i 0).val < win5_5.index t (0 : Fin 2) * 5000 + 5000
    omega
  | ⟨1, _⟩ =>
    show win5_5.index t (1 : Fin 2) * 128 ≤ (i 1).val ∧ (i 1).val < win5_5.index t (1 : Fin 2) * 128 + 128
    omega

/-- After the third normalisation region its output array is the reference's normalisation of its whole input by the
    four vectors whose `[1, 128]` reshapes the region finds in windows 1–4. -/
theorem bn5 (c : Dev nD) (mean var g beta : FVec Ideal S128 .f32)
    (hm : V c (Pipeline.arrRef spec5 1) = shapeCast S1x128 mean Facts₀.shapeCasts_S128_S1x128)
    (hv : V c (Pipeline.arrRef spec5 2) = shapeCast S1x128 var Facts₀.shapeCasts_S128_S1x128)
    (hg : V c (Pipeline.arrRef spec5 3) = shapeCast S1x128 g Facts₀.shapeCasts_S128_S1x128)
    (hb : V c (Pipeline.arrRef spec5 4) = shapeCast S1x128 beta Facts₀.shapeCasts_S128_S1x128) :
    (dat5 (F := Ideal) V c).arrAt 5 cfg5.N
      = Cert.ReferenceIdeal.Spec.bnHost (F := Ideal) (V c (Pipeline.arrRef spec5 0)) mean var g beta :=
  (dat5 V c).arrAt_eq_of_cover 5 (Cert.ReferenceIdeal.Spec.bnHost (F := Ideal) (V c (Pipeline.arrRef spec5 0)) mean var g beta)
    (fun t _ => bn5_flushed V c mean var g beta hm hv hg hb t) bn5_cover

end Cert.KernelIdeal.Regions

end
-- ==== Proof.BnRegion.lean ====
/-
  The three batch-normalisation regions: after region `K` (`K` = 1, 3, 5) its output array is the reference's
  normalisation of its whole `[50000, 128]` input by the four vectors whose `[1, 128]` reshapes it finds in windows
  1–4 — `bn1`, `bn3`, `bn5`, one module each.
-/
import proofs.«123362_j807453851682_1_alg».proof.Proof.BnRegion1
import proofs.«123362_j807453851682_1_alg».proof.Proof.BnRegion3
import proofs.«123362_j807453851682_1_alg».proof.Proof.BnRegion5
-- ==== Proof.LibDenseRows.lean ====
/-
  A dense layer on a block of consecutive rows, against the same layer on the whole array, on the extended reals.

  A matrix `x` of `B` rows "holds rows `o, o + 1, …` of `X`" when `x (y, k) = X (o + y, k)` for every row `y` of the block
  (`RowsOf`). The relation is carried through one affine layer `z ↦ z · W + b` — on the block side a vector-unit
  product into the zero accumulator plus the bias row spread over the block's rows, on the whole-array side the host's
  `dot_general` plus the bias vector spread over all rows — because entry `(y, j)` of either side is
  `∑ k, z (row, k) * W (k, j) + b j` and depends on the one row only (`affine`); and through the rectifier
  `max (·, 0)`, which acts entry by entry (`relu`). No law of arithmetic is used and nothing need be finite.
-/
import proofs.«123362_j807453851682_1_alg».proof.Proof.LibProductRows
import Idealize.ShloMosaic.Lib.ValueLayout
import Idealize.ShloMosaic.Lib.Pipeline.Value

noncomputable section

open scoped BigOperators

namespace Cert.Lib.DenseRows

open Idealize.ShloMosaic Idealize.ShloMosaic.ValueIdx

variable {B M K N : ℕ}

/-- `x` holds rows `o, o + 1, …, o + B - 1` of `X` (those of them that exist). -/
def RowsOf (o : ℕ) (x : (⟨2, ![B, K]⟩ : Shape).Idx → EReal) (X : (⟨2, ![M, K]⟩ : Shape).Idx → EReal) : Prop :=
  ∀ (y : Fin B) (k : Fin K) (h : o + y.val < M), x (ix2 y k) = X (ix2 (⟨o + y.val, h⟩ : Fin M) k)

/-- A bias vector spread to one row and then over all rows reads, at `(e, j)`, the vector at `j`. -/
theorem bias_host_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (e : Fin M) (j : Fin N) :
    broadcastInDim ⟨2, ![M, N]⟩ ![0, 1] h2 (broadcastInDim ⟨2, ![1, N]⟩ ![1] h1 b) (ix2 e j) = b (ix1 j) := by
  refine (broadcastInDim_apply _ h2 _ (ix2 e j) (ix2 (0 : Fin 1) j) fun a => ?_).trans
    (broadcastInDim_apply _ h1 b (ix2 (0 : Fin 1) j) (ix1 j) fun a => ?_)
  · match a with
    | ⟨0, _⟩ => rfl
    | ⟨1, _⟩ =>
      show j.val = if N = 1 then 0 else j.val
      split
      · have := j.isLt; omega
      · rfl
  · match a with
    | ⟨0, _⟩ =>
      show j.val = if N = 1 then 0 else j.val
      split
      · have := j.isLt; omega
      · rfl

/-- A bias row spread over a block's rows reads, at `(y, j)`, the row at `j`. -/
theorem bias_block_apply (brow : (⟨2, ![1, N]⟩ : Shape).Idx → EReal)
    (hc : (⟨2, ![1, N]⟩ : Shape).ShapeCasts ⟨2, ![1, N]⟩) (hb : (⟨2, ![1, N]⟩ : Shape).Broadcasts ⟨2, ![B, N]⟩)
    (y : Fin B) (j : Fin N) :
    broadcastTo ⟨2, ![B, N]⟩ (shapeCast ⟨2, ![1, N]⟩ brow hc) hb (ix2 y j) = brow (ix2 (0 : Fin 1) j) := by
  rw [broadcastTo_1b_ab_apply, shapeCast_self]

/-- One affine layer carries "the block holds rows `o …` of the array": the block's product on the vector unit plus
    its bias row, against the host's product of the whole array plus the bias vector. -/
theorem affine {o : ℕ} {Dk : DotDims ⟨2, ![B, K]⟩ ⟨2, ![K, N]⟩ ⟨2, ![B, N]⟩} (hDk : Dk = DotDims.plain B K N)
    {Dh : DotDims ⟨2, ![M, K]⟩ ⟨2, ![K, N]⟩ ⟨2, ![M, N]⟩} (hDh : Dh = DotDims.plain M K N)
    {z : FVec Ideal ⟨2, ![B, K]⟩ .f32} {Z : FVec Ideal ⟨2, ![M, K]⟩ .f32}
    {w W : FVec Ideal ⟨2, ![K, N]⟩ .f32} {brow : FVec Ideal ⟨2, ![1, N]⟩ .f32} {b : FVec Ideal ⟨1, ![N]⟩ .f32}
    {hlt : FTy.bf16.bits < FTy.f32.bits}
    {hc : (⟨2, ![1, N]⟩ : Shape).ShapeCasts ⟨2, ![1, N]⟩} {hb : (⟨2, ![1, N]⟩ : Shape).Broadcasts ⟨2, ![B, N]⟩}
    {h1 : (⟨1, ![N]⟩ : Shape).BroadcastsInDim ⟨2, ![1, N]⟩ ![1]}
    {h2 : (⟨2, ![1, N]⟩ : Shape).BroadcastsInDim ⟨2, ![M, N]⟩ ![0, 1]}
    (hz : RowsOf o z Z) (hw : ∀ (k : Fin K) (j : Fin N), w (ix2 k j) = W (ix2 k j))
    (hbias : ∀ j : Fin N, brow (ix2 (0 : Fin 1) j) = b (ix1 j)) :
    RowsOf o
      (addf (matmul Dk none (truncf .bf16 z hlt) (truncf .bf16 w hlt) (constant ⟨2, ![B, N]⟩ .f32 0x00000000#32))
        (broadcastTo ⟨2, ![B, N]⟩ (shapeCast ⟨2, ![1, N]⟩ brow hc) hb))
      (addf (Host.dotGeneral Dh none Z W)
        (broadcastInDim ⟨2, ![M, N]⟩ ![0, 1] h2 (broadcastInDim ⟨2, ![1, N]⟩ ![1] h1 b))) := by
  subst hDk hDh
  intro y j h
  rw [addf_apply, addf_apply, bias_block_apply, bias_host_apply, hbias]
  exact congrArg (· + b (ix1 j))
    (Cert.Lib.ProductRows.matmul_entry_eq_dotGeneral_entry none none .single (truncf .bf16 z hlt) (truncf .bf16 w hlt) Z W
      y ⟨o + y.val, h⟩ j (fun k => hz y k h) (fun k => hw k j))

/-- The rectifier carries it: `max (·, 0)` entry by entry on both sides, the zero the same word. -/
theorem relu {o : ℕ} {a : FVec Ideal ⟨2, ![B, N]⟩ .f32} {A : FVec Ideal ⟨2, ![M, N]⟩ .f32}
    {h0 : (⟨0, ![]⟩ : Shape).BroadcastsInDim ⟨2, ![M, N]⟩ ![]} (ha : RowsOf o a A) :
    RowsOf o (maximumf a (broadcast ⟨2, ![B, N]⟩ (Scalar.ofBits .f32 0x00000000#32)))
      (maximumf A (broadcastInDim ⟨2, ![M, N]⟩ ![] h0 (constant (F := Ideal) ⟨0, ![]⟩ .f32 0x00000000#32))) := by
  intro y j h
  rw [maximumf_apply, maximumf_apply, ha y j h, broadcastInDim_apply _ h0 _ _ ix0 (fun a => a.elim0)]
  rfl

/-- A cast to the same shape changes nothing. -/
theorem shapeCast_same {o : ℕ} {x : (⟨2, ![B, K]⟩ : Shape).Idx → EReal} {X : (⟨2, ![M, K]⟩ : Shape).Idx → EReal}
    {hc : (⟨2, ![B, K]⟩ : Shape).ShapeCasts ⟨2, ![B, K]⟩} (hx : RowsOf o x X) :
    RowsOf o (shapeCast ⟨2, ![B, K]⟩ x hc) X := by
  rw [shapeCast_self]; exact hx

end Cert.Lib.DenseRows

end
-- ==== Proof.MlpBlocks.lean ====
/-
  The edge classifier's region: each window's block where it sits in its array.

  Point `t` of the 160 takes block `(t, 0)` of the edge features — rows `5000 t, …, 5000 t + 4999` — and of the output,
  and block `(0, 0)`, the whole array, of each weight matrix and bias row (the printed index maps, decided over the grid).
  A block's element `(y, k)` sits in its array at block index times block size plus `(y, k)`: so the edge-feature block
  holds rows `5000 t …` of the edge-feature array (`rows_features`) and the other blocks are their arrays (`whole_1` …
  `whole_8`).
-/
import proofs.«123362_j807453851682_1_alg».proof.Proof.Gen.KernelIdeal.Frame
import proofs.«123362_j807453851682_1_alg».proof.Proof.LibDenseRows
import Idealize.ShloMosaic.Lib.Pipeline.Value

set_option maxRecDepth 16384

noncomputable section

namespace Cert.KernelIdeal.Regions.Mlp

open Cert.KernelIdeal Cert.KernelIdeal.Gen
open Idealize.ShloMosaic Idealize.ShloMosaic.TcCoe Idealize.ShloMosaic.ValueIdx
open Idealize.SL.Sem
open Idealize.ShloMosaic.Pipeline (Dat)
open Cert.Lib.DenseRows

variable (V : (c : Dev nD) → (b : Ref sig .tc) → Buf (Elt Ideal) ((c : Thread nD τ).loc b))

/-- The zero offsets of a whole-buffer access. -/
theorem zero_offsets : (![0, 0] : Fin 2 → Nat) = fun _ => 0 := funext fun a => by fin_cases a <;> rfl

/-- Point `t` takes block `(t, 0)` of the edge features and of the output. -/
theorem index_rows : ∀ t : Fin cfg6.N, (win6_0.index t (0 : Fin 2) = t.val ∧ win6_0.index t (1 : Fin 2) = 0)
    ∧ (win6_9.index t (0 : Fin 2) = t.val ∧ win6_9.index t (1 : Fin 2) = 0) :=
  (by decide +kernel : ∀ t : Fin grid6.N, _)

/-- Every point takes block `(0, 0)` — the whole array — of each weight matrix and bias row. -/
theorem index_whole : ∀ t : Fin cfg6.N, (win6_1.index t (0 : Fin 2) = 0 ∧ win6_1.index t (1 : Fin 2) = 0)
    ∧ (win6_2.index t (0 : Fin 2) = 0 ∧ win6_2.index t (1 : Fin 2) = 0)
    ∧ (win6_3.index t (0 : Fin 2) = 0 ∧ win6_3.index t (1 : Fin 2) = 0)
    ∧ (win6_4.index t (0 : Fin 2) = 0 ∧ win6_4.index t (1 : Fin 2) = 0)
    ∧ (win6_5.index t (0 : Fin 2) = 0 ∧ win6_5.index t (1 : Fin 2) = 0)
    ∧ (win6_6.index t (0 : Fin 2) = 0 ∧ win6_6.index t (1 : Fin 2) = 0)
    ∧ (win6_7.index t (0 : Fin 2) = 0 ∧ win6_7.index t (1 : Fin 2) = 0)
    ∧ (win6_8.index t (0 : Fin 2) = 0 ∧ win6_8.index t (1 : Fin 2) = 0) :=
  (by decide +kernel : ∀ t : Fin grid6.N, _)

/-- The edge-feature block at point `t` holds rows `5000 t …` of the edge-feature array. -/
theorem rows_features (c : Dev nD) (t : Fin cfg6.N) :
    RowsOf (5000 * t.val) (iblk6 V c 0 t : Vec Ideal S5000x256 .f32)
      (V c (Pipeline.arrRef spec6 0) : (⟨2, ![800000, 256]⟩ : Shape).Idx → EReal) := by
  intro y k h
  obtain ⟨⟨e0, e1⟩, -⟩ := index_rows t
  unfold iblk6
  rw [View.read_apply]
  show V c (Pipeline.arrRef spec6 0) _ = V c (Pipeline.arrRef spec6 0) _
  refine congrArg (V c (Pipeline.arrRef spec6 0)) (funext fun a => Fin.ext ?_)
  match a with
  | ⟨0, _⟩ => show win6_0.index t (0 : Fin 2) * 5000 + 1 * y.val = 5000 * t.val + y.val; rw [e0]; omega
  | ⟨1, _⟩ => show win6_0.index t (1 : Fin 2) * 256 + 1 * k.val = k.val; rw [e1]; omega

/-- Window 1's block at any point is its whole array. -/
theorem whole_1 (c : Dev nD) (t : Fin cfg6.N) (i : Fin 256) (j : Fin 256) :
    (iblk6 V c 1 t : Vec Ideal S256x256 .f32) (ix2 i j) = (V c (Pipeline.arrRef spec6 1) : S256x256.Idx → EReal) (ix2 i j) := by
  obtain ⟨e0, e1⟩ := (index_whole t).1
  unfold iblk6
  rw [View.read_apply]
  show V c (Pipeline.arrRef spec6 1) _ = V c (Pipeline.arrRef spec6 1) _
  refine congrArg (V c (Pipeline.arrRef spec6 1)) (funext fun a => Fin.ext ?_)
  match a with
  | ⟨0, _⟩ => show win6_1.index t (0 : Fin 2) * 256 + 1 * i.val = i.val; rw [e0]; omega
  | ⟨1, _⟩ => show win6_1.index t (1 : Fin 2) * 256 + 1 * j.val = j.val; rw [e1]; omega

/-- Window 2's block at any point is its whole array. -/
theorem whole_2 (c : Dev nD) (t : Fin cfg6.N) (i : Fin 1) (j : Fin 256) :
    (iblk6 V c 2 t : Vec Ideal S1x256 .f32) (ix2 i j) = (V c (Pipeline.arrRef spec6 2) : S1x256.Idx → EReal) (ix2 i j) := by
  obtain ⟨e0, e1⟩ := (index_whole t).2.1
  unfold iblk6
  rw [View.read_apply]
  show V c (Pipeline.arrRef spec6 2) _ = V c (Pipeline.arrRef spec6 2) _
  refine congrArg (V c (Pipeline.arrRef spec6 2)) (funext fun a => Fin.ext ?_)
  match a with
  | ⟨0, _⟩ => show win6_2.index t (0 : Fin 2) * 1 + 1 * i.val = i.val; rw [e0]; omega
  | ⟨1, _⟩ => show win6_2.index t (1 : Fin 2) * 256 + 1 * j.val = j.val; rw [e1]; omega

/-- Window 3's block at any point is its whole array. -/
theorem whole_3 (c : Dev nD) (t : Fin cfg6.N) (i : Fin 256) (j : Fin 128) :
    (iblk6 V c 3 t : Vec Ideal S256x128 .f32) (ix2 i j) = (V c (Pipeline.arrRef spec6 3) : S256x128.Idx → EReal) (ix2 i j) := by
  obtain ⟨e0, e1⟩ := (index_whole t).2.2.1
  unfold iblk6
  rw [View.read_apply]
  show V c (Pipeline.arrRef spec6 3) _ = V c (Pipeline.arrRef spec6 3) _
  refine congrArg (V c (Pipeline.arrRef spec6 3)) (funext fun a => Fin.ext ?_)
  match a with
  | ⟨0, _⟩ => show win6_3.index t (0 : Fin 2) * 256 + 1 * i.val = i.val; rw [e0]; omega
  | ⟨1, _⟩ => show win6_3.index t (1 : Fin 2) * 128 + 1 * j.val = j.val; rw [e1]; omega

/-- Window 4's block at any point is its whole array. -/
theorem whole_4 (c : Dev nD) (t : Fin cfg6.N) (i : Fin 1) (j : Fin 128) :
    (iblk6 V c 4 t : Vec Ideal S1x128 .f32) (ix2 i j) = (V c (Pipeline.arrRef spec6 4) : S1x128.Idx → EReal) (ix2 i j) := by
  obtain ⟨e0, e1⟩ := (index_whole t).2.2.2.1
  unfold iblk6
  rw [View.read_apply]
  show V c (Pipeline.arrRef spec6 4) _ = V c (Pipeline.arrRef spec6 4) _
  refine congrArg (V c (Pipeline.arrRef spec6 4)) (funext fun a => Fin.ext ?_)
  match a with
  | ⟨0, _⟩ => show win6_4.index t (0 : Fin 2) * 1 + 1 * i.val = i.val; rw [e0]; omega
  | ⟨1, _⟩ => show win6_4.index t (1 : Fin 2) * 128 + 1 * j.val = j.val; rw [e1]; omega

/-- Window 5's block at any point is its whole array. -/
theorem whole_5 (c : Dev nD) (t : Fin cfg6.N) (i : Fin 128) (j : Fin 64) :
    (iblk6 V c 5 t : Vec Ideal S128x64 .f32) (ix2 i j) = (V c (Pipeline.arrRef spec6 5) : S128x64.Idx → EReal) (ix2 i j) := by
  obtain ⟨e0, e1⟩ := (index_whole t).2.2.2.2.1
  unfold iblk6
  rw [View.read_apply]
  show V c (Pipeline.arrRef spec6 5) _ = V c (Pipeline.arrRef spec6 5) _
  refine congrArg (V c (Pipeline.arrRef spec6 5)) (funext fun a => Fin.ext ?_)
  match a with
  | ⟨0, _⟩ => show win6_5.index t (0 : Fin 2) * 128 + 1 * i.val = i.val; rw [e0]; omega
  | ⟨1, _⟩ => show win6_5.index t (1 : Fin 2) * 64 + 1 * j.val = j.val; rw [e1]; omega

/-- Window 6's block at any point is its whole array. -/
theorem whole_6 (c : Dev nD) (t : Fin cfg6.N) (i : Fin 1) (j : Fin 64) :
    (iblk6 V c 6 t : Vec Ideal S1x64 .f32) (ix2 i j) = (V c (Pipeline.arrRef spec6 6) : S1x64.Idx → EReal) (ix2 i j) := by
  obtain ⟨e0, e1⟩ := (index_whole t).2.2.2.2.2.1
  unfold iblk6
  rw [View.read_apply]
  show V c (Pipeline.arrRef spec6 6) _ = V c (Pipeline.arrRef spec6 6) _
  refine congrArg (V c (Pipeline.arrRef spec6 6)) (funext fun a => Fin.ext ?_)
  match a with
  | ⟨0, _⟩ => show win6_6.index t (0 : Fin 2) * 1 + 1 * i.val = i.val; rw [e0]; omega
  | ⟨1, _⟩ => show win6_6.index t (1 : Fin 2) * 64 + 1 * j.val = j.val; rw [e1]; omega

/-- Window 7's block at any point is its whole array. -/
theorem whole_7 (c : Dev nD) (t : Fin cfg6.N) (i : Fin 64) (j : Fin 2) :
    (iblk6 V c 7 t : Vec Ideal S64x2 .f32) (ix2 i j) = (V c (Pipeline.arrRef spec6 7) : S64x2.Idx → EReal) (ix2 i j) := by
  obtain ⟨e0, e1⟩ := (index_whole t).2.2.2.2.2.2.1
  unfold iblk6
  rw [View.read_apply]
  show V c (Pipeline.arrRef spec6 7) _ = V c (Pipeline.arrRef spec6 7) _
  refine congrArg (V c (Pipeline.arrRef spec6 7)) (funext fun a => Fin.ext ?_)
  match a with
  | ⟨0, _⟩ => show win6_7.index t (0 : Fin 2) * 64 + 1 * i.val = i.val; rw [e0]; omega
  | ⟨1, _⟩ => show win6_7.index t (1 : Fin 2) * 2 + 1 * j.val = j.val; rw [e1]; omega

/-- Window 8's block at any point is its whole array. -/
theorem whole_8 (c : Dev nD) (t : Fin cfg6.N) (i : Fin 1) (j : Fin 2) :
    (iblk6 V c 8 t : Vec Ideal S1x2 .f32) (ix2 i j) = (V c (Pipeline.arrRef spec6 8) : S1x2.Idx → EReal) (ix2 i j) := by
  obtain ⟨e0, e1⟩ := (index_whole t).2.2.2.2.2.2.2
  unfold iblk6
  rw [View.read_apply]
  show V c (Pipeline.arrRef spec6 8) _ = V c (Pipeline.arrRef spec6 8) _
  refine congrArg (V c (Pipeline.arrRef spec6 8)) (funext fun a => Fin.ext ?_)
  match a with
  | ⟨0, _⟩ => show win6_8.index t (0 : Fin 2) * 1 + 1 * i.val = i.val; rw [e0]; omega
  | ⟨1, _⟩ => show win6_8.index t (1 : Fin 2) * 2 + 1 * j.val = j.val; rw [e1]; omega

end Cert.KernelIdeal.Regions.Mlp

end
-- ==== Proof.MlpPayload.lean ====
/-
  The edge classifier's body on one block of rows, against the four dense layers on the whole edge-feature array.

  The body multiplies its block of 5000 rows of edge features by the first weight matrix, adds the first bias row,
  rectifies, and so on through three rectified layers and a last affine one; each entry of the result depends on the one
  row of the block it sits in. So when the block holds rows `o, o + 1, …` of the whole edge-feature array, the weights
  are the same and each bias row is the bias vector, the body's result holds rows `o, o + 1, …` of the whole
  classifier's output: layer by layer, by the lemmas on one dense layer on a block of rows.
-/
import proofs.«123362_j807453851682_1_alg».proof.Proof.Gen.KernelIdeal.Skeleton
import proofs.«123362_j807453851682_1_alg».proof.Proof.Spec
import proofs.«123362_j807453851682_1_alg».proof.Proof.LibDenseRows

noncomputable section

namespace Cert.KernelIdeal.Regions

open Cert.KernelIdeal Cert.KernelIdeal.Gen
open Idealize.ShloMosaic Idealize.ShloMosaic.ValueIdx
open Cert.Lib.DenseRows

/-- The body's result on a block that holds rows `o …` of the edge features holds rows `o …` of the classifier's output. -/
theorem mlp_rows {o : ℕ} (x0 : Vec Ideal S5000x256 .f32) (x1 : Vec Ideal S256x256 .f32) (x2 : Vec Ideal S1x256 .f32)
    (x3 : Vec Ideal S256x128 .f32) (x4 : Vec Ideal S1x128 .f32) (x5 : Vec Ideal S128x64 .f32) (x6 : Vec Ideal S1x64 .f32)
    (x7 : Vec Ideal S64x2 .f32) (x8 : Vec Ideal S1x2 .f32)
    (ef : FVec Ideal ⟨2, ![800000, 256]⟩ .f32) (cw1 : FVec Ideal S256x256 .f32) (cb1 : FVec Ideal S256 .f32)
    (cw2 : FVec Ideal S256x128 .f32) (cb2 : FVec Ideal S128 .f32) (cw3 : FVec Ideal S128x64 .f32) (cb3 : FVec Ideal S64 .f32)
    (cw4 : FVec Ideal S64x2 .f32) (cb4 : FVec Ideal S2 .f32)
    (h0 : RowsOf o x0 ef)
    (hw1 : ∀ (k : Fin 256) (j : Fin 256), x1 (ix2 k j) = cw1 (ix2 k j)) (hb1 : ∀ j : Fin 256, x2 (ix2 (0 : Fin 1) j) = cb1 (ix1 j))
    (hw2 : ∀ (k : Fin 256) (j : Fin 128), x3 (ix2 k j) = cw2 (ix2 k j)) (hb2 : ∀ j : Fin 128, x4 (ix2 (0 : Fin 1) j) = cb2 (ix1 j))
    (hw3 : ∀ (k : Fin 128) (j : Fin 64), x5 (ix2 k j) = cw3 (ix2 k j)) (hb3 : ∀ j : Fin 64, x6 (ix2 (0 : Fin 1) j) = cb3 (ix1 j))
    (hw4 : ∀ (k : Fin 64) (j : Fin 2), x7 (ix2 k j) = cw4 (ix2 k j)) (hb4 : ∀ j : Fin 2, x8 (ix2 (0 : Fin 1) j) = cb4 (ix1 j)) :
    RowsOf o (k6_pay1 (k6_pay2 x0 x1 x2 x3 x4 x5 x6 x7) x8)
      (Cert.ReferenceIdeal.Spec.mlpHost (F := Ideal) ef cw1 cb1 cw2 cb2 cw3 cb3 cw4 cb4) := by
  unfold k6_pay1 k6_pay2 Cert.ReferenceIdeal.Spec.mlpHost
  refine affine rfl rfl ?_ hw4 hb4
  refine relu ?_
  refine affine rfl rfl ?_ hw3 hb3
  refine relu ?_
  refine affine rfl rfl ?_ hw2 hb2
  refine relu ?_
  refine affine rfl rfl ?_ hw1 hb1
  exact shapeCast_same h0

end Cert.KernelIdeal.Regions

end
-- ==== Proof.MlpRegion.lean ====
/-
  The edge classifier's region: the output array after the region is the four dense layers of the whole edge-feature array.

  The region runs the classifier's body at 160 grid points; point `t` reads rows `5000 t, …, 5000 t + 4999` of the
  edge features, the four weight matrices and the four bias rows whole, and writes rows `5000 t, …` of the output. By the
  layer-by-layer lemma on a block of rows, the body's result at point `t` is block `t` of the classifier's output on
  the whole arrays (`written_block`); row `r` of the output lies in the block of point `r / 5000` (`row_covered`); so
  the array ends holding the classifier's output (`mlp6`).
-/
import proofs.«123362_j807453851682_1_alg».proof.Proof.MlpBlocks
import proofs.«123362_j807453851682_1_alg».proof.Proof.MlpPayload

set_option maxRecDepth 16384

noncomputable section

namespace Cert.KernelIdeal.Regions.Mlp

open Cert.KernelIdeal Cert.KernelIdeal.Gen
open Idealize.ShloMosaic Idealize.ShloMosaic.TcCoe Idealize.ShloMosaic.ValueIdx
open Idealize.SL.Sem
open Idealize.ShloMosaic.Pipeline (Dat)
open Cert.Lib.DenseRows

variable (V : (c : Dev nD) → (b : Ref sig .tc) → Buf (Elt Ideal) ((c : Thread nD τ).loc b))

/-- The bias row of window 2, read at any point, is the bias vector. -/
theorem bias_2 (c : Dev nD) (t : Fin cfg6.N) (cb1 : FVec Ideal S256 .f32)
    (h1 : V c (Pipeline.arrRef spec6 2) = shapeCast S1x256 cb1 shapeCasts_S256_S1x256) (q : Fin 256) :
    (iblk6 V c 2 t : Vec Ideal S1x256 .f32) (ix2 (0 : Fin 1) q) = cb1 (ix1 q) :=
  (whole_2 V c t 0 q).trans ((congrFun h1 (ix2 (0 : Fin 1) q)).trans (shapeCast_a_1a_apply cb1 _ 0 q))

/-- The bias row of window 4, read at any point, is the bias vector. -/
theorem bias_4 (c : Dev nD) (t : Fin cfg6.N) (cb2 : FVec Ideal S128 .f32)
    (h2 : V c (Pipeline.arrRef spec6 4) = shapeCast S1x128 cb2 shapeCasts_S128_S1x128) (q : Fin 128) :
    (iblk6 V c 4 t : Vec Ideal S1x128 .f32) (ix2 (0 : Fin 1) q) = cb2 (ix1 q) :=
  (whole_4 V c t 0 q).trans ((congrFun h2 (ix2 (0 : Fin 1) q)).trans (shapeCast_a_1a_apply cb2 _ 0 q))

/-- The bias row of window 6, read at any point, is the bias vector. -/
theorem bias_6 (c : Dev nD) (t : Fin cfg6.N) (cb3 : FVec Ideal S64 .f32)
    (h3 : V c (Pipeline.arrRef spec6 6) = shapeCast S1x64 cb3 shapeCasts_S64_S1x64) (q : Fin 64) :
    (iblk6 V c 6 t : Vec Ideal S1x64 .f32) (ix2 (0 : Fin 1) q) = cb3 (ix1 q) :=
  (whole_6 V c t 0 q).trans ((congrFun h3 (ix2 (0 : Fin 1) q)).trans (shapeCast_a_1a_apply cb3 _ 0 q))

/-- The bias row of window 8, read at any point, is the bias vector. -/
theorem bias_8 (c : Dev nD) (t : Fin cfg6.N) (cb4 : FVec Ideal S2 .f32)
    (h4 : V c (Pipeline.arrRef spec6 8) = shapeCast S1x2 cb4 shapeCasts_S2_S1x2) (q : Fin 2) :
    (iblk6 V c 8 t : Vec Ideal S1x2 .f32) (ix2 (0 : Fin 1) q) = cb4 (ix1 q) :=
  (whole_8 V c t 0 q).trans ((congrFun h4 (ix2 (0 : Fin 1) q)).trans (shapeCast_a_1a_apply cb4 _ 0 q))

/-- The body's result at point `t` holds rows `5000 t …` of the classifier's output on the whole arrays. -/
theorem block_rows (c : Dev nD)
    (cb1 : FVec Ideal S256 .f32) (cb2 : FVec Ideal S128 .f32) (cb3 : FVec Ideal S64 .f32) (cb4 : FVec Ideal S2 .f32)
    (h1 : V c (Pipeline.arrRef spec6 2) = shapeCast S1x256 cb1 shapeCasts_S256_S1x256)
    (h2 : V c (Pipeline.arrRef spec6 4) = shapeCast S1x128 cb2 shapeCasts_S128_S1x128)
    (h3 : V c (Pipeline.arrRef spec6 6) = shapeCast S1x64 cb3 shapeCasts_S64_S1x64)
    (h4 : V c (Pipeline.arrRef spec6 8) = shapeCast S1x2 cb4 shapeCasts_S2_S1x2) (t : Fin cfg6.N) :
    RowsOf (5000 * t.val)
      (k6_pay1 (k6_pay2 (iblk6 V c 0 t) (iblk6 V c 1 t) (iblk6 V c 2 t) (iblk6 V c 3 t) (iblk6 V c 4 t) (iblk6 V c 5 t)
        (iblk6 V c 6 t) (iblk6 V c 7 t)) (iblk6 V c 8 t))
      (Cert.ReferenceIdeal.Spec.mlpHost (F := Ideal) (V c (Pipeline.arrRef spec6 0)) (V c (Pipeline.arrRef spec6 1)) cb1
        (V c (Pipeline.arrRef spec6 3)) cb2 (V c (Pipeline.arrRef spec6 5)) cb3 (V c (Pipeline.arrRef spec6 7)) cb4) :=
  mlp_rows (iblk6 V c 0 t) (iblk6 V c 1 t) (iblk6 V c 2 t) (iblk6 V c 3 t) (iblk6 V c 4 t)
    (iblk6 V c 5 t) (iblk6 V c 6 t) (iblk6 V c 7 t) (iblk6 V c 8 t)
    (V c (Pipeline.arrRef spec6 0)) (V c (Pipeline.arrRef spec6 1)) cb1 (V c (Pipeline.arrRef spec6 3)) cb2
    (V c (Pipeline.arrRef spec6 5)) cb3 (V c (Pipeline.arrRef spec6 7)) cb4
    (rows_features V c t) (whole_1 V c t) (bias_2 V c t cb1 h1) (whole_3 V c t) (bias_4 V c t cb2 h2)
    (whole_5 V c t) (bias_6 V c t cb3 h3) (whole_7 V c t) (bias_8 V c t cb4 h4)

set_option maxHeartbeats 1000000 in
/-- What point `t` writes back is block `t` of the classifier's output on the whole arrays. -/
theorem written_block (c : Dev nD)
    (cb1 : FVec Ideal S256 .f32) (cb2 : FVec Ideal S128 .f32) (cb3 : FVec Ideal S64 .f32) (cb4 : FVec Ideal S2 .f32)
    (h1 : V c (Pipeline.arrRef spec6 2) = shapeCast S1x256 cb1 shapeCasts_S256_S1x256)
    (h2 : V c (Pipeline.arrRef spec6 4) = shapeCast S1x128 cb2 shapeCasts_S128_S1x128)
    (h3 : V c (Pipeline.arrRef spec6 6) = shapeCast S1x64 cb3 shapeCasts_S64_S1x64)
    (h4 : V c (Pipeline.arrRef spec6 8) = shapeCast S1x2 cb4 shapeCasts_S2_S1x2) (t : Fin cfg6.N) :
    (dat6 (F := Ideal) V c).flushed 9 t
      = ((cfg6.win 9).blk t).view.read (Elt Ideal)
          (Cert.ReferenceIdeal.Spec.mlpHost (F := Ideal) (V c (Pipeline.arrRef spec6 0)) (V c (Pipeline.arrRef spec6 1)) cb1
            (V c (Pipeline.arrRef spec6 3)) cb2 (V c (Pipeline.arrRef spec6 5)) cb3 (V c (Pipeline.arrRef spec6 7)) cb4) := by
  show (cfg6.win 9).cut (grid6.coords t) ((dat6 V c).after 9 t) = _
  rw [after6_9]
  unfold out6_9
  rw [View.canon_unit_zero zero_offsets]
  simp only [View.ld_unit_zero (S := S5000x256) zero_offsets, View.ld_unit_zero (S := S256x256) zero_offsets,
    View.ld_unit_zero (S := S1x256) zero_offsets, View.ld_unit_zero (S := S256x128) zero_offsets,
    View.ld_unit_zero (S := S1x128) zero_offsets, View.ld_unit_zero (S := S128x64) zero_offsets,
    View.ld_unit_zero (S := S1x64) zero_offsets, View.ld_unit_zero (S := S64x2) zero_offsets,
    View.ld_unit_zero (S := S1x2) zero_offsets]
  funext j
  have hj0 : (j 0).val < 5000 := (j 0).isLt
  have hj1 : (j 1).val < 2 := (j 1).isLt
  have hN : cfg6.N = 160 := N_6
  have ht : t.val < 160 := hN ▸ t.isLt
  obtain ⟨-, e0, e1⟩ := index_rows t
  have key := block_rows V c cb1 cb2 cb3 cb4 h1 h2 h3 h4 t ⟨(j 0).val, hj0⟩ ⟨(j 1).val, hj1⟩
    (by show 5000 * t.val + (j 0).val < 800000; omega)
  generalize Cert.ReferenceIdeal.Spec.mlpHost (F := Ideal) (V c (Pipeline.arrRef spec6 0)) (V c (Pipeline.arrRef spec6 1)) cb1
    (V c (Pipeline.arrRef spec6 3)) cb2 (V c (Pipeline.arrRef spec6 5)) cb3 (V c (Pipeline.arrRef spec6 7)) cb4 = G at key ⊢
  generalize k6_pay1 (k6_pay2 (iblk6 V c 0 t) (iblk6 V c 1 t) (iblk6 V c 2 t) (iblk6 V c 3 t) (iblk6 V c 4 t) (iblk6 V c 5 t)
    (iblk6 V c 6 t) (iblk6 V c 7 t)) (iblk6 V c 8 t) = P at key ⊢
  refine Eq.trans ?_ (key.trans ?_)
  · show P _ = P _
    exact congrArg P (funext fun a => by match a with | ⟨0, _⟩ => rfl | ⟨1, _⟩ => rfl)
  · rw [View.read_apply]
    show G _ = G _
    refine congrArg G (funext fun a => Fin.ext ?_)
    match a with
    | ⟨0, _⟩ => show 5000 * t.val + (j 0).val = win6_9.index t (0 : Fin 2) * 5000 + 1 * (j 0).val; rw [e0]; omega
    | ⟨1, _⟩ => show (j 1).val = win6_9.index t (1 : Fin 2) * 2 + 1 * (j 1).val; rw [e1]; omega

/-- An index of the output array is in point `t`'s block iff each coordinate is in the block's range on its axis. -/
theorem mem_block (t : Fin cfg6.N) (i : (⟨2, ![800000, 2]⟩ : Shape).Idx) :
    i ∈ ((cfg6.win 9).blk t).view.set
      ↔ ∀ a : Fin 2, win6_9.index t a * S5000x2.size a ≤ (i a).val ∧ (i a).val < win6_9.index t a * S5000x2.size a + S5000x2.size a := by
  show i ∈ ((View.whole main_v124).slice (win6_9.rect t)).set ↔ _
  rw [View.set_slice_whole, Rect.mem_set_unit]
  exact Iff.rfl

/-- Row `r` of the output lies in the block of point `r / 5000`. -/
theorem row_covered (i : (⟨2, ![800000, 2]⟩ : Shape).Idx) :
    ∃ t : Fin cfg6.N, (cfg6.win 9).flush t = true ∧ i ∈ ((cfg6.win 9).blk t).view.set := by
  have hi0 : (i 0).val < 800000 := (i 0).isLt
  have hi1 : (i 1).val < 2 := (i 1).isLt
  have hN : cfg6.N = 160 := N_6
  obtain ⟨t, ht⟩ : ∃ t : Fin cfg6.N, t.val = (i 0).val / 5000 := ⟨⟨(i 0).val / 5000, by rw [hN]; omega⟩, rfl⟩
  obtain ⟨-, e0, e1⟩ := index_rows t
  refine ⟨t, flush6_9 t, ?_⟩
  rw [mem_block]
  intro a
  match a with
  | ⟨0, _⟩ => show win6_9.index t (0 : Fin 2) * 5000 ≤ (i 0).val ∧ (i 0).val < win6_9.index t (0 : Fin 2) * 5000 + 5000; rw [e0, ht]; omega
  | ⟨1, _⟩ => show win6_9.index t (1 : Fin 2) * 2 ≤ (i 1).val ∧ (i 1).val < win6_9.index t (1 : Fin 2) * 2 + 2; rw [e1]; omega

end Cert.KernelIdeal.Regions.Mlp

namespace Cert.KernelIdeal.Regions

open Cert.KernelIdeal Cert.KernelIdeal.Gen
open Idealize.ShloMosaic Idealize.ShloMosaic.TcCoe
open Idealize.SL.Sem
open Cert.KernelIdeal.Regions.Mlp

/-- THE OUTPUT ARRAY after the region: the classifier's four dense layers on the whole edge-feature array, with the weight
    matrices as the region finds them and the bias vectors whose one-row reshapes the region finds. -/
theorem mlp6 (V : (c : Dev nD) → (b : Ref sig .tc) → Buf (Elt Ideal) ((c : Thread nD τ).loc b)) (c : Dev nD)
    (cb1 : FVec Ideal S256 .f32) (cb2 : FVec Ideal S128 .f32) (cb3 : FVec Ideal S64 .f32) (cb4 : FVec Ideal S2 .f32)
    (h1 : V c (Pipeline.arrRef spec6 2) = shapeCast S1x256 cb1 shapeCasts_S256_S1x256)
    (h2 : V c (Pipeline.arrRef spec6 4) = shapeCast S1x128 cb2 shapeCasts_S128_S1x128)
    (h3 : V c (Pipeline.arrRef spec6 6) = shapeCast S1x64 cb3 shapeCasts_S64_S1x64)
    (h4 : V c (Pipeline.arrRef spec6 8) = shapeCast S1x2 cb4 shapeCasts_S2_S1x2) :
    (dat6 (F := Ideal) V c).arrAt 9 cfg6.N
      = Cert.ReferenceIdeal.Spec.mlpHost (F := Ideal) (V c (Pipeline.arrRef spec6 0)) (V c (Pipeline.arrRef spec6 1)) cb1
          (V c (Pipeline.arrRef spec6 3)) cb2 (V c (Pipeline.arrRef spec6 5)) cb3 (V c (Pipeline.arrRef spec6 7)) cb4 :=
  (dat6 (F := Ideal) V c).arrAt_eq_of_cover 9 _ (fun t _ => written_block V c cb1 cb2 cb3 cb4 h1 h2 h3 h4 t) row_covered

end Cert.KernelIdeal.Regions

end
-- ==== Proof.Assemble.lean ====
/-
  The two programs compared boundary by boundary. At matching boundaries the buffers that matter hold equal arrays:
  each layer's feature product (the kernel's row-blocked product on the vector unit is the host's whole product), its
  aggregate, column mean and column variance (the same host operations on equal inputs), its normalised and rectified
  output (the kernel's pointwise pass over row blocks is the reference's broadcast arithmetic), the edge features, and
  at the end the classifier's output: the kernel's result array is the reference's.
-/
import proofs.«123362_j807453851682_1_alg».proof.Proof.Chain
import proofs.«123362_j807453851682_1_alg».proof.Proof.BridgeLayer1
import proofs.«123362_j807453851682_1_alg».proof.Proof.BridgeLayer2
import proofs.«123362_j807453851682_1_alg».proof.Proof.BridgeLayer3
import proofs.«123362_j807453851682_1_alg».proof.Proof.BridgeRef
import proofs.«123362_j807453851682_1_alg».proof.Proof.MatmulRegion
import proofs.«123362_j807453851682_1_alg».proof.Proof.BnRegion
import proofs.«123362_j807453851682_1_alg».proof.Proof.MlpRegion

set_option maxRecDepth 16384

noncomputable section

namespace Cert.Bridge

open Idealize.ShloMosaic Idealize.ShloMosaic.TcCoe Idealize.SL.Sem Idealize.ShloMosaic.StableHlo
open Cert

variable (m : (ℓ : Loc KernelIdeal.nD KernelIdeal.τ KernelIdeal.sig) → Buf (Elt Ideal) ℓ) (ρ : Dev KernelIdeal.nD → PrngReg)
variable (m' : (ℓ : Loc ReferenceIdeal.nD ReferenceIdeal.τ ReferenceIdeal.sig) → Buf (Elt Ideal) ℓ)
variable (c : Dev KernelIdeal.nD)
variable (hag : Agree m m' c)
include hag

/-! ## Layer 1 -/

/-- The feature product: the region's row blocks tile the host's whole product of equal operands. -/
theorem xw1 : KernelIdeal.Gen.W2 m ρ c (Proc.devRef .tc KernelIdeal.main_v27) = UD1 m' c (Proc.devRef .tc ReferenceIdeal.main_v27) := by
  have hx : KernelIdeal.Gen.V1 m ρ c (Pipeline.arrRef KernelIdeal.spec0 0) = UP m' c (Proc.devRef .tc ReferenceIdeal.main_arg0) := ((klive_1 m ρ c KernelIdeal.main_arg0 (by decide)).trans ((arg1_0 m ρ m' c hag).trans (rlive_P m' c ReferenceIdeal.main_arg0 (by decide)).symm))
  have hw : KernelIdeal.Gen.V1 m ρ c (Pipeline.arrRef KernelIdeal.spec0 1) = UP m' c (Proc.devRef .tc ReferenceIdeal.main_arg2) := ((klive_1 m ρ c KernelIdeal.main_arg2 (by decide)).trans ((arg1_2 m ρ m' c hag).trans (rlive_P m' c ReferenceIdeal.main_arg2 (by decide)).symm))
  have e1 := KernelIdeal.Regions.mm0 (KernelIdeal.Gen.V1 m ρ) c
  rw [hx, hw] at e1
  exact (KernelIdeal.Gen.W2_arr m ρ c 2).trans (e1.trans (refD1 (UP m' c)).symm)

theorem aggA1 : KernelIdeal.Gen.W3 m ρ c (Proc.devRef .tc KernelIdeal.main_v43) = UA1 m' c (Proc.devRef .tc ReferenceIdeal.main_v43) :=
  agg1 (KernelIdeal.Gen.W2 m ρ c) (UD1 m' c) (xw1 m ρ m' c hag) ((klive_2 m ρ c KernelIdeal.main_v5 (by decide)).trans ((live1_v5 m ρ m' c hag).trans (rlive_D1 m' c ReferenceIdeal.main_v5 (by decide)).symm)) ((klive_2 m ρ c KernelIdeal.main_v6 (by decide)).trans ((live1_v6 m ρ m' c hag).trans (rlive_D1 m' c ReferenceIdeal.main_v6 (by decide)).symm)) ((klive_2 m ρ c KernelIdeal.main_v26 (by decide)).trans ((live1_v26 m ρ m' c hag).trans (rlive_D1 m' c ReferenceIdeal.main_v26 (by decide)).symm)) ((klive_2 m ρ c KernelIdeal.main_arg3 (by decide)).trans ((arg1_3 m ρ m' c hag).trans (rlive_D1 m' c ReferenceIdeal.main_arg3 (by decide)).symm))

theorem meanA1 : KernelIdeal.Gen.W3 m ρ c (Proc.devRef .tc KernelIdeal.main_v46) = UA1 m' c (Proc.devRef .tc ReferenceIdeal.main_v46) :=
  mean1 (KernelIdeal.Gen.W2 m ρ c) (UD1 m' c) (xw1 m ρ m' c hag) ((klive_2 m ρ c KernelIdeal.main_v5 (by decide)).trans ((live1_v5 m ρ m' c hag).trans (rlive_D1 m' c ReferenceIdeal.main_v5 (by decide)).symm)) ((klive_2 m ρ c KernelIdeal.main_v6 (by decide)).trans ((live1_v6 m ρ m' c hag).trans (rlive_D1 m' c ReferenceIdeal.main_v6 (by decide)).symm)) ((klive_2 m ρ c KernelIdeal.main_v26 (by decide)).trans ((live1_v26 m ρ m' c hag).trans (rlive_D1 m' c ReferenceIdeal.main_v26 (by decide)).symm)) ((klive_2 m ρ c KernelIdeal.main_arg3 (by decide)).trans ((arg1_3 m ρ m' c hag).trans (rlive_D1 m' c ReferenceIdeal.main_arg3 (by decide)).symm))

theorem cstA1 : KernelIdeal.Gen.W3 m ρ c (Proc.devRef .tc KernelIdeal.main_c_9) = UA1 m' c (Proc.devRef .tc ReferenceIdeal.main_c_9) :=
  cst1 (KernelIdeal.Gen.W2 m ρ c) (UD1 m' c)

theorem varV1 : KernelIdeal.Gen.W4 m ρ c (Proc.devRef .tc KernelIdeal.main_v47) = UV1 m' c (Proc.devRef .tc ReferenceIdeal.main_v47) :=
  var1 (KernelIdeal.Gen.W3 m ρ c) (UA1 m' c) (aggA1 m ρ m' c hag) (cstA1 m ρ m' c hag)

theorem aggAtV1 : KernelIdeal.Gen.W4 m ρ c (Proc.devRef .tc KernelIdeal.main_v43) = UV1 m' c (Proc.devRef .tc ReferenceIdeal.main_v43) :=
  aggV1 (KernelIdeal.Gen.W3 m ρ c) (UA1 m' c) (aggA1 m ρ m' c hag)

theorem meanAtV1 : KernelIdeal.Gen.W4 m ρ c (Proc.devRef .tc KernelIdeal.main_v46) = UV1 m' c (Proc.devRef .tc ReferenceIdeal.main_v46) :=
  meanV1 (KernelIdeal.Gen.W3 m ρ c) (UA1 m' c) (meanA1 m ρ m' c hag)

/-- The normalised, rectified features: the region's pointwise pass against the reference's broadcast arithmetic. -/
theorem h1 : KernelIdeal.Gen.W6 m ρ c (Proc.devRef .tc KernelIdeal.main_v52) = UB1 m' c (Proc.devRef .tc ReferenceIdeal.main_v63) := by
  have e1 := KernelIdeal.Regions.bn1 (KernelIdeal.Gen.V5 m ρ) c (KernelIdeal.Gen.W4 m ρ c (Proc.devRef .tc KernelIdeal.main_v46)) (KernelIdeal.Gen.W4 m ρ c (Proc.devRef .tc KernelIdeal.main_v47)) (KernelIdeal.Gen.W4 m ρ c (Proc.devRef .tc KernelIdeal.main_arg4)) (KernelIdeal.Gen.W4 m ρ c (Proc.devRef .tc KernelIdeal.main_arg5))
    (row1_0 (KernelIdeal.Gen.W4 m ρ c)) (row1_1 (KernelIdeal.Gen.W4 m ρ c)) (row1_2 (KernelIdeal.Gen.W4 m ρ c)) (row1_3 (KernelIdeal.Gen.W4 m ρ c))
  have hx : KernelIdeal.Gen.V5 m ρ c (Pipeline.arrRef KernelIdeal.spec1 0) = UV1 m' c (Proc.devRef .tc ReferenceIdeal.main_v43) := (aggR1 (KernelIdeal.Gen.W4 m ρ c)).trans (aggAtV1 m ρ m' c hag)
  rw [hx, meanAtV1 m ρ m' c hag, varV1 m ρ m' c hag, ((klive_4 m ρ c KernelIdeal.main_arg4 (by decide)).trans ((arg1_4 m ρ m' c hag).trans (rlive_V1 m' c ReferenceIdeal.main_arg4 (by decide)).symm)), ((klive_4 m ρ c KernelIdeal.main_arg5 (by decide)).trans ((arg1_5 m ρ m' c hag).trans (rlive_V1 m' c ReferenceIdeal.main_arg5 (by decide)).symm))] at e1
  exact (KernelIdeal.Gen.W6_arr m ρ c 5).trans (e1.trans (refB1 (UV1 m' c)).symm)

/-! ## Layer 2 -/

/-- The feature product: the region's row blocks tile the host's whole product of equal operands. -/
theorem xw2 : KernelIdeal.Gen.W7 m ρ c (Proc.devRef .tc KernelIdeal.main_v53) = UD2 m' c (Proc.devRef .tc ReferenceIdeal.main_v64) := by
  have hx : KernelIdeal.Gen.V6 m ρ c (Pipeline.arrRef KernelIdeal.spec2 0) = UB1 m' c (Proc.devRef .tc ReferenceIdeal.main_v63) := (h1 m ρ m' c hag)
  have hw : KernelIdeal.Gen.V6 m ρ c (Pipeline.arrRef KernelIdeal.spec2 1) = UB1 m' c (Proc.devRef .tc ReferenceIdeal.main_arg6) := ((klive_6 m ρ c KernelIdeal.main_arg6 (by decide)).trans ((arg1_6 m ρ m' c hag).trans (rlive_B1 m' c ReferenceIdeal.main_arg6 (by decide)).symm))
  have e1 := KernelIdeal.Regions.mm2 (KernelIdeal.Gen.V6 m ρ) c
  rw [hx, hw] at e1
  exact (KernelIdeal.Gen.W7_arr m ρ c 2).trans (e1.trans (refD2 (UB1 m' c)).symm)

theorem aggA2 : KernelIdeal.Gen.W8 m ρ c (Proc.devRef .tc KernelIdeal.main_v69) = UA2 m' c (Proc.devRef .tc ReferenceIdeal.main_v80) :=
  agg2 (KernelIdeal.Gen.W7 m ρ c) (UD2 m' c) (xw2 m ρ m' c hag) ((klive_7 m ρ c KernelIdeal.main_v5 (by decide)).trans ((live1_v5 m ρ m' c hag).trans (rlive_D2 m' c ReferenceIdeal.main_v5 (by decide)).symm)) ((klive_7 m ρ c KernelIdeal.main_v6 (by decide)).trans ((live1_v6 m ρ m' c hag).trans (rlive_D2 m' c ReferenceIdeal.main_v6 (by decide)).symm)) ((klive_7 m ρ c KernelIdeal.main_v26 (by decide)).trans ((live1_v26 m ρ m' c hag).trans (rlive_D2 m' c ReferenceIdeal.main_v26 (by decide)).symm)) ((klive_7 m ρ c KernelIdeal.main_arg7 (by decide)).trans ((arg1_7 m ρ m' c hag).trans (rlive_D2 m' c ReferenceIdeal.main_arg7 (by decide)).symm))

theorem meanA2 : KernelIdeal.Gen.W8 m ρ c (Proc.devRef .tc KernelIdeal.main_v72) = UA2 m' c (Proc.devRef .tc ReferenceIdeal.main_v83) :=
  mean2 (KernelIdeal.Gen.W7 m ρ c) (UD2 m' c) (xw2 m ρ m' c hag) ((klive_7 m ρ c KernelIdeal.main_v5 (by decide)).trans ((live1_v5 m ρ m' c hag).trans (rlive_D2 m' c ReferenceIdeal.main_v5 (by decide)).symm)) ((klive_7 m ρ c KernelIdeal.main_v6 (by decide)).trans ((live1_v6 m ρ m' c hag).trans (rlive_D2 m' c ReferenceIdeal.main_v6 (by decide)).symm)) ((klive_7 m ρ c KernelIdeal.main_v26 (by decide)).trans ((live1_v26 m ρ m' c hag).trans (rlive_D2 m' c ReferenceIdeal.main_v26 (by decide)).symm)) ((klive_7 m ρ c KernelIdeal.main_arg7 (by decide)).trans ((arg1_7 m ρ m' c hag).trans (rlive_D2 m' c ReferenceIdeal.main_arg7 (by decide)).symm))

theorem cstA2 : KernelIdeal.Gen.W8 m ρ c (Proc.devRef .tc KernelIdeal.main_c_15) = UA2 m' c (Proc.devRef .tc ReferenceIdeal.main_c_16) :=
  cst2 (KernelIdeal.Gen.W7 m ρ c) (UD2 m' c)

theorem varV2 : KernelIdeal.Gen.W9 m ρ c (Proc.devRef .tc KernelIdeal.main_v73) = UV2 m' c (Proc.devRef .tc ReferenceIdeal.main_v84) :=
  var2 (KernelIdeal.Gen.W8 m ρ c) (UA2 m' c) (aggA2 m ρ m' c hag) (cstA2 m ρ m' c hag)

theorem aggAtV2 : KernelIdeal.Gen.W9 m ρ c (Proc.devRef .tc KernelIdeal.main_v69) = UV2 m' c (Proc.devRef .tc ReferenceIdeal.main_v80) :=
  aggV2 (KernelIdeal.Gen.W8 m ρ c) (UA2 m' c) (aggA2 m ρ m' c hag)

theorem meanAtV2 : KernelIdeal.Gen.W9 m ρ c (Proc.devRef .tc KernelIdeal.main_v72) = UV2 m' c (Proc.devRef .tc ReferenceIdeal.main_v83) :=
  meanV2 (KernelIdeal.Gen.W8 m ρ c) (UA2 m' c) (meanA2 m ρ m' c hag)

/-- The normalised, rectified features: the region's pointwise pass against the reference's broadcast arithmetic. -/
theorem h2 : KernelIdeal.Gen.W11 m ρ c (Proc.devRef .tc KernelIdeal.main_v78) = UB2 m' c (Proc.devRef .tc ReferenceIdeal.main_v100) := by
  have e1 := KernelIdeal.Regions.bn3 (KernelIdeal.Gen.V10 m ρ) c (KernelIdeal.Gen.W9 m ρ c (Proc.devRef .tc KernelIdeal.main_v72)) (KernelIdeal.Gen.W9 m ρ c (Proc.devRef .tc KernelIdeal.main_v73)) (KernelIdeal.Gen.W9 m ρ c (Proc.devRef .tc KernelIdeal.main_arg8)) (KernelIdeal.Gen.W9 m ρ c (Proc.devRef .tc KernelIdeal.main_arg9))
    (row2_0 (KernelIdeal.Gen.W9 m ρ c)) (row2_1 (KernelIdeal.Gen.W9 m ρ c)) (row2_2 (KernelIdeal.Gen.W9 m ρ c)) (row2_3 (KernelIdeal.Gen.W9 m ρ c))
  have hx : KernelIdeal.Gen.V10 m ρ c (Pipeline.arrRef KernelIdeal.spec3 0) = UV2 m' c (Proc.devRef .tc ReferenceIdeal.main_v80) := (aggR2 (KernelIdeal.Gen.W9 m ρ c)).trans (aggAtV2 m ρ m' c hag)
  rw [hx, meanAtV2 m ρ m' c hag, varV2 m ρ m' c hag, ((klive_9 m ρ c KernelIdeal.main_arg8 (by decide)).trans ((arg1_8 m ρ m' c hag).trans (rlive_V2 m' c ReferenceIdeal.main_arg8 (by decide)).symm)), ((klive_9 m ρ c KernelIdeal.main_arg9 (by decide)).trans ((arg1_9 m ρ m' c hag).trans (rlive_V2 m' c ReferenceIdeal.main_arg9 (by decide)).symm))] at e1
  exact (KernelIdeal.Gen.W11_arr m ρ c 5).trans (e1.trans (refB2 (UV2 m' c)).symm)

/-! ## Layer 3 -/

/-- The feature product: the region's row blocks tile the host's whole product of equal operands. -/
theorem xw3 : KernelIdeal.Gen.W12 m ρ c (Proc.devRef .tc KernelIdeal.main_v79) = UD3 m' c (Proc.devRef .tc ReferenceIdeal.main_v101) := by
  have hx : KernelIdeal.Gen.V11 m ρ c (Pipeline.arrRef KernelIdeal.spec4 0) = UB2 m' c (Proc.devRef .tc ReferenceIdeal.main_v100) := (h2 m ρ m' c hag)
  have hw : KernelIdeal.Gen.V11 m ρ c (Pipeline.arrRef KernelIdeal.spec4 1) = UB2 m' c (Proc.devRef .tc ReferenceIdeal.main_arg10) := ((klive_11 m ρ c KernelIdeal.main_arg10 (by decide)).trans ((arg1_10 m ρ m' c hag).trans (rlive_B2 m' c ReferenceIdeal.main_arg10 (by decide)).symm))
  have e1 := KernelIdeal.Regions.mm4 (KernelIdeal.Gen.V11 m ρ) c
  rw [hx, hw] at e1
  exact (KernelIdeal.Gen.W12_arr m ρ c 2).trans (e1.trans (refD3 (UB2 m' c)).symm)

theorem aggA3 : KernelIdeal.Gen.W13 m ρ c (Proc.devRef .tc KernelIdeal.main_v95) = UA3 m' c (Proc.devRef .tc ReferenceIdeal.main_v117) :=
  agg3 (KernelIdeal.Gen.W12 m ρ c) (UD3 m' c) (xw3 m ρ m' c hag) ((klive_12 m ρ c KernelIdeal.main_v5 (by decide)).trans ((live1_v5 m ρ m' c hag).trans (rlive_D3 m' c ReferenceIdeal.main_v5 (by decide)).symm)) ((klive_12 m ρ c KernelIdeal.main_v6 (by decide)).trans ((live1_v6 m ρ m' c hag).trans (rlive_D3 m' c ReferenceIdeal.main_v6 (by decide)).symm)) ((klive_12 m ρ c KernelIdeal.main_v26 (by decide)).trans ((live1_v26 m ρ m' c hag).trans (rlive_D3 m' c ReferenceIdeal.main_v26 (by decide)).symm)) ((klive_12 m ρ c KernelIdeal.main_arg11 (by decide)).trans ((arg1_11 m ρ m' c hag).trans (rlive_D3 m' c ReferenceIdeal.main_arg11 (by decide)).symm))

theorem meanA3 : KernelIdeal.Gen.W13 m ρ c (Proc.devRef .tc KernelIdeal.main_v98) = UA3 m' c (Proc.devRef .tc ReferenceIdeal.main_v120) :=
  mean3 (KernelIdeal.Gen.W12 m ρ c) (UD3 m' c) (xw3 m ρ m' c hag) ((klive_12 m ρ c KernelIdeal.main_v5 (by decide)).trans ((live1_v5 m ρ m' c hag).trans (rlive_D3 m' c ReferenceIdeal.main_v5 (by decide)).symm)) ((klive_12 m ρ c KernelIdeal.main_v6 (by decide)).trans ((live1_v6 m ρ m' c hag).trans (rlive_D3 m' c ReferenceIdeal.main_v6 (by decide)).symm)) ((klive_12 m ρ c KernelIdeal.main_v26 (by decide)).trans ((live1_v26 m ρ m' c hag).trans (rlive_D3 m' c ReferenceIdeal.main_v26 (by decide)).symm)) ((klive_12 m ρ c KernelIdeal.main_arg11 (by decide)).trans ((arg1_11 m ρ m' c hag).trans (rlive_D3 m' c ReferenceIdeal.main_arg11 (by decide)).symm))

theorem cstA3 : KernelIdeal.Gen.W13 m ρ c (Proc.devRef .tc KernelIdeal.main_c_21) = UA3 m' c (Proc.devRef .tc ReferenceIdeal.main_c_23) :=
  cst3 (KernelIdeal.Gen.W12 m ρ c) (UD3 m' c)

theorem varV3 : KernelIdeal.Gen.W14 m ρ c (Proc.devRef .tc KernelIdeal.main_v99) = UV3 m' c (Proc.devRef .tc ReferenceIdeal.main_v121) :=
  var3 (KernelIdeal.Gen.W13 m ρ c) (UA3 m' c) (aggA3 m ρ m' c hag) (cstA3 m ρ m' c hag)

theorem aggAtV3 : KernelIdeal.Gen.W14 m ρ c (Proc.devRef .tc KernelIdeal.main_v95) = UV3 m' c (Proc.devRef .tc ReferenceIdeal.main_v117) :=
  aggV3 (KernelIdeal.Gen.W13 m ρ c) (UA3 m' c) (aggA3 m ρ m' c hag)

theorem meanAtV3 : KernelIdeal.Gen.W14 m ρ c (Proc.devRef .tc KernelIdeal.main_v98) = UV3 m' c (Proc.devRef .tc ReferenceIdeal.main_v120) :=
  meanV3 (KernelIdeal.Gen.W13 m ρ c) (UA3 m' c) (meanA3 m ρ m' c hag)

/-- The normalised, rectified features: the region's pointwise pass against the reference's broadcast arithmetic. -/
theorem h3 : KernelIdeal.Gen.W16 m ρ c (Proc.devRef .tc KernelIdeal.main_v104) = UB3 m' c (Proc.devRef .tc ReferenceIdeal.main_v137) := by
  have e1 := KernelIdeal.Regions.bn5 (KernelIdeal.Gen.V15 m ρ) c (KernelIdeal.Gen.W14 m ρ c (Proc.devRef .tc KernelIdeal.main_v98)) (KernelIdeal.Gen.W14 m ρ c (Proc.devRef .tc KernelIdeal.main_v99)) (KernelIdeal.Gen.W14 m ρ c (Proc.devRef .tc KernelIdeal.main_arg12)) (KernelIdeal.Gen.W14 m ρ c (Proc.devRef .tc KernelIdeal.main_arg13))
    (row3_0 (KernelIdeal.Gen.W14 m ρ c)) (row3_1 (KernelIdeal.Gen.W14 m ρ c)) (row3_2 (KernelIdeal.Gen.W14 m ρ c)) (row3_3 (KernelIdeal.Gen.W14 m ρ c))
  have hx : KernelIdeal.Gen.V15 m ρ c (Pipeline.arrRef KernelIdeal.spec5 0) = UV3 m' c (Proc.devRef .tc ReferenceIdeal.main_v117) := (aggR3 (KernelIdeal.Gen.W14 m ρ c)).trans (aggAtV3 m ρ m' c hag)
  rw [hx, meanAtV3 m ρ m' c hag, varV3 m ρ m' c hag, ((klive_14 m ρ c KernelIdeal.main_arg12 (by decide)).trans ((arg1_12 m ρ m' c hag).trans (rlive_V3 m' c ReferenceIdeal.main_arg12 (by decide)).symm)), ((klive_14 m ρ c KernelIdeal.main_arg13 (by decide)).trans ((arg1_13 m ρ m' c hag).trans (rlive_V3 m' c ReferenceIdeal.main_arg13 (by decide)).symm))] at e1
  exact (KernelIdeal.Gen.W16_arr m ρ c 5).trans (e1.trans (refB3 (UV3 m' c)).symm)

/-! ## The edge features and the classifier -/

theorem efeatE : KernelIdeal.Gen.W17 m ρ c (Proc.devRef .tc KernelIdeal.main_v119) = UE m' c (Proc.devRef .tc ReferenceIdeal.main_v152) :=
  efeat (KernelIdeal.Gen.W16 m ρ c) (UB3 m' c) (h3 m ρ m' c hag) ((klive_16 m ρ c KernelIdeal.main_v1 (by decide)).trans ((live1_v1 m ρ m' c hag).trans (rlive_B3 m' c ReferenceIdeal.main_v1 (by decide)).symm)) ((klive_16 m ρ c KernelIdeal.main_v3 (by decide)).trans ((live1_v3 m ρ m' c hag).trans (rlive_B3 m' c ReferenceIdeal.main_v3 (by decide)).symm))

set_option maxHeartbeats 4000000 in
/-- The kernel's result array is the reference's. -/
theorem result_eq : KernelIdeal.Gen.W18 m ρ c (Proc.devRef .tc KernelIdeal.main_v124) = UM m' c (Proc.devRef .tc ReferenceIdeal.main_v171) := by
  have e1 := KernelIdeal.Regions.mlp6 (KernelIdeal.Gen.V17 m ρ) c (KernelIdeal.Gen.W16 m ρ c (Proc.devRef .tc KernelIdeal.main_arg15)) (KernelIdeal.Gen.W16 m ρ c (Proc.devRef .tc KernelIdeal.main_arg17)) (KernelIdeal.Gen.W16 m ρ c (Proc.devRef .tc KernelIdeal.main_arg19)) (KernelIdeal.Gen.W16 m ρ c (Proc.devRef .tc KernelIdeal.main_arg21))
    (rowM_0 (KernelIdeal.Gen.W16 m ρ c)) (rowM_1 (KernelIdeal.Gen.W16 m ρ c)) (rowM_2 (KernelIdeal.Gen.W16 m ρ c)) (rowM_3 (KernelIdeal.Gen.W16 m ρ c))
  have hx : KernelIdeal.Gen.V17 m ρ c (Pipeline.arrRef KernelIdeal.spec6 0) = UE m' c (Proc.devRef .tc ReferenceIdeal.main_v152) := efeatE m ρ m' c hag
  have hw1 : KernelIdeal.Gen.V17 m ρ c (Pipeline.arrRef KernelIdeal.spec6 1) = UE m' c (Proc.devRef .tc ReferenceIdeal.main_arg14) := ((klive_17 m ρ c KernelIdeal.main_arg14 (by decide)).trans ((arg1_14 m ρ m' c hag).trans (rlive_E m' c ReferenceIdeal.main_arg14 (by decide)).symm))
  have hw3 : KernelIdeal.Gen.V17 m ρ c (Pipeline.arrRef KernelIdeal.spec6 3) = UE m' c (Proc.devRef .tc ReferenceIdeal.main_arg16) := ((klive_17 m ρ c KernelIdeal.main_arg16 (by decide)).trans ((arg1_16 m ρ m' c hag).trans (rlive_E m' c ReferenceIdeal.main_arg16 (by decide)).symm))
  have hw5 : KernelIdeal.Gen.V17 m ρ c (Pipeline.arrRef KernelIdeal.spec6 5) = UE m' c (Proc.devRef .tc ReferenceIdeal.main_arg18) := ((klive_17 m ρ c KernelIdeal.main_arg18 (by decide)).trans ((arg1_18 m ρ m' c hag).trans (rlive_E m' c ReferenceIdeal.main_arg18 (by decide)).symm))
  have hw7 : KernelIdeal.Gen.V17 m ρ c (Pipeline.arrRef KernelIdeal.spec6 7) = UE m' c (Proc.devRef .tc ReferenceIdeal.main_arg20) := ((klive_17 m ρ c KernelIdeal.main_arg20 (by decide)).trans ((arg1_20 m ρ m' c hag).trans (rlive_E m' c ReferenceIdeal.main_arg20 (by decide)).symm))
  rw [hx, hw1, hw3, hw5, hw7, ((klive_16 m ρ c KernelIdeal.main_arg15 (by decide)).trans ((arg1_15 m ρ m' c hag).trans (rlive_E m' c ReferenceIdeal.main_arg15 (by decide)).symm)), ((klive_16 m ρ c KernelIdeal.main_arg17 (by decide)).trans ((arg1_17 m ρ m' c hag).trans (rlive_E m' c ReferenceIdeal.main_arg17 (by decide)).symm)), ((klive_16 m ρ c KernelIdeal.main_arg19 (by decide)).trans ((arg1_19 m ρ m' c hag).trans (rlive_E m' c ReferenceIdeal.main_arg19 (by decide)).symm)), ((klive_16 m ρ c KernelIdeal.main_arg21 (by decide)).trans ((arg1_21 m ρ m' c hag).trans (rlive_E m' c ReferenceIdeal.main_arg21 (by decide)).symm))] at e1
  have e0 : KernelIdeal.Gen.W18 m ρ c (Proc.devRef .tc KernelIdeal.main_v124) = (KernelIdeal.Gen.dat6 (F := Ideal) (KernelIdeal.Gen.V17 m ρ) c).arrAt 9 KernelIdeal.cfg6.N := KernelIdeal.Gen.W18_arr m ρ c 9
  have e2 := refM (UE m' c)
  have e3 := e1.trans e2.symm
  rw [e0]
  exact e3

/-- From memories agreeing on the arguments, the kernel's result (the fold `W18` at the result buffer) is the
    reference's line folded over its launch contents, read at its result buffer. -/
theorem value_eq : KernelIdeal.Gen.W18 m ρ c (Proc.devRef .tc KernelIdeal.main_v124) = after (ReferenceIdeal.Hand.ops (F := Ideal)) (launchContents m' c) (Proc.devRef .tc ReferenceIdeal.main_v171) :=
  (result_eq m ρ m' c hag).trans (congrFun (ops_fold m' c) _).symm

end Cert.Bridge

end
-- ==== Proof.lean ====
/-
  The certificate's five claims. The word-level kernel and its idealization run, nothing faulting, with the argument
  arrays unchanged (the generated frames of their seven regions among the host stretches); the idealization rewrote no
  operation, so it preserves the kernel trivially; the reference's line of host operations runs and leaves the
  arguments as launched; and at the ideal instance, from memories agreeing on the arguments, the kernel's result array
  is the reference's: three graph-convolution layers — a feature product, the degree-normalised aggregation over the
  edges with self-loops, batch normalisation by the column mean and variance, the rectifier — then the edge features
  and the four-layer classifier, the same arithmetic in the same order on both sides, the kernel's row-blocked regions
  tiling what the reference computes on whole arrays. No finiteness of the inputs is used.
-/
import proofs.«123362_j807453851682_1_alg».proof.Defs
import proofs.«123362_j807453851682_1_alg».proof.Proof.Gen.Kernel.Frame
import proofs.«123362_j807453851682_1_alg».proof.Proof.Gen.KernelIdeal.Frame
import proofs.«123362_j807453851682_1_alg».proof.Proof.Gen.Pre_finite_inputs
import proofs.«123362_j807453851682_1_alg».proof.Proof.KernelRun
import proofs.«123362_j807453851682_1_alg».proof.Proof.RefRun
import proofs.«123362_j807453851682_1_alg».proof.Proof.Assemble

set_option maxRecDepth 16384

noncomputable section

namespace Cert.Proof

open Idealize.ShloMosaic Idealize.ShloMosaic.TcCoe Idealize.SL.Sem Idealize.ShloMosaic.StableHlo

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's line ends with every argument as launched. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c =>
    ⟨(h c Cert.ReferenceIdeal.main_arg0).trans (Cert.Bridge.ref_arg m c Cert.ReferenceIdeal.main_arg0 (by decide)),
     (h c Cert.ReferenceIdeal.main_arg1).trans (Cert.Bridge.ref_arg m c Cert.ReferenceIdeal.main_arg1 (by decide)),
     (h c Cert.ReferenceIdeal.main_arg2).trans (Cert.Bridge.ref_arg m c Cert.ReferenceIdeal.main_arg2 (by decide)),
     (h c Cert.ReferenceIdeal.main_arg3).trans (Cert.Bridge.ref_arg m c Cert.ReferenceIdeal.main_arg3 (by decide)),
     (h c Cert.ReferenceIdeal.main_arg4).trans (Cert.Bridge.ref_arg m c Cert.ReferenceIdeal.main_arg4 (by decide)),
     (h c Cert.ReferenceIdeal.main_arg5).trans (Cert.Bridge.ref_arg m c Cert.ReferenceIdeal.main_arg5 (by decide)),
     (h c Cert.ReferenceIdeal.main_arg6).trans (Cert.Bridge.ref_arg m c Cert.ReferenceIdeal.main_arg6 (by decide)),
     (h c Cert.ReferenceIdeal.main_arg7).trans (Cert.Bridge.ref_arg m c Cert.ReferenceIdeal.main_arg7 (by decide)),
     (h c Cert.ReferenceIdeal.main_arg8).trans (Cert.Bridge.ref_arg m c Cert.ReferenceIdeal.main_arg8 (by decide)),
     (h c Cert.ReferenceIdeal.main_arg9).trans (Cert.Bridge.ref_arg m c Cert.ReferenceIdeal.main_arg9 (by decide)),
     (h c Cert.ReferenceIdeal.main_arg10).trans (Cert.Bridge.ref_arg m c Cert.ReferenceIdeal.main_arg10 (by decide)),
     (h c Cert.ReferenceIdeal.main_arg11).trans (Cert.Bridge.ref_arg m c Cert.ReferenceIdeal.main_arg11 (by decide)),
     (h c Cert.ReferenceIdeal.main_arg12).trans (Cert.Bridge.ref_arg m c Cert.ReferenceIdeal.main_arg12 (by decide)),
     (h c Cert.ReferenceIdeal.main_arg13).trans (Cert.Bridge.ref_arg m c Cert.ReferenceIdeal.main_arg13 (by decide)),
     (h c Cert.ReferenceIdeal.main_arg14).trans (Cert.Bridge.ref_arg m c Cert.ReferenceIdeal.main_arg14 (by decide)),
     (h c Cert.ReferenceIdeal.main_arg15).trans (Cert.Bridge.ref_arg m c Cert.ReferenceIdeal.main_arg15 (by decide)),
     (h c Cert.ReferenceIdeal.main_arg16).trans (Cert.Bridge.ref_arg m c Cert.ReferenceIdeal.main_arg16 (by decide)),
     (h c Cert.ReferenceIdeal.main_arg17).trans (Cert.Bridge.ref_arg m c Cert.ReferenceIdeal.main_arg17 (by decide)),
     (h c Cert.ReferenceIdeal.main_arg18).trans (Cert.Bridge.ref_arg m c Cert.ReferenceIdeal.main_arg18 (by decide)),
     (h c Cert.ReferenceIdeal.main_arg19).trans (Cert.Bridge.ref_arg m c Cert.ReferenceIdeal.main_arg19 (by decide)),
     (h c Cert.ReferenceIdeal.main_arg20).trans (Cert.Bridge.ref_arg m c Cert.ReferenceIdeal.main_arg20 (by decide)),
     (h c Cert.ReferenceIdeal.main_arg21).trans (Cert.Bridge.ref_arg m c Cert.ReferenceIdeal.main_arg21 (by decide))⟩)
    (Cert.ReferenceIdeal.Hand.run_main (F := Ideal) m ρ)

/-- From memories agreeing on the arguments both idealized programs run and end with the same result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => after (Cert.ReferenceIdeal.Hand.ops (F := Ideal)) (launchContents m' c) (Proc.devRef .tc Cert.ReferenceIdeal.main_v171), ?_, ?_⟩
  · exact (θ_run Cert.KernelIdeal.defs _ _).mono
      (fun _ h c => ⟨(h c).1.trans (Cert.Bridge.value_eq m ρ m' c (hagree c)), (h c).2⟩)
      (Cert.KernelIdeal.Hand.run_result (F := Ideal) m ρ)
  · exact (θ_run Cert.ReferenceIdeal.defs _ _).mono (fun _ h c =>
      ⟨h c Cert.ReferenceIdeal.main_v171,
       (h c Cert.ReferenceIdeal.main_arg0).trans (Cert.Bridge.ref_arg m' c Cert.ReferenceIdeal.main_arg0 (by decide)),
       (h c Cert.ReferenceIdeal.main_arg1).trans (Cert.Bridge.ref_arg m' c Cert.ReferenceIdeal.main_arg1 (by decide)),
       (h c Cert.ReferenceIdeal.main_arg2).trans (Cert.Bridge.ref_arg m' c Cert.ReferenceIdeal.main_arg2 (by decide)),
       (h c Cert.ReferenceIdeal.main_arg3).trans (Cert.Bridge.ref_arg m' c Cert.ReferenceIdeal.main_arg3 (by decide)),
       (h c Cert.ReferenceIdeal.main_arg4).trans (Cert.Bridge.ref_arg m' c Cert.ReferenceIdeal.main_arg4 (by decide)),
       (h c Cert.ReferenceIdeal.main_arg5).trans (Cert.Bridge.ref_arg m' c Cert.ReferenceIdeal.main_arg5 (by decide)),
       (h c Cert.ReferenceIdeal.main_arg6).trans (Cert.Bridge.ref_arg m' c Cert.ReferenceIdeal.main_arg6 (by decide)),
       (h c Cert.ReferenceIdeal.main_arg7).trans (Cert.Bridge.ref_arg m' c Cert.ReferenceIdeal.main_arg7 (by decide)),
       (h c Cert.ReferenceIdeal.main_arg8).trans (Cert.Bridge.ref_arg m' c Cert.ReferenceIdeal.main_arg8 (by decide)),
       (h c Cert.ReferenceIdeal.main_arg9).trans (Cert.Bridge.ref_arg m' c Cert.ReferenceIdeal.main_arg9 (by decide)),
       (h c Cert.ReferenceIdeal.main_arg10).trans (Cert.Bridge.ref_arg m' c Cert.ReferenceIdeal.main_arg10 (by decide)),
       (h c Cert.ReferenceIdeal.main_arg11).trans (Cert.Bridge.ref_arg m' c Cert.ReferenceIdeal.main_arg11 (by decide)),
       (h c Cert.ReferenceIdeal.main_arg12).trans (Cert.Bridge.ref_arg m' c Cert.ReferenceIdeal.main_arg12 (by decide)),
       (h c Cert.ReferenceIdeal.main_arg13).trans (Cert.Bridge.ref_arg m' c Cert.ReferenceIdeal.main_arg13 (by decide)),
       (h c Cert.ReferenceIdeal.main_arg14).trans (Cert.Bridge.ref_arg m' c Cert.ReferenceIdeal.main_arg14 (by decide)),
       (h c Cert.ReferenceIdeal.main_arg15).trans (Cert.Bridge.ref_arg m' c Cert.ReferenceIdeal.main_arg15 (by decide)),
       (h c Cert.ReferenceIdeal.main_arg16).trans (Cert.Bridge.ref_arg m' c Cert.ReferenceIdeal.main_arg16 (by decide)),
       (h c Cert.ReferenceIdeal.main_arg17).trans (Cert.Bridge.ref_arg m' c Cert.ReferenceIdeal.main_arg17 (by decide)),
       (h c Cert.ReferenceIdeal.main_arg18).trans (Cert.Bridge.ref_arg m' c Cert.ReferenceIdeal.main_arg18 (by decide)),
       (h c Cert.ReferenceIdeal.main_arg19).trans (Cert.Bridge.ref_arg m' c Cert.ReferenceIdeal.main_arg19 (by decide)),
       (h c Cert.ReferenceIdeal.main_arg20).trans (Cert.Bridge.ref_arg m' c Cert.ReferenceIdeal.main_arg20 (by decide)),
       (h c Cert.ReferenceIdeal.main_arg21).trans (Cert.Bridge.ref_arg m' c Cert.ReferenceIdeal.main_arg21 (by decide))⟩)
      (Cert.ReferenceIdeal.Hand.run_main (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
